-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S4x256x4096 : Shape := ⟨3, ![4, 256, 4096]⟩
abbrev S4x4096x256 : Shape := ⟨3, ![4, 4096, 256]⟩
abbrev S1x256x1024 : Shape := ⟨3, ![1, 256, 1024]⟩
abbrev S1x256x512 : Shape := ⟨3, ![1, 256, 512]⟩
abbrev S1x1024x256 : Shape := ⟨3, ![1, 1024, 256]⟩
abbrev S1024x256 : Shape := ⟨2, ![1024, 256]⟩
abbrev S1024x1 : Shape := ⟨2, ![1024, 1]⟩
abbrev S256x1024 : Shape := ⟨2, ![256, 1024]⟩
abbrev S256x512 : Shape := ⟨2, ![256, 512]⟩
abbrev S1024x512 : Shape := ⟨2, ![1024, 512]⟩
abbrev S1024 : Shape := ⟨1, ![1024]⟩
abbrev S4x512x64x64 : Shape := ⟨4, ![4, 512, 64, 64]⟩

abbrev nBuf : Space → Nat
  | .hbm => 13
  | .vmem => 22
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S4x256x4096, .f32⟩
  | .hbm, ⟨4, _⟩ => ⟨S4x256x4096, .bf16⟩
  | .hbm, ⟨5, _⟩ => ⟨S4x256x4096, .bf16⟩
  | .hbm, ⟨6, _⟩ => ⟨S4x4096x256, .f32⟩
  | .hbm, ⟨7, _⟩ => ⟨S4x4096x256, .f32⟩
  | .hbm, ⟨8, _⟩ => ⟨S4x256x4096, .f32⟩
  | .hbm, ⟨9, _⟩ => ⟨S4x256x64x64, .f32⟩
  | .hbm, ⟨10, _⟩ => ⟨S4x256x4096, .f32⟩
  | .hbm, ⟨11, _⟩ => ⟨S4x256x64x64, .f32⟩
  | .hbm, ⟨12, _⟩ => ⟨S4x512x64x64, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S1024x256, .f32⟩
  | .local _ .vmem, ⟨17, _⟩ => ⟨S1024x256, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v73 : BitVec 1 := Scalar.cmpi .eq arg2 c7_i32
  let v74 : BitVec 32 := Scalar.extui v73
  let c0_i32_47 : BitVec 32 := 0#32
  let v75 : BitVec 1 := Scalar.cmpi .ne v74 c0_i32_47
  v75

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x256x64x64_S4x256x4096 : S4x256x64x64.ShapeCasts S4x256x4096
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x256 : S1024x1.Broadcasts S1024x256
  transposes_S256x1024_p1_0_S1024x256 : S256x1024.Transposes [1, 0] S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  transposes_S4x4096x256_S4x256x4096_0_2_1 : S4x4096x256.Transposes [0, 2, 1] S4x256x4096
  shapeCasts_S4x256x4096_S4x256x64x64 : S4x256x4096.ShapeCasts S4x256x64x64
  concatenates_S4x256x64x64_S4x256x64x64_S4x512x64x64_d1 : Shape.Concatenates [S4x256x64x64, S4x256x64x64] S4x512x64x64 1
  dot_S256x1024_S256x512_S1024x512_0_0_1_1_n_n_wf : DotDims.WF S256x1024 S256x512 S1024x512 [0] [0] [1] [1] [] []
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x256x4096.size a
  hwx0_0 : ∀ i : grid0.Coords, EltTy.bits .bf16 = 32 ∨ (Rect.block (s := S4x256x4096) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x256x4096.size a
  hwx0_1 : ∀ i : grid0.Coords, EltTy.bits .bf16 = 32 ∨ (Rect.block (s := S4x256x4096) S1x256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S4x256x4096.size a
  hwx0_2 : ∀ i : grid0.Coords, EltTy.bits .bf16 = 32 ∨ (Rect.block (s := S4x256x4096) S1x256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S4x256x4096.size a
  hwx0_3 : ∀ i : grid0.Coords, EltTy.bits .bf16 = 32 ∨ (Rect.block (s := S4x256x4096) S1x256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S4x256x4096.size a
  hwx0_4 : ∀ i : grid0.Coords, EltTy.bits .f32 = 32 ∨ (Rect.block (s := S4x256x4096) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x256x4096.size a
  hwx0_5 : ∀ i : grid0.Coords, EltTy.bits .f32 = 32 ∨ (Rect.block (s := S4x256x4096) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S4x4096x256.size a
  hwx0_6 : ∀ i : grid0.Coords, EltTy.bits .f32 = 32 ∨ (Rect.block (s := S4x4096x256) S1x1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S4x4096x256.size a
  hwx0_7 : ∀ i : grid0.Coords, EltTy.bits .f32 = 32 ∨ (Rect.block (s := S4x4096x256) S1x1024x256.size (cc0_transform_7 i) (hinb0_7 i)).WholeWords (EltTy.packing .f32)

variable [Facts₀]

def dot_S256x1024_S256x512_S1024x512_0_0_1_1_n_n : DotDims S256x1024 S256x512 S1024x512 where
  lhsContracting := [0]
  rhsContracting := [0]
  lhsNonContracting := [1]
  rhsNonContracting := [1]
  lhsBatch := []
  rhsBatch := []
  wf := dot_S256x1024_S256x512_S1024x512_0_0_1_1_n_n_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_v2) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S4x256x4096 : Shape := ⟨3, ![4, 256, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x512x64x64 : Shape := ⟨4, ![4, 512, 64, 64]⟩

abbrev nBuf : Space → Nat
  | .hbm => 41
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S4x256x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x256x4096, .f32⟩
  | .hbm, ⟨35, _⟩ => ⟨S4x256x64x64, .f32⟩
  | .hbm, ⟨36, _⟩ => ⟨S4x256x4096, .f32⟩
  | .hbm, ⟨37, _⟩ => ⟨S4x256x64x64, .f32⟩
  | .hbm, ⟨38, _⟩ => ⟨S4x256x64x64, .f32⟩
  | .hbm, ⟨39, _⟩ => ⟨S4x256x64x64, .f32⟩
  | .hbm, ⟨40, _⟩ => ⟨S4x512x64x64, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x256x4096_S4x256x64x64 : S4x256x4096.ShapeCasts S4x256x64x64
  concatenates_S4x256x64x64_S4x256x64x64_S4x512x64x64_d1 : Shape.Concatenates [S4x256x64x64, S4x256x64x64] S4x512x64x64 1
  dot_S4x256x4096_S4x256x4096_S4x4096x4096_1_1_2_2_0_0_wf : DotDims.WF S4x256x4096 S4x256x4096 S4x4096x4096 [1] [1] [2] [2] [0] [0]
  dot_S4x256x4096_S4x4096x4096_S4x256x4096_2_2_1_1_0_0_wf : DotDims.WF S4x256x4096 S4x4096x4096 S4x256x4096 [2] [2] [1] [1] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf
def dot_S4x256x4096_S4x4096x4096_S4x256x4096_2_2_1_1_0_0 : DotDims S4x256x4096 S4x4096x4096 S4x256x4096 where
  lhsContracting := [2]
  rhsContracting := [2]
  lhsNonContracting := [1]
  rhsNonContracting := [1]
  lhsBatch := [0]
  rhsBatch := [0]
  wf := dot_S4x256x4096_S4x4096x4096_S4x256x4096_2_2_1_1_0_0_wf

class Facts : Prop extends Facts₀ where

variable [Facts]
-- ==== Proof.BitsFlashBase.lean ====
/-
  The attention kernel's grid is (batch, query block, key block) = 4 × 4 × 8, the key block running fastest: a point
  t is the first of its run of eight key blocks when t ≡ 0 (mod 8) — there the body resets the running maximum, the
  running normaliser and the accumulator of both directions — and the last when t ≡ 7 (mod 8) — there, and only
  there, it stores the two output blocks. This module states those two conditions as the body computes them,
  decides them over the grid in closed form, says where the output windows are idle, and names the staging and
  scratch memrefs the body is called with.
-/
import proofs.«154790_j27118423507780_2_alg».proof.Proof.Gen.Kernel.Launch
import proofs.«154790_j27118423507780_2_alg».proof.Proof.Gen.Kernel.Skeleton
import proofs.«154790_j27118423507780_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first conditional, as it computes it from the key-block coordinate: "this is key block 0". -/
abbrev atFirst (i : grid0.Coords) : Prop :=
  (Scalar.cmpi .ne (Scalar.extui (Scalar.cmpi .eq (BitVec.ofNat 32 (i 2).val) 0#32)) 0#32) = 1#1
/-- It holds exactly at the points ≡ 0 (mod 8). -/
theorem atFirst_iff : ∀ t : Fin cfg0.N, atFirst (grid0.coords t) ↔ t.val % 8 = 0 :=
  (by decide +kernel : ∀ t : Fin grid0.N, atFirst (grid0.coords t) ↔ t.val % 8 = 0)

/-- The body's second conditional: "this is key block 7", the last. -/
abbrev atLast (i : grid0.Coords) : Prop := k0_cond2 i = 1#1
/-- It holds exactly at the points ≡ 7 (mod 8). -/
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_in : ∀ (w : Fin 8), w.val < 6 → ∀ t : Fin cfg0.N, cfg0.idle w (grid0.coords t) = false := by decide +kernel
/-- Away from the last key block the body stores nothing into either output window, and the pipeline does not write them back. -/
theorem idle_out6 : ∀ t : Fin cfg0.N, ¬atLast (grid0.coords t) → cfg0.idle 6 (grid0.coords t) = true := by decide +kernel
theorem idle_out7 : ∀ t : Fin cfg0.N, ¬atLast (grid0.coords t) → cfg0.idle 7 (grid0.coords t) = true := by decide +kernel
theorem noFlush6 : ∀ t : Fin cfg0.N, ¬atLast (grid0.coords t) → (cfg0.win 6).flush t = false := by decide +kernel
theorem noFlush7 : ∀ t : Fin cfg0.N, ¬atLast (grid0.coords t) → (cfg0.win 7).flush t = false := by decide +kernel
/-- At the last key block both are live. -/
theorem live_out6 : ∀ t : Fin cfg0.N, atLast (grid0.coords t) → cfg0.idle 6 (grid0.coords t) = false := by decide +kernel
theorem live_out7 : ∀ t : Fin cfg0.N, atLast (grid0.coords t) → cfg0.idle 7 (grid0.coords t) = false := by decide +kernel

/-! ## The memrefs the body is called with -/

abbrev ms0 (t : Fin cfg0.N) : Memref sig .tc .vmem S1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x256 .f32 := win0_7.stage (cfg0.slots t 7)
abbrev hs7 (t : Fin cfg0.N) : (ms7 t).IsWhole := hstage0_7 ((cfg0.slots t 7).cast nbuf0_7)

/-- The six scratch operands, whole scoped buffers of the kernel's own: the two accumulators, then the running
    maximum and the running normaliser of each direction. -/
abbrev scAccV : Memref sig .tc .vmem S1024x256 .f32 := Memref.whole cc0_scratch0
abbrev scAccT : Memref sig .tc .vmem S1024x256 .f32 := Memref.whole cc0_scratch1
abbrev scMaxV : Memref sig .tc .vmem S1024x1 .f32 := Memref.whole cc0_scratch2
abbrev scSumV : Memref sig .tc .vmem S1024x1 .f32 := Memref.whole cc0_scratch3
abbrev scMaxT : Memref sig .tc .vmem S1024x1 .f32 := Memref.whole cc0_scratch4
abbrev scSumT : Memref sig .tc .vmem S1024x1 .f32 := Memref.whole cc0_scratch5

/-- One staging buffer of each output window, through which its contents are stated. -/
abbrev VO6 : View sig .tc .vmem S1x1024x256 .f32 := (Memref.whole cc0_stg6_0 : Memref sig .tc .vmem S1x1024x256 .f32).view
abbrev VO7 : View sig .tc .vmem S1x1024x256 .f32 := (Memref.whole cc0_stg7_0 : Memref sig .tc .vmem S1x1024x256 .f32).view

end Cert.Kernel.Flash

end
-- ==== Proof.BitsFlashRunFirst.lean ====
/-
  The whole body run once, symbolically, at the first key block of a run (the reset is taken, the output stores are not): from the six input
  blocks, the scratch at anything and the two output buffers untouched, to the same
  input blocks, the scratch rewritten by the online-softmax update of both directions —
  what each buffer ends with is found by the run itself, as the list of its stores.
-/
import proofs.«154790_j27118423507780_2_alg».proof.Proof.BitsFlashBase

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key block of a run (the reset is taken, the output stores are not): what its stores leave in each output and scratch buffer, as pieces (last first), with the proof that it runs to the continuation holding them. -/
noncomputable def runFirst (c : Dev nD) (i : grid0.Coords) (a3 : Memref sig .tc .vmem S1x256x1024 .bf16) (h3 : a3.IsWhole) (a4 : Memref sig .tc .vmem S1x256x1024 .bf16) (h4 : a4.IsWhole) (a5 : Memref sig .tc .vmem S1x256x512 .bf16) (h5 : a5.IsWhole) (a6 : Memref sig .tc .vmem S1x256x512 .bf16) (h6 : a6.IsWhole) (a7 : Memref sig .tc .vmem S1x256x1024 .f32) (h7 : a7.IsWhole) (a8 : Memref sig .tc .vmem S1x256x1024 .f32) (h8 : a8.IsWhole) (a9 : Memref sig .tc .vmem S1x1024x256 .f32) (h9 : a9.IsWhole) (a10 : Memref sig .tc .vmem S1x1024x256 .f32) (h10 : a10.IsWhole) (a11 : Memref sig .tc .vmem S1024x256 .f32) (h11 : a11.IsWhole) (a12 : Memref sig .tc .vmem S1024x256 .f32) (h12 : a12.IsWhole) (a13 : Memref sig .tc .vmem S1024x1 .f32) (h13 : a13.IsWhole) (a14 : Memref sig .tc .vmem S1024x1 .f32) (h14 : a14.IsWhole) (a15 : Memref sig .tc .vmem S1024x1 .f32) (h15 : a15.IsWhole) (a16 : Memref sig .tc .vmem S1024x1 .f32) (h16 : a16.IsWhole) (hF : atFirst i) (hL : ¬atLast i)
    (x0 x1 : Vec F S1x256x1024 .bf16) (x2 x3 : Vec F S1x256x512 .bf16) (x4 x5 : Vec F S1x256x1024 .f32) :
    Σ' (L6 L7 : List (View.Piece (Elt F) S1x1024x256 .f32)) (LS0 LS1 : List (View.Piece (Elt F) S1024x256 .f32)) (LS2 LS3 LS4 : List (View.Piece (Elt F) S1024x1 .f32)),
      { LS5 : List (View.Piece (Elt F) S1024x1 .f32) //
        ∀ (xi6 xi7 : Vec F S1x1024x256 .f32) (E : Set ℕ) (K : PUnit → sProp 𝕄),
          iprop(owns (c : Thread nD τ) a3 fullShare x0
            ∗ owns (c : Thread nD τ) a4 fullShare x1
            ∗ owns (c : Thread nD τ) a5 fullShare x2
            ∗ owns (c : Thread nD τ) a6 fullShare x3
            ∗ owns (c : Thread nD τ) a7 fullShare x4
            ∗ owns (c : Thread nD τ) a8 fullShare x5
            ∗ owns (c : Thread nD τ) a9 fullShare xi6
            ∗ owns (c : Thread nD τ) a10 fullShare xi7
            ∗ (∃ d, owns (c : Thread nD τ) a11 fullShare d)
            ∗ (∃ d, owns (c : Thread nD τ) a12 fullShare d)
            ∗ (∃ d, owns (c : Thread nD τ) a13 fullShare d)
            ∗ (∃ d, owns (c : Thread nD τ) a14 fullShare d)
            ∗ (∃ d, owns (c : Thread nD τ) a15 fullShare d)
            ∗ (∃ d, owns (c : Thread nD τ) a16 fullShare d)
            ∗ (iprop(owns (c : Thread nD τ) a3 fullShare x0
                ∗ owns (c : Thread nD τ) a4 fullShare x1
                ∗ owns (c : Thread nD τ) a5 fullShare x2
                ∗ owns (c : Thread nD τ) a6 fullShare x3
                ∗ owns (c : Thread nD τ) a7 fullShare x4
                ∗ owns (c : Thread nD τ) a8 fullShare x5
                ∗ owns (c : Thread nD τ) a9 fullShare xi6
                ∗ owns (c : Thread nD τ) a10 fullShare xi7
                ∗ (∃ f, a11.view.loc (c : Thread nD τ) ↦[a11.view.set]{fullShare} a11.view.writes (Elt F) f LS0)
                ∗ (∃ f, a12.view.loc (c : Thread nD τ) ↦[a12.view.set]{fullShare} a12.view.writes (Elt F) f LS1)
                ∗ (∃ f, a13.view.loc (c : Thread nD τ) ↦[a13.view.set]{fullShare} a13.view.writes (Elt F) f LS2)
                ∗ (∃ f, a14.view.loc (c : Thread nD τ) ↦[a14.view.set]{fullShare} a14.view.writes (Elt F) f LS3)
                ∗ (∃ f, a15.view.loc (c : Thread nD τ) ↦[a15.view.set]{fullShare} a15.view.writes (Elt F) f LS4)
                ∗ (∃ f, a16.view.loc (c : Thread nD τ) ↦[a16.view.set]{fullShare} a16.view.writes (Elt F) f LS5)) -∗ K ⟨⟩))
            ⊢ wp frame (wpE (defs₀ (F := F)) Variants.none c none) E (cc0__attn_kernel i a3 h3 a4 h4 a5 h5 a6 h6 a7 h7 a8 h8 a9 h9 a10 h10 a11 h11 a12 h12 a13 h13 a14 h14 a15 h15 a16 h16) K } := by
  refine ⟨[], [], ?_, ?_, ?_, ?_, ?_, ?_, fun xi6 xi7 E K => ?run⟩
  case run =>
    simp only [cc0__attn_kernel_eq_skeleton]; unfold cc0__attn_kernel_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10
    sl_exec (disch := first | exact hF | exact hL)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Kernel.Flash

end
-- ==== Proof.BitsFlashRunMid.lean ====
/-
  The whole body run once, symbolically, at a middle key block (neither the reset nor the output stores): from the six input
  blocks, the scratch at what the key block before left and the two output buffers untouched, to the same
  input blocks, the scratch rewritten by the online-softmax update of both directions —
  what each buffer ends with is found by the run itself, as the list of its stores.
-/
import proofs.«154790_j27118423507780_2_alg».proof.Proof.BitsFlashRunFirst

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle key block (neither the reset nor the output stores): what its stores leave in each output and scratch buffer, as pieces (last first), with the proof that it runs to the continuation holding them. -/
noncomputable def runMid (c : Dev nD) (i : grid0.Coords) (a3 : Memref sig .tc .vmem S1x256x1024 .bf16) (h3 : a3.IsWhole) (a4 : Memref sig .tc .vmem S1x256x1024 .bf16) (h4 : a4.IsWhole) (a5 : Memref sig .tc .vmem S1x256x512 .bf16) (h5 : a5.IsWhole) (a6 : Memref sig .tc .vmem S1x256x512 .bf16) (h6 : a6.IsWhole) (a7 : Memref sig .tc .vmem S1x256x1024 .f32) (h7 : a7.IsWhole) (a8 : Memref sig .tc .vmem S1x256x1024 .f32) (h8 : a8.IsWhole) (a9 : Memref sig .tc .vmem S1x1024x256 .f32) (h9 : a9.IsWhole) (a10 : Memref sig .tc .vmem S1x1024x256 .f32) (h10 : a10.IsWhole) (a11 : Memref sig .tc .vmem S1024x256 .f32) (h11 : a11.IsWhole) (a12 : Memref sig .tc .vmem S1024x256 .f32) (h12 : a12.IsWhole) (a13 : Memref sig .tc .vmem S1024x1 .f32) (h13 : a13.IsWhole) (a14 : Memref sig .tc .vmem S1024x1 .f32) (h14 : a14.IsWhole) (a15 : Memref sig .tc .vmem S1024x1 .f32) (h15 : a15.IsWhole) (a16 : Memref sig .tc .vmem S1024x1 .f32) (h16 : a16.IsWhole) (hF : ¬atFirst i) (hL : ¬atLast i)
    (x0 x1 : Vec F S1x256x1024 .bf16) (x2 x3 : Vec F S1x256x512 .bf16) (x4 x5 : Vec F S1x256x1024 .f32) (s0 s1 : Vec F S1024x256 .f32) (s2 s3 s4 s5 : Vec F S1024x1 .f32) :
    Σ' (L6 L7 : List (View.Piece (Elt F) S1x1024x256 .f32)) (LS0 LS1 : List (View.Piece (Elt F) S1024x256 .f32)) (LS2 LS3 LS4 : List (View.Piece (Elt F) S1024x1 .f32)),
      { LS5 : List (View.Piece (Elt F) S1024x1 .f32) //
        ∀ (xi6 xi7 : Vec F S1x1024x256 .f32) (E : Set ℕ) (K : PUnit → sProp 𝕄),
          iprop(owns (c : Thread nD τ) a3 fullShare x0
            ∗ owns (c : Thread nD τ) a4 fullShare x1
            ∗ owns (c : Thread nD τ) a5 fullShare x2
            ∗ owns (c : Thread nD τ) a6 fullShare x3
            ∗ owns (c : Thread nD τ) a7 fullShare x4
            ∗ owns (c : Thread nD τ) a8 fullShare x5
            ∗ owns (c : Thread nD τ) a9 fullShare xi6
            ∗ owns (c : Thread nD τ) a10 fullShare xi7
            ∗ owns (c : Thread nD τ) a11 fullShare s0
            ∗ owns (c : Thread nD τ) a12 fullShare s1
            ∗ owns (c : Thread nD τ) a13 fullShare s2
            ∗ owns (c : Thread nD τ) a14 fullShare s3
            ∗ owns (c : Thread nD τ) a15 fullShare s4
            ∗ owns (c : Thread nD τ) a16 fullShare s5
            ∗ (iprop(owns (c : Thread nD τ) a3 fullShare x0
                ∗ owns (c : Thread nD τ) a4 fullShare x1
                ∗ owns (c : Thread nD τ) a5 fullShare x2
                ∗ owns (c : Thread nD τ) a6 fullShare x3
                ∗ owns (c : Thread nD τ) a7 fullShare x4
                ∗ owns (c : Thread nD τ) a8 fullShare x5
                ∗ owns (c : Thread nD τ) a9 fullShare xi6
                ∗ owns (c : Thread nD τ) a10 fullShare xi7
                ∗ (∃ f, a11.view.loc (c : Thread nD τ) ↦[a11.view.set]{fullShare} a11.view.writes (Elt F) f LS0)
                ∗ (∃ f, a12.view.loc (c : Thread nD τ) ↦[a12.view.set]{fullShare} a12.view.writes (Elt F) f LS1)
                ∗ (∃ f, a13.view.loc (c : Thread nD τ) ↦[a13.view.set]{fullShare} a13.view.writes (Elt F) f LS2)
                ∗ (∃ f, a14.view.loc (c : Thread nD τ) ↦[a14.view.set]{fullShare} a14.view.writes (Elt F) f LS3)
                ∗ (∃ f, a15.view.loc (c : Thread nD τ) ↦[a15.view.set]{fullShare} a15.view.writes (Elt F) f LS4)
                ∗ (∃ f, a16.view.loc (c : Thread nD τ) ↦[a16.view.set]{fullShare} a16.view.writes (Elt F) f LS5)) -∗ K ⟨⟩))
            ⊢ wp frame (wpE (defs₀ (F := F)) Variants.none c none) E (cc0__attn_kernel i a3 h3 a4 h4 a5 h5 a6 h6 a7 h7 a8 h8 a9 h9 a10 h10 a11 h11 a12 h12 a13 h13 a14 h14 a15 h15 a16 h16) K } := by
  refine ⟨[], [], ?_, ?_, ?_, ?_, ?_, ?_, fun xi6 xi7 E K => ?run⟩
  case run =>
    simp only [cc0__attn_kernel_eq_skeleton]; unfold cc0__attn_kernel_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
    sl_exec (disch := first | exact hF | exact hL)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Kernel.Flash

end
-- ==== Proof.BitsFlashRunLast.lean ====
/-
  The whole body run once, symbolically, at the last key block of a run (no reset; the two output blocks are stored): from the six input
  blocks, the scratch at what the key block before left and the two output buffers at anything, to the same
  input blocks, the scratch rewritten by the online-softmax update of both directions and the output buffers written —
  what each buffer ends with is found by the run itself, as the list of its stores.
-/
import proofs.«154790_j27118423507780_2_alg».proof.Proof.BitsFlashRunMid

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block of a run (no reset; the two output blocks are stored): what its stores leave in each output and scratch buffer, as pieces (last first), with the proof that it runs to the continuation holding them. -/
noncomputable def runLast (c : Dev nD) (i : grid0.Coords) (a3 : Memref sig .tc .vmem S1x256x1024 .bf16) (h3 : a3.IsWhole) (a4 : Memref sig .tc .vmem S1x256x1024 .bf16) (h4 : a4.IsWhole) (a5 : Memref sig .tc .vmem S1x256x512 .bf16) (h5 : a5.IsWhole) (a6 : Memref sig .tc .vmem S1x256x512 .bf16) (h6 : a6.IsWhole) (a7 : Memref sig .tc .vmem S1x256x1024 .f32) (h7 : a7.IsWhole) (a8 : Memref sig .tc .vmem S1x256x1024 .f32) (h8 : a8.IsWhole) (a9 : Memref sig .tc .vmem S1x1024x256 .f32) (h9 : a9.IsWhole) (a10 : Memref sig .tc .vmem S1x1024x256 .f32) (h10 : a10.IsWhole) (a11 : Memref sig .tc .vmem S1024x256 .f32) (h11 : a11.IsWhole) (a12 : Memref sig .tc .vmem S1024x256 .f32) (h12 : a12.IsWhole) (a13 : Memref sig .tc .vmem S1024x1 .f32) (h13 : a13.IsWhole) (a14 : Memref sig .tc .vmem S1024x1 .f32) (h14 : a14.IsWhole) (a15 : Memref sig .tc .vmem S1024x1 .f32) (h15 : a15.IsWhole) (a16 : Memref sig .tc .vmem S1024x1 .f32) (h16 : a16.IsWhole) (hF : ¬atFirst i) (hL : atLast i)
    (x0 x1 : Vec F S1x256x1024 .bf16) (x2 x3 : Vec F S1x256x512 .bf16) (x4 x5 : Vec F S1x256x1024 .f32) (s0 s1 : Vec F S1024x256 .f32) (s2 s3 s4 s5 : Vec F S1024x1 .f32) :
    Σ' (L6 L7 : List (View.Piece (Elt F) S1x1024x256 .f32)) (LS0 LS1 : List (View.Piece (Elt F) S1024x256 .f32)) (LS2 LS3 LS4 : List (View.Piece (Elt F) S1024x1 .f32)),
      { LS5 : List (View.Piece (Elt F) S1024x1 .f32) //
        ∀ (E : Set ℕ) (K : PUnit → sProp 𝕄),
          iprop(owns (c : Thread nD τ) a3 fullShare x0
            ∗ owns (c : Thread nD τ) a4 fullShare x1
            ∗ owns (c : Thread nD τ) a5 fullShare x2
            ∗ owns (c : Thread nD τ) a6 fullShare x3
            ∗ owns (c : Thread nD τ) a7 fullShare x4
            ∗ owns (c : Thread nD τ) a8 fullShare x5
            ∗ (∃ d, owns (c : Thread nD τ) a9 fullShare d)
            ∗ (∃ d, owns (c : Thread nD τ) a10 fullShare d)
            ∗ owns (c : Thread nD τ) a11 fullShare s0
            ∗ owns (c : Thread nD τ) a12 fullShare s1
            ∗ owns (c : Thread nD τ) a13 fullShare s2
            ∗ owns (c : Thread nD τ) a14 fullShare s3
            ∗ owns (c : Thread nD τ) a15 fullShare s4
            ∗ owns (c : Thread nD τ) a16 fullShare s5
            ∗ (iprop(owns (c : Thread nD τ) a3 fullShare x0
                ∗ owns (c : Thread nD τ) a4 fullShare x1
                ∗ owns (c : Thread nD τ) a5 fullShare x2
                ∗ owns (c : Thread nD τ) a6 fullShare x3
                ∗ owns (c : Thread nD τ) a7 fullShare x4
                ∗ owns (c : Thread nD τ) a8 fullShare x5
                ∗ (∃ f, a9.view.loc (c : Thread nD τ) ↦[a9.view.set]{fullShare} a9.view.writes (Elt F) f L6)
                ∗ (∃ f, a10.view.loc (c : Thread nD τ) ↦[a10.view.set]{fullShare} a10.view.writes (Elt F) f L7)
                ∗ (∃ f, a11.view.loc (c : Thread nD τ) ↦[a11.view.set]{fullShare} a11.view.writes (Elt F) f LS0)
                ∗ (∃ f, a12.view.loc (c : Thread nD τ) ↦[a12.view.set]{fullShare} a12.view.writes (Elt F) f LS1)
                ∗ (∃ f, a13.view.loc (c : Thread nD τ) ↦[a13.view.set]{fullShare} a13.view.writes (Elt F) f LS2)
                ∗ (∃ f, a14.view.loc (c : Thread nD τ) ↦[a14.view.set]{fullShare} a14.view.writes (Elt F) f LS3)
                ∗ (∃ f, a15.view.loc (c : Thread nD τ) ↦[a15.view.set]{fullShare} a15.view.writes (Elt F) f LS4)
                ∗ (∃ f, a16.view.loc (c : Thread nD τ) ↦[a16.view.set]{fullShare} a16.view.writes (Elt F) f LS5)) -∗ K ⟨⟩))
            ⊢ wp frame (wpE (defs₀ (F := F)) Variants.none c none) E (cc0__attn_kernel i a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, fun E K => ?run⟩
  case run =>
    simp only [cc0__attn_kernel_eq_skeleton]; unfold cc0__attn_kernel_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h3.eq_unread hf3; obtain rfl := h4.eq_unread hf4; obtain rfl := h5.eq_unread hf5; obtain rfl := h6.eq_unread hf6; obtain rfl := h7.eq_unread hf7; obtain rfl := h8.eq_unread hf8; obtain rfl := h11.eq_unread hf11; obtain rfl := h12.eq_unread hf12; obtain rfl := h13.eq_unread hf13; obtain rfl := h14.eq_unread hf14; obtain rfl := h15.eq_unread hf15; obtain rfl := h16.eq_unread hf16
    sl_exec (disch := first | exact hF | exact hL)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.Kernel.Flash

end
-- ==== Proof.BitsFlashData.lean ====
/-
  The proof data of the attention kernel's one pipeline. The kernel carries six scratch buffers from one key block
  to the next — for each direction the accumulator, the running maximum and the running normaliser of the online
  softmax — and stores its two output blocks only at the last key block of a run of eight. What the scratch and the
  output buffers hold after each grid point is therefore a recursion on the point: the first key block of a run starts
  from nothing, a middle one and the last one from what the point before left.
-/
import proofs.«154790_j27118423507780_2_alg».proof.Proof.BitsFlashRunLast

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes and the two changes of float format. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the four host operations, the region, the five host operations: it reduces to the region continued by the later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, the block index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, the block index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, the block index has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, the block index has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, the block index has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What one point leaves -/

/-- What the kernel's own buffers hold after a point: the two output blocks' staging buffers, then the six scratch
    buffers (accumulator, running maximum, running normaliser, of each direction). -/
structure Carried (F : FTy → Type) [FloatOps F] where
  o6 : Vec F S1x1024x256 .f32
  o7 : Vec F S1x1024x256 .f32
  accV : Vec F S1024x256 .f32
  accT : Vec F S1024x256 .f32
  maxV : Vec F S1024x1 .f32
  sumV : Vec F S1024x1 .f32
  maxT : Vec F S1024x1 .f32
  sumT : Vec F S1024x1 .f32

/-- At the first key block of a run the body's stores into scratch buffer 0 tile it, so they cover it. -/
theorem coverFirst_2 (c : Dev nD) (t : Fin cfg0.N) (hF : atFirst (grid0.coords t)) (hL : ¬atLast (grid0.coords t)) (y : S1024x256.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.1 S1024x256.size (by sl_kernel_rfl) y

/-- At the first key block of a run the body's stores into scratch buffer 1 tile it, so they cover it. -/
theorem coverFirst_3 (c : Dev nD) (t : Fin cfg0.N) (hF : atFirst (grid0.coords t)) (hL : ¬atLast (grid0.coords t)) (y : S1024x256.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.1 S1024x256.size (by sl_kernel_rfl) y

/-- At the first key block of a run the body's stores into scratch buffer 2 tile it, so they cover it. -/
theorem coverFirst_4 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.1 S1024x1.size (by sl_kernel_rfl) y

/-- At the first key block of a run the body's stores into scratch buffer 3 tile it, so they cover it. -/
theorem coverFirst_5 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.1 S1024x1.size (by sl_kernel_rfl) y

/-- At the first key block of a run the body's stores into scratch buffer 4 tile it, so they cover it. -/
theorem coverFirst_6 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.1 S1024x1.size (by sl_kernel_rfl) y

/-- At the first key block of a run the body's stores into scratch buffer 5 tile it, so they cover it. -/
theorem coverFirst_7 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.2.1 S1024x1.size (by sl_kernel_rfl) y

/-- What the first key block of a run leaves: each buffer's stores read back over junk (the stores cover every scratch buffer; the output blocks are not touched, and what is written here for them is never consulted). -/
def stFirst (c : Dev nD) (t : Fin cfg0.N) (hF : atFirst (grid0.coords t)) (hL : ¬atLast (grid0.coords t)) : Carried F where
  o6 := VO6.read (Elt F) (VO6.writes (Elt F) VO6.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).1)
  o7 := VO7.read (Elt F) (VO7.writes (Elt F) VO7.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.1)
  accV := scAccV.view.read (Elt F) (scAccV.view.writes (Elt F) scAccV.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.1)
  accT := scAccT.view.read (Elt F) (scAccT.view.writes (Elt F) scAccT.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.1)
  maxV := scMaxV.view.read (Elt F) (scMaxV.view.writes (Elt F) scMaxV.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.1)
  sumV := scSumV.view.read (Elt F) (scSumV.view.writes (Elt F) scSumV.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.1)
  maxT := scMaxT.view.read (Elt F) (scMaxT.view.writes (Elt F) scMaxT.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.1)
  sumT := scSumT.view.read (Elt F) (scSumT.view.writes (Elt F) scSumT.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.2.1)

/-- At a middle key block the body's stores into scratch buffer 0 tile it, so they cover it. -/
theorem coverMid_2 (c : Dev nD) (t : Fin cfg0.N) (hF : ¬atFirst (grid0.coords t)) (hL : ¬atLast (grid0.coords t)) (p : Carried F) (y : S1024x256.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1 S1024x256.size (by sl_kernel_rfl) y

/-- At a middle key block the body's stores into scratch buffer 1 tile it, so they cover it. -/
theorem coverMid_3 (c : Dev nD) (t : Fin cfg0.N) (hF : ¬atFirst (grid0.coords t)) (hL : ¬atLast (grid0.coords t)) (p : Carried F) (y : S1024x256.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1 S1024x256.size (by sl_kernel_rfl) y

/-- At a middle key block the body's stores into scratch buffer 2 tile it, so they cover it. -/
theorem coverMid_4 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1 S1024x1.size (by sl_kernel_rfl) y

/-- At a middle key block the body's stores into scratch buffer 3 tile it, so they cover it. -/
theorem coverMid_5 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1 S1024x1.size (by sl_kernel_rfl) y

/-- At a middle key block the body's stores into scratch buffer 4 tile it, so they cover it. -/
theorem coverMid_6 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1 S1024x1.size (by sl_kernel_rfl) y

/-- At a middle key block the body's stores into scratch buffer 5 tile it, so they cover it. -/
theorem coverMid_7 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1 S1024x1.size (by sl_kernel_rfl) y

/-- What a middle key block leaves: each buffer's stores read back over junk (the stores cover every scratch buffer; the output blocks are not touched, and what is written here for them is never consulted). -/
def stMid (c : Dev nD) (t : Fin cfg0.N) (hF : ¬atFirst (grid0.coords t)) (hL : ¬atLast (grid0.coords t)) (p : Carried F) : Carried F where
  o6 := VO6.read (Elt F) (VO6.writes (Elt F) VO6.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1)
  o7 := VO7.read (Elt F) (VO7.writes (Elt F) VO7.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1)
  accV := scAccV.view.read (Elt F) (scAccV.view.writes (Elt F) scAccV.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1)
  accT := scAccT.view.read (Elt F) (scAccT.view.writes (Elt F) scAccT.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1)
  maxV := scMaxV.view.read (Elt F) (scMaxV.view.writes (Elt F) scMaxV.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1)
  sumV := scSumV.view.read (Elt F) (scSumV.view.writes (Elt F) scSumV.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1)
  maxT := scMaxT.view.read (Elt F) (scMaxT.view.writes (Elt F) scMaxT.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1)
  sumT := scSumT.view.read (Elt F) (scSumT.view.writes (Elt F) scSumT.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1)

/-- At the last key block of a run the body's stores into the first output block tile it, so they cover it. -/
theorem coverLast_0 (c : Dev nD) (t : Fin cfg0.N) (hF : ¬atFirst (grid0.coords t)) (hL : atLast (grid0.coords t)) (p : Carried F) (y : S1x1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1 S1x1024x256.size (by sl_kernel_rfl) y

/-- At the last key block of a run the body's stores into the second output block tile it, so they cover it. -/
theorem coverLast_1 (c : Dev nD) (t : Fin cfg0.N) (hF : ¬atFirst (grid0.coords t)) (hL : atLast (grid0.coords t)) (p : Carried F) (y : S1x1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1 S1x1024x256.size (by sl_kernel_rfl) y

/-- At the last key block of a run the body's stores into scratch buffer 0 tile it, so they cover it. -/
theorem coverLast_2 (c : Dev nD) (t : Fin cfg0.N) (hF : ¬atFirst (grid0.coords t)) (hL : atLast (grid0.coords t)) (p : Carried F) (y : S1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1 S1024x256.size (by sl_kernel_rfl) y

/-- At the last key block of a run the body's stores into scratch buffer 1 tile it, so they cover it. -/
theorem coverLast_3 (c : Dev nD) (t : Fin cfg0.N) (hF : ¬atFirst (grid0.coords t)) (hL : atLast (grid0.coords t)) (p : Carried F) (y : S1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1 S1024x256.size (by sl_kernel_rfl) y

/-- At the last key block of a run the body's stores into scratch buffer 2 tile it, so they cover it. -/
theorem coverLast_4 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1 S1024x1.size (by sl_kernel_rfl) y

/-- At the last key block of a run the body's stores into scratch buffer 3 tile it, so they cover it. -/
theorem coverLast_5 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1 S1024x1.size (by sl_kernel_rfl) y

/-- At the last key block of a run the body's stores into scratch buffer 4 tile it, so they cover it. -/
theorem coverLast_6 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1 S1024x1.size (by sl_kernel_rfl) y

/-- At the last key block of a run the body's stores into scratch buffer 5 tile it, so they cover it. -/
theorem coverLast_7 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1 S1024x1.size (by sl_kernel_rfl) y

/-- What the last key block of a run leaves: each buffer's stores read back over junk (the stores cover every scratch buffer and both output blocks). -/
def stLast (c : Dev nD) (t : Fin cfg0.N) (hF : ¬atFirst (grid0.coords t)) (hL : atLast (grid0.coords t)) (p : Carried F) : Carried F where
  o6 := VO6.read (Elt F) (VO6.writes (Elt F) VO6.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1)
  o7 := VO7.read (Elt F) (VO7.writes (Elt F) VO7.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1)
  accV := scAccV.view.read (Elt F) (scAccV.view.writes (Elt F) scAccV.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1)
  accT := scAccT.view.read (Elt F) (scAccT.view.writes (Elt F) scAccT.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1)
  maxV := scMaxV.view.read (Elt F) (scMaxV.view.writes (Elt F) scMaxV.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1)
  sumV := scSumV.view.read (Elt F) (scSumV.view.writes (Elt F) scSumV.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1)
  maxT := scMaxT.view.read (Elt F) (scMaxT.view.writes (Elt F) scMaxT.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1)
  sumT := scSumT.view.read (Elt F) (scSumT.view.writes (Elt F) scSumT.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1)

/-! ## Point by point -/

/-- What the kernel's buffers hold after the body at position `n`: the case the closed forms select at `n`, run at the
    point's memrefs and input blocks, a middle or last key block over what position `n - 1` left. -/
def outsAt (c : Dev nD) : (n : ℕ) → n < cfg0.N → Carried F
  | 0, hn => stFirst m c ⟨0, hn⟩ ((atFirst_iff ⟨0, hn⟩).mpr (Nat.zero_mod _)) (fun h => (fun h => by (try dsimp only at h); omega) ((atLast_iff ⟨0, hn⟩).mp h))
  | n + 1, hn =>
    if h0 : (n + 1) % 8 = 0 then
      stFirst m c ⟨n + 1, hn⟩ ((atFirst_iff ⟨n + 1, hn⟩).mpr h0) (fun h => (fun h => by (try dsimp only at h); omega) ((atLast_iff ⟨n + 1, hn⟩).mp h))
    else
      if h1 : (n + 1) % 8 = 7 then
        stLast m c ⟨n + 1, hn⟩ (fun h => h0 ((atFirst_iff ⟨n + 1, hn⟩).mp h)) ((atLast_iff ⟨n + 1, hn⟩).mpr h1) (outsAt c n (Nat.lt_of_succ_lt hn))
      else
        stMid m c ⟨n + 1, hn⟩ (fun h => h0 ((atFirst_iff ⟨n + 1, hn⟩).mp h)) (fun h => h1 ((atLast_iff ⟨n + 1, hn⟩).mp h)) (outsAt c n (Nat.lt_of_succ_lt hn))

/-- At the first key block of a run. -/
theorem outsAt_first (c : Dev nD) (t : Fin cfg0.N) (h0 : t.val % 8 = 0) :
    outsAt m c t.val t.isLt = stFirst m c t ((atFirst_iff t).mpr h0) (fun h => (fun h => by omega) ((atLast_iff t).mp h)) := by
  obtain ⟨n, hn⟩ := t
  cases n with
  | zero => exact rfl
  | succ n => exact (dif_pos h0).trans rfl

/-- At a middle key block: over what the point before left. -/
theorem outsAt_mid (c : Dev nD) (t : Fin cfg0.N) (h0 : ¬t.val % 8 = 0) (h1 : ¬t.val % 8 = 7) :
    outsAt m c t.val t.isLt = stMid m c t (fun h => h0 ((atFirst_iff t).mp h)) (fun h => h1 ((atLast_iff t).mp h))
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At the last key block: over what the point before left. -/
theorem outsAt_last (c : Dev nD) (t : Fin cfg0.N) (h0 : ¬t.val % 8 = 0) (h1 : t.val % 8 = 7) :
    outsAt m c t.val t.isLt = stLast m c t (fun h => h0 ((atFirst_iff t).mp h)) ((atLast_iff t).mpr h1)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The six scratch buffers, each at given contents. -/
def scratchAt (c : Dev nD) (p : Carried F) : sProp 𝕄 :=
  iprop(owns (c : Thread nD τ) scAccV fullShare p.accV ∗ owns (c : Thread nD τ) scAccT fullShare p.accT ∗ owns (c : Thread nD τ) scMaxV fullShare p.maxV ∗ owns (c : Thread nD τ) scSumV fullShare p.sumV ∗ owns (c : Thread nD τ) scMaxT fullShare p.maxT ∗ owns (c : Thread nD τ) scSumT fullShare p.sumT)

/-- Before the first point the scratch buffers hold anything (the launch hands them over unnamed); before any later
    point they hold what the point before left. -/
def PhiS (c : Dev nD) : (n : ℕ) → n ≤ cfg0.N → sProp 𝕄
  | 0, _ => Pipeline.scopedRest spec0 c
  | n + 1, hn => scratchAt c (outsAt m c n hn)

/-- The launch's scoped rest is the six scratch buffers owned at some contents. -/
theorem scopedRest_eq (c : Dev nD) :
    (Pipeline.scopedRest spec0 c : sProp 𝕄)
      = iprop((∃ d, owns (c : Thread nD τ) scAccV fullShare d) ∗ (∃ d, owns (c : Thread nD τ) scAccT fullShare d) ∗ (∃ d, owns (c : Thread nD τ) scMaxV fullShare d) ∗ (∃ d, owns (c : Thread nD τ) scSumV fullShare d) ∗ (∃ d, owns (c : Thread nD τ) scMaxT fullShare d) ∗ (∃ d, owns (c : Thread nD τ) scSumT fullShare d)) := by
  rw [scopedRest0_eq]; simp only [scAccV, scAccT, scMaxV, scSumV, scMaxT, scSumT, owns_whole]; try rfl

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) : PhiS m c (n + 1) hn = scratchAt c (outsAt m c n hn) := rfl
theorem PhiS_pos (c : Dev nD) (n : ℕ) (h : n ≤ cfg0.N) (hz : n ≠ 0) :
    PhiS m c n h = scratchAt c (outsAt m c (n - 1) (by omega)) := by
  cases n with
  | zero => exact absurd rfl hz
  | succ n => rfl

/-! ## The proof data -/

/-- The proof data on core `c`: the arrays as the region finds them; after the body each input's buffer at its block
    and each output's at the recursion's component; the invariant `PhiS`; nothing owed. The two bf16 arrays are each read
    through two windows (a query-block window and a key-block window), which hold them by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).o6
    | ⟨7, _⟩ => (outsAt m c t.val t.isLt).o7
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).o6 := by dsimp only [dats]
theorem after7 (c : Dev nD) (t : Fin cfg0.N) : (dats m 0 c).after 7 t = (outsAt m c t.val t.isLt).o7 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.Kernel.Flash

end
-- ==== Proof.BitsFlashBodyDefs.lean ====
/-
  What the attention kernel's body is called with at a grid point, and what it returns: the invariant, the duties
  (none), and the eight windows' staging buffers.
-/
import proofs.«154790_j27118423507780_2_alg».proof.Proof.BitsFlashData

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.Kernel.Flash

end
-- ==== Proof.BitsFlashBodyFirst0.lean ====
/-
  The attention kernel's body obligation at the very first grid point (the scratch at anything).
-/
import proofs.«154790_j27118423507780_2_alg».proof.Proof.BitsFlashBodyDefs

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the very first grid point (the scratch at anything): the case's symbolic run applies, and every buffer it rewrote is handed back at the recursion's component. -/
theorem sound_first0 (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have h0 : t.val % 8 = 0 := by rw [hz]
  have hF : atFirst (grid0.coords t) := (atFirst_iff t).mpr h0
  have hL : ¬atLast (grid0.coords t) := fun h => (fun h => by omega) ((atLast_iff t).mp h)
  rw [Dat.leavesExact_idle (dats m 0 c) 6 t (idle_out6 t hL) (noFlush6 t hL), Dat.leavesExact_idle (dats m 0 c) 7 t (idle_out7 t hL) (noFlush7 t hL)]
  rw [outsAt_first m c t h0]
  rw [PhiS_castSucc m c t, PhiS_zero m c _ _ hz, scopedRest_eq]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t))).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stFirst); (try dsimp only)
    isplitl [HS0]
    · unfold owns; iexists _; isplitr
      swap; · iexact HS0
      ipureintro; exact View.read_writes_of_cover _ _ _ _ _ (coverFirst_2 m c t hF hL)
    isplitl [HS1]
    · unfold owns; iexists _; isplitr
      swap; · iexact HS1
      ipureintro; exact View.read_writes_of_cover _ _ _ _ _ (coverFirst_3 m c t hF hL)
    isplitl [HS2]
    · unfold owns; iexists _; isplitr
      swap; · iexact HS2
      ipureintro; exact View.read_writes_of_cover _ _ _ _ _ (coverFirst_4 m c t hF hL)
    isplitl [HS3]
    · unfold owns; iexists _; isplitr
      swap; · iexact HS3
      ipureintro; exact View.read_writes_of_cover _ _ _ _ _ (coverFirst_5 m c t hF hL)
    isplitl [HS4]
    · unfold owns; iexists _; isplitr
      swap; · iexact HS4
      ipureintro; exact View.read_writes_of_cover _ _ _ _ _ (coverFirst_6 m c t hF hL)
    unfold owns; iexists _; isplitr
    swap; · iexact HS5
    ipureintro; exact View.read_writes_of_cover _ _ _ _ _ (coverFirst_7 m c t hF hL)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Flash

end
-- ==== Proof.BitsFlashBodyFirst.lean ====
/-
  The attention kernel's body obligation at the first key block of a later run (the scratch at what the run before left, which the reset overwrites).
-/
import proofs.«154790_j27118423507780_2_alg».proof.Proof.BitsFlashBodyDefs

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the first key block of a later run (the scratch at what the run before left, which the reset overwrites): the case's symbolic run applies, and every buffer it rewrote is handed back at the recursion's component. -/
theorem sound_first (c : Dev nD) (t : Fin cfg0.N) (h0 : t.val % 8 = 0) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have hF : atFirst (grid0.coords t) := (atFirst_iff t).mpr h0
  have hL : ¬atLast (grid0.coords t) := fun h => (fun h => by omega) ((atLast_iff t).mp h)
  rw [Dat.leavesExact_idle (dats m 0 c) 6 t (idle_out6 t hL) (noFlush6 t hL), Dat.leavesExact_idle (dats m 0 c) 7 t (idle_out7 t hL) (noFlush7 t hL)]
  rw [outsAt_first m c t h0]
  rw [PhiS_castSucc m c t, PhiS_pos m c _ _ hz]; unfold scratchAt
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t))).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stFirst); (try dsimp only)
    isplitl [HS0]
    · unfold owns; iexists _; isplitr
      swap; · iexact HS0
      ipureintro; exact View.read_writes_of_cover _ _ _ _ _ (coverFirst_2 m c t hF hL)
    isplitl [HS1]
    · unfold owns; iexists _; isplitr
      swap; · iexact HS1
      ipureintro; exact View.read_writes_of_cover _ _ _ _ _ (coverFirst_3 m c t hF hL)
    isplitl [HS2]
    · unfold owns; iexists _; isplitr
      swap; · iexact HS2
      ipureintro; exact View.read_writes_of_cover _ _ _ _ _ (coverFirst_4 m c t hF hL)
    isplitl [HS3]
    · unfold owns; iexists _; isplitr
      swap; · iexact HS3
      ipureintro; exact View.read_writes_of_cover _ _ _ _ _ (coverFirst_5 m c t hF hL)
    isplitl [HS4]
    · unfold owns; iexists _; isplitr
      swap; · iexact HS4
      ipureintro; exact View.read_writes_of_cover _ _ _ _ _ (coverFirst_6 m c t hF hL)
    unfold owns; iexists _; isplitr
    swap; · iexact HS5
    ipureintro; exact View.read_writes_of_cover _ _ _ _ _ (coverFirst_7 m c t hF hL)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Flash

end
-- ==== Proof.BitsFlashBodyMid.lean ====
/-
  The attention kernel's body obligation at a middle key block.
-/
import proofs.«154790_j27118423507780_2_alg».proof.Proof.BitsFlashBodyDefs

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a middle key block: the case's symbolic run applies, and every buffer it rewrote is handed back at the recursion's component. -/
theorem sound_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have hF : ¬atFirst (grid0.coords t) := fun h => h0 ((atFirst_iff t).mp h)
  have hz : t.val ≠ 0 := fun e => h0 (by rw [e])
  have hL : ¬atLast (grid0.coords t) := fun h => h1 ((atLast_iff t).mp h)
  rw [Dat.leavesExact_idle (dats m 0 c) 6 t (idle_out6 t hL) (noFlush6 t hL), Dat.leavesExact_idle (dats m 0 c) 7 t (idle_out7 t hL) (noFlush7 t hL)]
  rw [outsAt_mid m c t h0 h1]
  rw [PhiS_castSucc m c t, PhiS_pos m c _ _ hz]; unfold scratchAt
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) ((outsAt m c (t.val - 1) (Nat.lt_of_le_of_lt (Nat.sub_le _ _) t.isLt))).accV ((outsAt m c (t.val - 1) (Nat.lt_of_le_of_lt (Nat.sub_le _ _) t.isLt))).accT ((outsAt m c (t.val - 1) (Nat.lt_of_le_of_lt (Nat.sub_le _ _) t.isLt))).maxV ((outsAt m c (t.val - 1) (Nat.lt_of_le_of_lt (Nat.sub_le _ _) t.isLt))).sumV ((outsAt m c (t.val - 1) (Nat.lt_of_le_of_lt (Nat.sub_le _ _) t.isLt))).maxT ((outsAt m c (t.val - 1) (Nat.lt_of_le_of_lt (Nat.sub_le _ _) t.isLt))).sumT)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stMid); (try dsimp only)
    isplitl [HS0]
    · unfold owns; iexists _; isplitr
      swap; · iexact HS0
      ipureintro; exact View.read_writes_of_cover _ _ _ _ _ (coverMid_2 m c t hF hL (outsAt m c (t.val - 1) (Nat.lt_of_le_of_lt (Nat.sub_le _ _) t.isLt)))
    isplitl [HS1]
    · unfold owns; iexists _; isplitr
      swap; · iexact HS1
      ipureintro; exact View.read_writes_of_cover _ _ _ _ _ (coverMid_3 m c t hF hL (outsAt m c (t.val - 1) (Nat.lt_of_le_of_lt (Nat.sub_le _ _) t.isLt)))
    isplitl [HS2]
    · unfold owns; iexists _; isplitr
      swap; · iexact HS2
      ipureintro; exact View.read_writes_of_cover _ _ _ _ _ (coverMid_4 m c t hF hL (outsAt m c (t.val - 1) (Nat.lt_of_le_of_lt (Nat.sub_le _ _) t.isLt)))
    isplitl [HS3]
    · unfold owns; iexists _; isplitr
      swap; · iexact HS3
      ipureintro; exact View.read_writes_of_cover _ _ _ _ _ (coverMid_5 m c t hF hL (outsAt m c (t.val - 1) (Nat.lt_of_le_of_lt (Nat.sub_le _ _) t.isLt)))
    isplitl [HS4]
    · unfold owns; iexists _; isplitr
      swap; · iexact HS4
      ipureintro; exact View.read_writes_of_cover _ _ _ _ _ (coverMid_6 m c t hF hL (outsAt m c (t.val - 1) (Nat.lt_of_le_of_lt (Nat.sub_le _ _) t.isLt)))
    unfold owns; iexists _; isplitr
    swap; · iexact HS5
    ipureintro; exact View.read_writes_of_cover _ _ _ _ _ (coverMid_7 m c t hF hL (outsAt m c (t.val - 1) (Nat.lt_of_le_of_lt (Nat.sub_le _ _) t.isLt)))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.Kernel.Flash

end
-- ==== Proof.BitsFlashBodyLast.lean ====
/-
  The attention kernel's body obligation at the last key block of a run.
-/
import proofs.«154790_j27118423507780_2_alg».proof.Proof.BitsFlashBodyDefs

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the last key block of a run: the case's symbolic run applies, and every buffer it rewrote is handed back at the recursion's component. -/
theorem sound_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have hF : ¬atFirst (grid0.coords t) := fun h => h0 ((atFirst_iff t).mp h)
  have hz : t.val ≠ 0 := fun e => h0 (by rw [e])
  have hL : atLast (grid0.coords t) := (atLast_iff t).mpr h1
  rw [show (dats m 0 c).leavesExact 6 t = owns (c : Thread nD τ) (ms6 t) fullShare ((dats m 0 c).after 6 t) from by
    unfold Dat.leavesExact; rw [live_out6 t hL], after6]
  rw [show (dats m 0 c).leavesExact 7 t = owns (c : Thread nD τ) (ms7 t) fullShare ((dats m 0 c).after 7 t) from by
    unfold Dat.leavesExact; rw [live_out7 t hL], after7]
  rw [outsAt_last m c t h0 h1]
  rw [PhiS_castSucc m c t, PhiS_pos m c _ _ hz]; unfold scratchAt
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) ((outsAt m c (t.val - 1) (Nat.lt_of_le_of_lt (Nat.sub_le _ _) t.isLt))).accV ((outsAt m c (t.val - 1) (Nat.lt_of_le_of_lt (Nat.sub_le _ _) t.isLt))).accT ((outsAt m c (t.val - 1) (Nat.lt_of_le_of_lt (Nat.sub_le _ _) t.isLt))).maxV ((outsAt m c (t.val - 1) (Nat.lt_of_le_of_lt (Nat.sub_le _ _) t.isLt))).sumV ((outsAt m c (t.val - 1) (Nat.lt_of_le_of_lt (Nat.sub_le _ _) t.isLt))).maxT ((outsAt m c (t.val - 1) (Nat.lt_of_le_of_lt (Nat.sub_le _ _) t.isLt))).sumT)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stLast); (try dsimp only)
    isplitl [HS0]
    · unfold owns; iexists _; isplitr
      swap; · iexact HS0
      ipureintro; exact View.read_writes_of_cover _ _ _ _ _ (coverLast_2 m c t hF hL (outsAt m c (t.val - 1) (Nat.lt_of_le_of_lt (Nat.sub_le _ _) t.isLt)))
    isplitl [HS1]
    · unfold owns; iexists _; isplitr
      swap; · iexact HS1
      ipureintro; exact View.read_writes_of_cover _ _ _ _ _ (coverLast_3 m c t hF hL (outsAt m c (t.val - 1) (Nat.lt_of_le_of_lt (Nat.sub_le _ _) t.isLt)))
    isplitl [HS2]
    · unfold owns; iexists _; isplitr
      swap; · iexact HS2
      ipureintro; exact View.read_writes_of_cover _ _ _ _ _ (coverLast_4 m c t hF hL (outsAt m c (t.val - 1) (Nat.lt_of_le_of_lt (Nat.sub_le _ _) t.isLt)))
    isplitl [HS3]
    · unfold owns; iexists _; isplitr
      swap; · iexact HS3
      ipureintro; exact View.read_writes_of_cover _ _ _ _ _ (coverLast_5 m c t hF hL (outsAt m c (t.val - 1) (Nat.lt_of_le_of_lt (Nat.sub_le _ _) t.isLt)))
    isplitl [HS4]
    · unfold owns; iexists _; isplitr
      swap; · iexact HS4
      ipureintro; exact View.read_writes_of_cover _ _ _ _ _ (coverLast_6 m c t hF hL (outsAt m c (t.val - 1) (Nat.lt_of_le_of_lt (Nat.sub_le _ _) t.isLt)))
    unfold owns; iexists _; isplitr
    swap; · iexact HS5
    ipureintro; exact View.read_writes_of_cover _ _ _ _ _ (coverLast_7 m c t hF hL (outsAt m c (t.val - 1) (Nat.lt_of_le_of_lt (Nat.sub_le _ _) t.isLt)))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns stLast; (try dsimp only); iexists _; isplitr
    swap; · iexact H6
    ipureintro; exact View.read_writes_of_cover _ _ _ _ _ (coverLast_0 m c t hF hL (outsAt m c (t.val - 1) (Nat.lt_of_le_of_lt (Nat.sub_le _ _) t.isLt)))
  unfold owns stLast; (try dsimp only); iexists _; isplitr
  swap; · iexact H7
  ipureintro; exact View.read_writes_of_cover _ _ _ _ _ (coverLast_1 m c t hF hL (outsAt m c (t.val - 1) (Nat.lt_of_le_of_lt (Nat.sub_le _ _) t.isLt)))

end Cert.Kernel.Flash

end
-- ==== Proof.BitsFlashBody.lean ====
/-
  The attention kernel's body obligation at every grid point: by cases on where the point stands in its run of eight
  key blocks.
-/
import proofs.«154790_j27118423507780_2_alg».proof.Proof.BitsFlashBodyFirst0
import proofs.«154790_j27118423507780_2_alg».proof.Proof.BitsFlashBodyFirst
import proofs.«154790_j27118423507780_2_alg».proof.Proof.BitsFlashBodyMid
import proofs.«154790_j27118423507780_2_alg».proof.Proof.BitsFlashBodyLast

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_first0 m c t hz
    · exact sound_first m c t h0 hz
  · by_cases h1 : t.val % 8 = 7
    · exact sound_last m c t h0 h1
    · exact sound_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Flash

end
-- ==== Proof.BitsFlashTail.lean ====
/-
  The launch of the attention kernel's program: four host operations, the region, five host operations.
  The two bf16 arrays are each read through two windows (the query-block window and the key-block window of one
  array), so the launch deals each array's points-to among its windows by halves; the host operations after the
  region read the two output arrays, which the region hands back whole, and write buffers of their own. The run's
  post names the program's result as those operations applied to what the region leaves in the two output arrays.
-/
import proofs.«154790_j27118423507780_2_alg».proof.Proof.BitsFlashData

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The proof data's arrays at contents `G`, one points-to per window: the two bf16 arrays by halves, the rest whole. -/
theorem arrays_eq8 (c : Dev nD) (G : (w : Fin cfg0.W) → Buf (Elt F) ((cfg0.win w).arr.view.loc (c : Thread nD τ))) :
    ((dats m 0 c).arrays G : sProp 𝕄) = iprop(
        (((c : Thread nD τ).loc main_v2) ↦{fullShare.left} G 0) ∗ (((c : Thread nD τ).loc main_v3) ↦{fullShare.left} G 1)
      ∗ (((c : Thread nD τ).loc main_v2) ↦{fullShare.right} G 2) ∗ (((c : Thread nD τ).loc main_v3) ↦{fullShare.right} G 3)
      ∗ (((c : Thread nD τ).loc main_v0) ↦{fullShare} G 4) ∗ (((c : Thread nD τ).loc main_v1) ↦{fullShare} G 5)
      ∗ (((c : Thread nD τ).loc main_v4_0) ↦{fullShare} G 6) ∗ (((c : Thread nD τ).loc main_v4_1) ↦{fullShare} G 7)) := by
  unfold Dat.arrays
  rw [bigSep_W0]
  rw [(arr_whole0 0).set_eq_univ, (arr_whole0 1).set_eq_univ,
    (arr_whole0 4).set_eq_univ, (arr_whole0 5).set_eq_univ, (arr_whole0 6).set_eq_univ, (arr_whole0 7).set_eq_univ]
  rfl

/-- The six distinct buffers behind the eight windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v3) ↦{fullShare} W main_v3)
        ∗ (((c : Thread nD τ).loc main_v0) ↦{fullShare} W main_v0) ∗ (((c : Thread nD τ).loc main_v1) ↦{fullShare} W main_v1)
        ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_v2, main_v3, main_v0, main_v1, main_v4_0, main_v4_1] (by decide) (by decide) _

/-- The buffers behind the arrays, each whole, make the arrays at entry: the two shared ones are halved. -/
theorem hsplit (c : Dev nD) :
    (Pipeline.arrBufs spec0 c (V m c) : sProp 𝕄) ⊢ (dats m 0 c).arrays ((dats m 0 c).arrAt · 0) := by
  rw [arrays_eq8, arrBufs_eq]
  iintro ⟨H2, H3, H0, H1, H40, H41⟩
  ihave H2' := (pointsTo_share (PosShare.mem_left_op_right fullShare)).1 $$ H2
  icases H2' with ⟨H2l, H2r⟩
  ihave H3' := (pointsTo_share (PosShare.mem_left_op_right fullShare)).1 $$ H3
  icases H3' with ⟨H3l, H3r⟩
  isplitl [H2l]; · iexact H2l
  isplitl [H3l]; · iexact H3l
  isplitl [H2r]; · iexact H2r
  isplitl [H3r]; · iexact H3r
  isplitl [H0]; · iexact H0
  isplitl [H1]; · iexact H1
  isplitl [H40]; · iexact H40
  iexact H41

/-! ## The host operations after the region -/

/-- The buffers the five later operations touch: the two output arrays, which they read, and their own five results. -/
abbrev tailRefsL : List (Ref sig .tc) := [main_v4_0, main_v4_1, main_v5, main_v6, main_v7, main_v8, main_v9]
abbrev tailDev : Finset (DevRef τ sig) := tailRefsL.toFinset.map ⟨Proc.devRef (sig := sig) .tc, Proc.devRef_injective _⟩

theorem held_tail (c : Dev nD) (W : Valuation τ sig (Elt F)) :
    (StableHlo.held (c : Thread nD τ) tailDev W : sProp 𝕄)
      = iprop((((c : Thread nD τ).loc main_v4_0) ↦{fullShare} W (Proc.devRef .tc main_v4_0))
        ∗ (((c : Thread nD τ).loc main_v4_1) ↦{fullShare} W (Proc.devRef .tc main_v4_1))
        ∗ (((c : Thread nD τ).loc main_v5) ↦{fullShare} W (Proc.devRef .tc main_v5))
        ∗ (((c : Thread nD τ).loc main_v6) ↦{fullShare} W (Proc.devRef .tc main_v6))
        ∗ (((c : Thread nD τ).loc main_v7) ↦{fullShare} W (Proc.devRef .tc main_v7))
        ∗ (((c : Thread nD τ).loc main_v8) ↦{fullShare} W (Proc.devRef .tc main_v8))
        ∗ (((c : Thread nD τ).loc main_v9) ↦{fullShare} W (Proc.devRef .tc main_v9))) := by
  unfold StableHlo.held tailDev
  rw [bigSep_map]
  exact bigSep_eq_bigSepL tailRefsL (by decide) _

theorem tail_sub : ∀ ops ∈ ([hostOps1] : List (List (HloOp τ sig (Elt F)))), ∀ op ∈ ops, op.bufs ⊆ tailDev := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals
    intro b hb
    simp only [StableHlo.unary_bufs, StableHlo.reshape_bufs, StableHlo.binary_bufs, Finset.mem_insert, Finset.mem_singleton] at hb
    rcases hb with rfl | rfl | rfl <;> exact Finset.mem_map_of_mem _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- What the region leaves, as a valuation: the two output arrays at what the pipeline wrote back, everything else as the
    region found it. -/
def Wt (c : Dev nD) : Valuation τ sig (Elt F) :=
  Function.update (Function.update (V0 m c) (Proc.devRef .tc main_v4_0) ((dats m 0 c).arrAt 6 cfg0.N))
    (Proc.devRef .tc main_v4_1) ((dats m 0 c).arrAt 7 cfg0.N)

theorem Wt_out0 (c : Dev nD) : Wt m c (Proc.devRef .tc main_v4_0) = (dats m 0 c).arrAt 6 cfg0.N := by
  unfold Wt
  rw [Function.update_of_ne (StableHlo.devRef_ne_of_ne (by decide)), Function.update_self]
theorem Wt_out1 (c : Dev nD) : Wt m c (Proc.devRef .tc main_v4_1) = (dats m 0 c).arrAt 7 cfg0.N := by
  unfold Wt
  rw [Function.update_self]
theorem Wt_other (c : Dev nD) (b : Ref sig .tc) (h0 : b ≠ main_v4_0) (h1 : b ≠ main_v4_1) : Wt m c (Proc.devRef .tc b) = V m c b := by
  unfold Wt
  rw [Function.update_of_ne (StableHlo.devRef_ne_of_ne h1), Function.update_of_ne (StableHlo.devRef_ne_of_ne h0)]

/-! ## What the buffers hold at the end -/

/-- A buffer's contents after the five later operations. -/
def Wfin (c : Dev nD) (b : Ref sig .tc) : Buf (Elt F) ((c : Thread nD τ).loc b) :=
  StableHlo.after (List.flatten [hostOps1]) (Wt m c) (Proc.devRef .tc b)

/-- The program's result on core `c`: the five later operations applied to what the region leaves in its two output arrays. -/
def kernelOut (c : Dev nD) : Buf (Elt F) ((c : Thread nD τ).loc main_v9) := Wfin m c main_v9

/-- No operation before the region writes an argument. -/
theorem not_written0 (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- The later operations write only their own five results. -/
theorem not_written1 (b : Ref sig .tc) (hb : b ≠ main_v5 ∧ b ≠ main_v6 ∧ b ≠ main_v7 ∧ b ≠ main_v8 ∧ b ≠ main_v9) :
    ∀ op ∈ (hostOps1 (F := F)), Proc.devRef .tc b ∉ op.writes := by
  obtain ⟨h5, h6, h7, h8, h9⟩ := hb
  intro op hop
  simp only [List.mem_cons, List.mem_nil_iff, or_false] at hop
  rcases hop with rfl | rfl | rfl | rfl | rfl <;>
    simp only [StableHlo.unary_writes, StableHlo.reshape_writes, StableHlo.binary_writes, Finset.mem_singleton] <;>
    exact StableHlo.devRef_ne_of_ne ‹_›

theorem V_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  exact StableHlo.after_of_forall_not_mem (b := Proc.devRef .tc main_arg0) hostOps0 _ (not_written0 main_arg0 (by decide))
theorem V_arg1 (c : Dev nD) : V m c main_arg1 = m ((c : Thread nD τ).loc main_arg1) := by
  show StableHlo.after (List.flatten [hostOps0]) (fun b => m (c, b)) (Proc.devRef .tc main_arg1) = _
  simp only [List.flatten_cons, List.flatten_nil, List.append_nil]
  exact StableHlo.after_of_forall_not_mem (b := Proc.devRef .tc main_arg1) hostOps0 _ (not_written0 main_arg1 (by decide))

/-- The later operations leave the two output arrays as the region left them. -/
theorem Wfin_out0 (c : Dev nD) : Wfin m c main_v4_0 = (dats m 0 c).arrAt 6 cfg0.N := by
  unfold Wfin; simp only [List.flatten_cons, List.flatten_nil, List.append_nil]
  rw [StableHlo.after_of_forall_not_mem (b := Proc.devRef .tc main_v4_0) hostOps1 _ (not_written1 main_v4_0 (by decide)), Wt_out0]
theorem Wfin_out1 (c : Dev nD) : Wfin m c main_v4_1 = (dats m 0 c).arrAt 7 cfg0.N := by
  unfold Wfin; simp only [List.flatten_cons, List.flatten_nil, List.append_nil]
  rw [StableHlo.after_of_forall_not_mem (b := Proc.devRef .tc main_v4_1) hostOps1 _ (not_written1 main_v4_1 (by decide)), Wt_out1]

/-- What the run leaves of the buffers that bypass the region: the arguments as the region found them, the five later
    results at the later operations' values. -/
def Zout (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v5) ↦{fullShare} Wfin m c main_v5) ∗ (((c : Thread nD τ).loc main_v6) ↦{fullShare} Wfin m c main_v6)
    ∗ (((c : Thread nD τ).loc main_v7) ↦{fullShare} Wfin m c main_v7) ∗ (((c : Thread nD τ).loc main_v8) ↦{fullShare} Wfin m c main_v8)
    ∗ (((c : Thread nD τ).loc main_v9) ↦{fullShare} Wfin m c main_v9))

set_option backward.isDefEq.respectTransparency.types false in
/-- The five later operations, run from the region's exit: they read the two output arrays and write their own results. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_eq8, unscopedRest0_eq]; unfold Zout
  have hpre := held_tail (F := F) c (Wt m c)
  rw [Wt_out0, Wt_out1, Wt_other m c main_v5 (by decide) (by decide), Wt_other m c main_v6 (by decide) (by decide),
    Wt_other m c main_v7 (by decide) (by decide), Wt_other m c main_v8 (by decide) (by decide), Wt_other m c main_v9 (by decide) (by decide)] at hpre
  have hpost := held_tail (F := F) c (StableHlo.after (List.flatten [hostOps1]) (Wt m c))
  rw [show StableHlo.after (List.flatten [hostOps1]) (Wt m c) (Proc.devRef .tc main_v4_0) = (dats m 0 c).arrAt 6 cfg0.N from Wfin_out0 m c,
    show StableHlo.after (List.flatten [hostOps1]) (Wt m c) (Proc.devRef .tc main_v4_1) = (dats m 0 c).arrAt 7 cfg0.N from Wfin_out1 m c] at hpost
  have hrun := Pipeline.wp_seqs_then (Ix := Unit) (Name := ℕ) (U := UR sig nD τ) (Lvl := ℕ) (fun q => (cfgs q).toPCfg (Val := Elt F)) defs₀ Variants.none c tailDev [] [hostOps1] tail_sub tail_fresh (Wt m c) (K := Q')
  rw [hpre, hpost, Pipeline.chain_nil, wp_pure] at hrun
  iintro ⟨Hk, Hb, ⟨A0, A1, A2, A3, A4, A5, A6, A7⟩, ⟨R0, R1, R5, R6, R7, R8, R9⟩⟩
  ihave Hrun := hrun $$ [Hb A6 A7 R5 R6 R7 R8 R9]
  · isplitl [Hb]; · iexact Hb
    isplitl [A6]; · iexact A6
    isplitl [A7]; · iexact A7
    isplitl [R5]; · iexact R5
    isplitl [R6]; · iexact R6
    isplitl [R7]; · iexact R7
    isplitl [R8]; · iexact R8
    iexact R9
  iapply Hrun
  iintro ⟨Hb, A6, A7, R5, R6, R7, R8, R9⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R0]; · iexact R0
  isplitl [R1]; · iexact R1
  isplitl [R5]; · iexact R5
  isplitl [R6]; · iexact R6
  isplitl [R7]; · iexact R7
  isplitl [R8]; · iexact R8
  iexact R9

/-- After the last point the invariant gives the scoped rest back: the scratch contents are forgotten. -/
theorem hout (c : Dev nD) : (dats m 0 c).Φ (Fin.last cfg0.N) ⊢ iprop((emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq]
  unfold scratchAt
  iintro ⟨HS0, HS1, HS2, HS3, HS4, HS5⟩
  isplitr; · iempintro
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

/-- The final state's result buffer and arguments, read off the points-tos the run ends with. -/
theorem hY (c : Dev nD) (s' : Phys nD τ sig (Elt F)) :
    iprop((emp : sProp 𝕄) ∗ Zout m c ∗ SI s') ⊢ |={Set.univ}=> iprop(⌜s'.mem.mem ((c : Thread nD τ).loc main_v9) = kernelOut m c
        ∧ s'.mem.mem ((c : Thread nD τ).loc main_arg0) = m ((c : Thread nD τ).loc main_arg0)
        ∧ s'.mem.mem ((c : Thread nD τ).loc main_arg1) = m ((c : Thread nD τ).loc main_arg1)⌝ ∗ SI s') := by
  unfold Zout
  rw [V_arg0, V_arg1]
  iintro ⟨-, ⟨R0, R1, -, -, -, -, R9⟩, HSI⟩
  icombine HSI R0 gives %h0
  icombine HSI R1 gives %h1
  icombine HSI R9 gives %h9
  imodintro
  isplitr; · ipureintro; exact ⟨Buf.eq_of_forall_mem_univ h9, Buf.eq_of_forall_mem_univ h0, Buf.eq_of_forall_mem_univ h1⟩
  iexact HSI

end Cert.Kernel.Flash

end
-- ==== Proof.BitsFlashLaunch.lean ====
/-
  The attention kernel's program run as a whole: the launch theorem for windows that share arrays, fed the body
  obligation, the share split, the two ends of the scratch invariant and the five later host operations.
-/
import proofs.«154790_j27118423507780_2_alg».proof.Proof.BitsFlashBody
import proofs.«154790_j27118423507780_2_alg».proof.Proof.BitsFlashTail

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- From any memory with zero counters every weakly fair execution of @main terminates, nothing faulting, with the result
    buffer at the later operations' value of what the region leaves and both arguments as they were. -/
theorem run_main : θ_run (defs (F := F)) (onTc (τ := τ) (main (F := F))) ⟨m, fun _ => 0, ρ⟩ (fun r => ∀ c : Dev nD,
      r.2.mem ((c.tc : Thread nD τ).loc main_v9) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun q => (cfgs q).toPCfg (Val := Elt F)) (fun q => (cfgs q).toPCfg_adm) (dats m) () cellOf_inj 0 winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp)) (Z := fun c => Pipeline.unscopedRest spec0 c (V m c)) (Z' := Zout m)
    (hX := fun c => by
      rw [Pipeline.unscopedRestP_none]
      iintro H; isplitr; · iempintro
      iexact H)
    (hin := fun c => by
      rw [show (dats m 0 c).Φ 0 = Pipeline.scopedRest spec0 c from rfl]
      iintro ⟨-, -, H⟩; iexact H)
    (hout := hout m) (htail := htail m)
    (QY := fun c s => s.mem ((c.tc : Thread nD τ).loc main_v9) = kernelOut m c
        ∧ s.mem ((c.tc : Thread nD τ).loc main_arg0) = m ((c.tc : Thread nD τ).loc main_arg0)
        ∧ s.mem ((c.tc : Thread nD τ).loc main_arg1) = m ((c.tc : Thread nD τ).loc main_arg1))
    (hY := hY m) (hQ := fun s h c => (h c).2.2)

/-- The frame: the program runs, faults nowhere, and leaves both arguments as they were. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Flash

end
-- ==== Proof.FlashBase.lean ====
/-
  The attention kernel's grid is (batch, query block, key block) = 4 × 4 × 8, the key block running fastest: a point
  t is the first of its run of eight key blocks when t ≡ 0 (mod 8) — there the body resets the running maximum, the
  running normaliser and the accumulator of both directions — and the last when t ≡ 7 (mod 8) — there, and only
  there, it stores the two output blocks. This module states those two conditions as the body computes them,
  decides them over the grid in closed form, says where the output windows are idle, and names the staging and
  scratch memrefs the body is called with.
-/
import proofs.«154790_j27118423507780_2_alg».proof.Proof.Gen.KernelIdeal.Launch
import proofs.«154790_j27118423507780_2_alg».proof.Proof.Gen.KernelIdeal.Skeleton
import proofs.«154790_j27118423507780_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body's first conditional, as it computes it from the key-block coordinate: "this is key block 0". -/
abbrev atFirst (i : grid0.Coords) : Prop :=
  (Scalar.cmpi .ne (Scalar.extui (Scalar.cmpi .eq (BitVec.ofNat 32 (i 2).val) 0#32)) 0#32) = 1#1
/-- It holds exactly at the points ≡ 0 (mod 8). -/
theorem atFirst_iff : ∀ t : Fin cfg0.N, atFirst (grid0.coords t) ↔ t.val % 8 = 0 :=
  (by decide +kernel : ∀ t : Fin grid0.N, atFirst (grid0.coords t) ↔ t.val % 8 = 0)

/-- The body's second conditional: "this is key block 7", the last. -/
abbrev atLast (i : grid0.Coords) : Prop := k0_cond2 i = 1#1
/-- It holds exactly at the points ≡ 7 (mod 8). -/
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_in : ∀ (w : Fin 8), w.val < 6 → ∀ t : Fin cfg0.N, cfg0.idle w (grid0.coords t) = false := by decide +kernel
/-- Away from the last key block the body stores nothing into either output window, and the pipeline does not write them back. -/
theorem idle_out6 : ∀ t : Fin cfg0.N, ¬atLast (grid0.coords t) → cfg0.idle 6 (grid0.coords t) = true := by decide +kernel
theorem idle_out7 : ∀ t : Fin cfg0.N, ¬atLast (grid0.coords t) → cfg0.idle 7 (grid0.coords t) = true := by decide +kernel
theorem noFlush6 : ∀ t : Fin cfg0.N, ¬atLast (grid0.coords t) → (cfg0.win 6).flush t = false := by decide +kernel
theorem noFlush7 : ∀ t : Fin cfg0.N, ¬atLast (grid0.coords t) → (cfg0.win 7).flush t = false := by decide +kernel
/-- At the last key block both are live. -/
theorem live_out6 : ∀ t : Fin cfg0.N, atLast (grid0.coords t) → cfg0.idle 6 (grid0.coords t) = false := by decide +kernel
theorem live_out7 : ∀ t : Fin cfg0.N, atLast (grid0.coords t) → cfg0.idle 7 (grid0.coords t) = false := by decide +kernel

/-! ## The memrefs the body is called with -/

abbrev ms0 (t : Fin cfg0.N) : Memref sig .tc .vmem S1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x256 .f32 := win0_7.stage (cfg0.slots t 7)
abbrev hs7 (t : Fin cfg0.N) : (ms7 t).IsWhole := hstage0_7 ((cfg0.slots t 7).cast nbuf0_7)

/-- The six scratch operands, whole scoped buffers of the kernel's own: the two accumulators, then the running
    maximum and the running normaliser of each direction. -/
abbrev scAccV : Memref sig .tc .vmem S1024x256 .f32 := Memref.whole cc0_scratch0
abbrev scAccT : Memref sig .tc .vmem S1024x256 .f32 := Memref.whole cc0_scratch1
abbrev scMaxV : Memref sig .tc .vmem S1024x1 .f32 := Memref.whole cc0_scratch2
abbrev scSumV : Memref sig .tc .vmem S1024x1 .f32 := Memref.whole cc0_scratch3
abbrev scMaxT : Memref sig .tc .vmem S1024x1 .f32 := Memref.whole cc0_scratch4
abbrev scSumT : Memref sig .tc .vmem S1024x1 .f32 := Memref.whole cc0_scratch5

/-- One staging buffer of each output window, through which its contents are stated. -/
abbrev VO6 : View sig .tc .vmem S1x1024x256 .f32 := (Memref.whole cc0_stg6_0 : Memref sig .tc .vmem S1x1024x256 .f32).view
abbrev VO7 : View sig .tc .vmem S1x1024x256 .f32 := (Memref.whole cc0_stg7_0 : Memref sig .tc .vmem S1x1024x256 .f32).view

end Cert.KernelIdeal.Flash

end
-- ==== Proof.FlashRunFirst.lean ====
/-
  The whole body run once, symbolically, at the first key block of a run (the reset is taken, the output stores are not): from the six input
  blocks, the scratch at anything and the two output buffers untouched, to the same
  input blocks, the scratch rewritten by the online-softmax update of both directions —
  what each buffer ends with is found by the run itself, as the list of its stores.
-/
import proofs.«154790_j27118423507780_2_alg».proof.Proof.FlashBase

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first key block of a run (the reset is taken, the output stores are not): what its stores leave in each output and scratch buffer, as pieces (last first), with the proof that it runs to the continuation holding them. -/
noncomputable def runFirst (c : Dev nD) (i : grid0.Coords) (a3 : Memref sig .tc .vmem S1x256x1024 .bf16) (h3 : a3.IsWhole) (a4 : Memref sig .tc .vmem S1x256x1024 .bf16) (h4 : a4.IsWhole) (a5 : Memref sig .tc .vmem S1x256x512 .bf16) (h5 : a5.IsWhole) (a6 : Memref sig .tc .vmem S1x256x512 .bf16) (h6 : a6.IsWhole) (a7 : Memref sig .tc .vmem S1x256x1024 .f32) (h7 : a7.IsWhole) (a8 : Memref sig .tc .vmem S1x256x1024 .f32) (h8 : a8.IsWhole) (a9 : Memref sig .tc .vmem S1x1024x256 .f32) (h9 : a9.IsWhole) (a10 : Memref sig .tc .vmem S1x1024x256 .f32) (h10 : a10.IsWhole) (a11 : Memref sig .tc .vmem S1024x256 .f32) (h11 : a11.IsWhole) (a12 : Memref sig .tc .vmem S1024x256 .f32) (h12 : a12.IsWhole) (a13 : Memref sig .tc .vmem S1024x1 .f32) (h13 : a13.IsWhole) (a14 : Memref sig .tc .vmem S1024x1 .f32) (h14 : a14.IsWhole) (a15 : Memref sig .tc .vmem S1024x1 .f32) (h15 : a15.IsWhole) (a16 : Memref sig .tc .vmem S1024x1 .f32) (h16 : a16.IsWhole) (hF : atFirst i) (hL : ¬atLast i)
    (x0 x1 : Vec F S1x256x1024 .bf16) (x2 x3 : Vec F S1x256x512 .bf16) (x4 x5 : Vec F S1x256x1024 .f32) :
    Σ' (L6 L7 : List (View.Piece (Elt F) S1x1024x256 .f32)) (LS0 LS1 : List (View.Piece (Elt F) S1024x256 .f32)) (LS2 LS3 LS4 : List (View.Piece (Elt F) S1024x1 .f32)),
      { LS5 : List (View.Piece (Elt F) S1024x1 .f32) //
        ∀ (xi6 xi7 : Vec F S1x1024x256 .f32) (E : Set ℕ) (K : PUnit → sProp 𝕄),
          iprop(owns (c : Thread nD τ) a3 fullShare x0
            ∗ owns (c : Thread nD τ) a4 fullShare x1
            ∗ owns (c : Thread nD τ) a5 fullShare x2
            ∗ owns (c : Thread nD τ) a6 fullShare x3
            ∗ owns (c : Thread nD τ) a7 fullShare x4
            ∗ owns (c : Thread nD τ) a8 fullShare x5
            ∗ owns (c : Thread nD τ) a9 fullShare xi6
            ∗ owns (c : Thread nD τ) a10 fullShare xi7
            ∗ (∃ d, owns (c : Thread nD τ) a11 fullShare d)
            ∗ (∃ d, owns (c : Thread nD τ) a12 fullShare d)
            ∗ (∃ d, owns (c : Thread nD τ) a13 fullShare d)
            ∗ (∃ d, owns (c : Thread nD τ) a14 fullShare d)
            ∗ (∃ d, owns (c : Thread nD τ) a15 fullShare d)
            ∗ (∃ d, owns (c : Thread nD τ) a16 fullShare d)
            ∗ (iprop(owns (c : Thread nD τ) a3 fullShare x0
                ∗ owns (c : Thread nD τ) a4 fullShare x1
                ∗ owns (c : Thread nD τ) a5 fullShare x2
                ∗ owns (c : Thread nD τ) a6 fullShare x3
                ∗ owns (c : Thread nD τ) a7 fullShare x4
                ∗ owns (c : Thread nD τ) a8 fullShare x5
                ∗ owns (c : Thread nD τ) a9 fullShare xi6
                ∗ owns (c : Thread nD τ) a10 fullShare xi7
                ∗ (∃ f, a11.view.loc (c : Thread nD τ) ↦[a11.view.set]{fullShare} a11.view.writes (Elt F) f LS0)
                ∗ (∃ f, a12.view.loc (c : Thread nD τ) ↦[a12.view.set]{fullShare} a12.view.writes (Elt F) f LS1)
                ∗ (∃ f, a13.view.loc (c : Thread nD τ) ↦[a13.view.set]{fullShare} a13.view.writes (Elt F) f LS2)
                ∗ (∃ f, a14.view.loc (c : Thread nD τ) ↦[a14.view.set]{fullShare} a14.view.writes (Elt F) f LS3)
                ∗ (∃ f, a15.view.loc (c : Thread nD τ) ↦[a15.view.set]{fullShare} a15.view.writes (Elt F) f LS4)
                ∗ (∃ f, a16.view.loc (c : Thread nD τ) ↦[a16.view.set]{fullShare} a16.view.writes (Elt F) f LS5)) -∗ K ⟨⟩))
            ⊢ wp frame (wpE (defs₀ (F := F)) Variants.none c none) E (cc0__attn_kernel i a3 h3 a4 h4 a5 h5 a6 h6 a7 h7 a8 h8 a9 h9 a10 h10 a11 h11 a12 h12 a13 h13 a14 h14 a15 h15 a16 h16) K } := by
  refine ⟨[], [], ?_, ?_, ?_, ?_, ?_, ?_, fun xi6 xi7 E K => ?run⟩
  case run =>
    simp only [cc0__attn_kernel_eq_skeleton]; unfold cc0__attn_kernel_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10
    sl_exec (disch := first | exact hF | exact hL)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.KernelIdeal.Flash

end
-- ==== Proof.FlashRunMid.lean ====
/-
  The whole body run once, symbolically, at a middle key block (neither the reset nor the output stores): from the six input
  blocks, the scratch at what the key block before left and the two output buffers untouched, to the same
  input blocks, the scratch rewritten by the online-softmax update of both directions —
  what each buffer ends with is found by the run itself, as the list of its stores.
-/
import proofs.«154790_j27118423507780_2_alg».proof.Proof.FlashRunFirst

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle key block (neither the reset nor the output stores): what its stores leave in each output and scratch buffer, as pieces (last first), with the proof that it runs to the continuation holding them. -/
noncomputable def runMid (c : Dev nD) (i : grid0.Coords) (a3 : Memref sig .tc .vmem S1x256x1024 .bf16) (h3 : a3.IsWhole) (a4 : Memref sig .tc .vmem S1x256x1024 .bf16) (h4 : a4.IsWhole) (a5 : Memref sig .tc .vmem S1x256x512 .bf16) (h5 : a5.IsWhole) (a6 : Memref sig .tc .vmem S1x256x512 .bf16) (h6 : a6.IsWhole) (a7 : Memref sig .tc .vmem S1x256x1024 .f32) (h7 : a7.IsWhole) (a8 : Memref sig .tc .vmem S1x256x1024 .f32) (h8 : a8.IsWhole) (a9 : Memref sig .tc .vmem S1x1024x256 .f32) (h9 : a9.IsWhole) (a10 : Memref sig .tc .vmem S1x1024x256 .f32) (h10 : a10.IsWhole) (a11 : Memref sig .tc .vmem S1024x256 .f32) (h11 : a11.IsWhole) (a12 : Memref sig .tc .vmem S1024x256 .f32) (h12 : a12.IsWhole) (a13 : Memref sig .tc .vmem S1024x1 .f32) (h13 : a13.IsWhole) (a14 : Memref sig .tc .vmem S1024x1 .f32) (h14 : a14.IsWhole) (a15 : Memref sig .tc .vmem S1024x1 .f32) (h15 : a15.IsWhole) (a16 : Memref sig .tc .vmem S1024x1 .f32) (h16 : a16.IsWhole) (hF : ¬atFirst i) (hL : ¬atLast i)
    (x0 x1 : Vec F S1x256x1024 .bf16) (x2 x3 : Vec F S1x256x512 .bf16) (x4 x5 : Vec F S1x256x1024 .f32) (s0 s1 : Vec F S1024x256 .f32) (s2 s3 s4 s5 : Vec F S1024x1 .f32) :
    Σ' (L6 L7 : List (View.Piece (Elt F) S1x1024x256 .f32)) (LS0 LS1 : List (View.Piece (Elt F) S1024x256 .f32)) (LS2 LS3 LS4 : List (View.Piece (Elt F) S1024x1 .f32)),
      { LS5 : List (View.Piece (Elt F) S1024x1 .f32) //
        ∀ (xi6 xi7 : Vec F S1x1024x256 .f32) (E : Set ℕ) (K : PUnit → sProp 𝕄),
          iprop(owns (c : Thread nD τ) a3 fullShare x0
            ∗ owns (c : Thread nD τ) a4 fullShare x1
            ∗ owns (c : Thread nD τ) a5 fullShare x2
            ∗ owns (c : Thread nD τ) a6 fullShare x3
            ∗ owns (c : Thread nD τ) a7 fullShare x4
            ∗ owns (c : Thread nD τ) a8 fullShare x5
            ∗ owns (c : Thread nD τ) a9 fullShare xi6
            ∗ owns (c : Thread nD τ) a10 fullShare xi7
            ∗ owns (c : Thread nD τ) a11 fullShare s0
            ∗ owns (c : Thread nD τ) a12 fullShare s1
            ∗ owns (c : Thread nD τ) a13 fullShare s2
            ∗ owns (c : Thread nD τ) a14 fullShare s3
            ∗ owns (c : Thread nD τ) a15 fullShare s4
            ∗ owns (c : Thread nD τ) a16 fullShare s5
            ∗ (iprop(owns (c : Thread nD τ) a3 fullShare x0
                ∗ owns (c : Thread nD τ) a4 fullShare x1
                ∗ owns (c : Thread nD τ) a5 fullShare x2
                ∗ owns (c : Thread nD τ) a6 fullShare x3
                ∗ owns (c : Thread nD τ) a7 fullShare x4
                ∗ owns (c : Thread nD τ) a8 fullShare x5
                ∗ owns (c : Thread nD τ) a9 fullShare xi6
                ∗ owns (c : Thread nD τ) a10 fullShare xi7
                ∗ (∃ f, a11.view.loc (c : Thread nD τ) ↦[a11.view.set]{fullShare} a11.view.writes (Elt F) f LS0)
                ∗ (∃ f, a12.view.loc (c : Thread nD τ) ↦[a12.view.set]{fullShare} a12.view.writes (Elt F) f LS1)
                ∗ (∃ f, a13.view.loc (c : Thread nD τ) ↦[a13.view.set]{fullShare} a13.view.writes (Elt F) f LS2)
                ∗ (∃ f, a14.view.loc (c : Thread nD τ) ↦[a14.view.set]{fullShare} a14.view.writes (Elt F) f LS3)
                ∗ (∃ f, a15.view.loc (c : Thread nD τ) ↦[a15.view.set]{fullShare} a15.view.writes (Elt F) f LS4)
                ∗ (∃ f, a16.view.loc (c : Thread nD τ) ↦[a16.view.set]{fullShare} a16.view.writes (Elt F) f LS5)) -∗ K ⟨⟩))
            ⊢ wp frame (wpE (defs₀ (F := F)) Variants.none c none) E (cc0__attn_kernel i a3 h3 a4 h4 a5 h5 a6 h6 a7 h7 a8 h8 a9 h9 a10 h10 a11 h11 a12 h12 a13 h13 a14 h14 a15 h15 a16 h16) K } := by
  refine ⟨[], [], ?_, ?_, ?_, ?_, ?_, ?_, fun xi6 xi7 E K => ?run⟩
  case run =>
    simp only [cc0__attn_kernel_eq_skeleton]; unfold cc0__attn_kernel_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
    sl_exec (disch := first | exact hF | exact hL)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.KernelIdeal.Flash

end
-- ==== Proof.FlashRunLast.lean ====
/-
  The whole body run once, symbolically, at the last key block of a run (no reset; the two output blocks are stored): from the six input
  blocks, the scratch at what the key block before left and the two output buffers at anything, to the same
  input blocks, the scratch rewritten by the online-softmax update of both directions and the output buffers written —
  what each buffer ends with is found by the run itself, as the list of its stores.
-/
import proofs.«154790_j27118423507780_2_alg».proof.Proof.FlashRunMid

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block of a run (no reset; the two output blocks are stored): what its stores leave in each output and scratch buffer, as pieces (last first), with the proof that it runs to the continuation holding them. -/
noncomputable def runLast (c : Dev nD) (i : grid0.Coords) (a3 : Memref sig .tc .vmem S1x256x1024 .bf16) (h3 : a3.IsWhole) (a4 : Memref sig .tc .vmem S1x256x1024 .bf16) (h4 : a4.IsWhole) (a5 : Memref sig .tc .vmem S1x256x512 .bf16) (h5 : a5.IsWhole) (a6 : Memref sig .tc .vmem S1x256x512 .bf16) (h6 : a6.IsWhole) (a7 : Memref sig .tc .vmem S1x256x1024 .f32) (h7 : a7.IsWhole) (a8 : Memref sig .tc .vmem S1x256x1024 .f32) (h8 : a8.IsWhole) (a9 : Memref sig .tc .vmem S1x1024x256 .f32) (h9 : a9.IsWhole) (a10 : Memref sig .tc .vmem S1x1024x256 .f32) (h10 : a10.IsWhole) (a11 : Memref sig .tc .vmem S1024x256 .f32) (h11 : a11.IsWhole) (a12 : Memref sig .tc .vmem S1024x256 .f32) (h12 : a12.IsWhole) (a13 : Memref sig .tc .vmem S1024x1 .f32) (h13 : a13.IsWhole) (a14 : Memref sig .tc .vmem S1024x1 .f32) (h14 : a14.IsWhole) (a15 : Memref sig .tc .vmem S1024x1 .f32) (h15 : a15.IsWhole) (a16 : Memref sig .tc .vmem S1024x1 .f32) (h16 : a16.IsWhole) (hF : ¬atFirst i) (hL : atLast i)
    (x0 x1 : Vec F S1x256x1024 .bf16) (x2 x3 : Vec F S1x256x512 .bf16) (x4 x5 : Vec F S1x256x1024 .f32) (s0 s1 : Vec F S1024x256 .f32) (s2 s3 s4 s5 : Vec F S1024x1 .f32) :
    Σ' (L6 L7 : List (View.Piece (Elt F) S1x1024x256 .f32)) (LS0 LS1 : List (View.Piece (Elt F) S1024x256 .f32)) (LS2 LS3 LS4 : List (View.Piece (Elt F) S1024x1 .f32)),
      { LS5 : List (View.Piece (Elt F) S1024x1 .f32) //
        ∀ (E : Set ℕ) (K : PUnit → sProp 𝕄),
          iprop(owns (c : Thread nD τ) a3 fullShare x0
            ∗ owns (c : Thread nD τ) a4 fullShare x1
            ∗ owns (c : Thread nD τ) a5 fullShare x2
            ∗ owns (c : Thread nD τ) a6 fullShare x3
            ∗ owns (c : Thread nD τ) a7 fullShare x4
            ∗ owns (c : Thread nD τ) a8 fullShare x5
            ∗ (∃ d, owns (c : Thread nD τ) a9 fullShare d)
            ∗ (∃ d, owns (c : Thread nD τ) a10 fullShare d)
            ∗ owns (c : Thread nD τ) a11 fullShare s0
            ∗ owns (c : Thread nD τ) a12 fullShare s1
            ∗ owns (c : Thread nD τ) a13 fullShare s2
            ∗ owns (c : Thread nD τ) a14 fullShare s3
            ∗ owns (c : Thread nD τ) a15 fullShare s4
            ∗ owns (c : Thread nD τ) a16 fullShare s5
            ∗ (iprop(owns (c : Thread nD τ) a3 fullShare x0
                ∗ owns (c : Thread nD τ) a4 fullShare x1
                ∗ owns (c : Thread nD τ) a5 fullShare x2
                ∗ owns (c : Thread nD τ) a6 fullShare x3
                ∗ owns (c : Thread nD τ) a7 fullShare x4
                ∗ owns (c : Thread nD τ) a8 fullShare x5
                ∗ (∃ f, a9.view.loc (c : Thread nD τ) ↦[a9.view.set]{fullShare} a9.view.writes (Elt F) f L6)
                ∗ (∃ f, a10.view.loc (c : Thread nD τ) ↦[a10.view.set]{fullShare} a10.view.writes (Elt F) f L7)
                ∗ (∃ f, a11.view.loc (c : Thread nD τ) ↦[a11.view.set]{fullShare} a11.view.writes (Elt F) f LS0)
                ∗ (∃ f, a12.view.loc (c : Thread nD τ) ↦[a12.view.set]{fullShare} a12.view.writes (Elt F) f LS1)
                ∗ (∃ f, a13.view.loc (c : Thread nD τ) ↦[a13.view.set]{fullShare} a13.view.writes (Elt F) f LS2)
                ∗ (∃ f, a14.view.loc (c : Thread nD τ) ↦[a14.view.set]{fullShare} a14.view.writes (Elt F) f LS3)
                ∗ (∃ f, a15.view.loc (c : Thread nD τ) ↦[a15.view.set]{fullShare} a15.view.writes (Elt F) f LS4)
                ∗ (∃ f, a16.view.loc (c : Thread nD τ) ↦[a16.view.set]{fullShare} a16.view.writes (Elt F) f LS5)) -∗ K ⟨⟩))
            ⊢ wp frame (wpE (defs₀ (F := F)) Variants.none c none) E (cc0__attn_kernel i a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, fun E K => ?run⟩
  case run =>
    simp only [cc0__attn_kernel_eq_skeleton]; unfold cc0__attn_kernel_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h3.eq_unread hf3; obtain rfl := h4.eq_unread hf4; obtain rfl := h5.eq_unread hf5; obtain rfl := h6.eq_unread hf6; obtain rfl := h7.eq_unread hf7; obtain rfl := h8.eq_unread hf8; obtain rfl := h11.eq_unread hf11; obtain rfl := h12.eq_unread hf12; obtain rfl := h13.eq_unread hf13; obtain rfl := h14.eq_unread hf14; obtain rfl := h15.eq_unread hf15; obtain rfl := h16.eq_unread hf16
    sl_exec (disch := first | exact hF | exact hL)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.KernelIdeal.Flash

end
-- ==== Proof.FlashData.lean ====
/-
  The proof data of the attention kernel's one pipeline. The kernel carries six scratch buffers from one key block
  to the next — for each direction the accumulator, the running maximum and the running normaliser of the online
  softmax — and stores its two output blocks only at the last key block of a run of eight. What the scratch and the
  output buffers hold after each grid point is therefore a recursion on the point: the first key block of a run starts
  from nothing, a middle one and the last one from what the point before left.
-/
import proofs.«154790_j27118423507780_2_alg».proof.Proof.FlashRunLast

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes and the two changes of float format. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the four host operations, the region, the five host operations: it reduces to the region continued by the later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (unfetched, the block index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not (unfetched, the block index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not (unfetched, the block index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or not (unfetched, the block index has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or not (unfetched, the block index has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or not (unfetched, the block index has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What one point leaves -/

/-- What the kernel's own buffers hold after a point: the two output blocks' staging buffers, then the six scratch
    buffers (accumulator, running maximum, running normaliser, of each direction). -/
structure Carried (F : FTy → Type) [FloatOps F] where
  o6 : Vec F S1x1024x256 .f32
  o7 : Vec F S1x1024x256 .f32
  accV : Vec F S1024x256 .f32
  accT : Vec F S1024x256 .f32
  maxV : Vec F S1024x1 .f32
  sumV : Vec F S1024x1 .f32
  maxT : Vec F S1024x1 .f32
  sumT : Vec F S1024x1 .f32

/-- At the first key block of a run the body's stores into scratch buffer 0 tile it, so they cover it. -/
theorem coverFirst_2 (c : Dev nD) (t : Fin cfg0.N) (hF : atFirst (grid0.coords t)) (hL : ¬atLast (grid0.coords t)) (y : S1024x256.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.1 S1024x256.size (by sl_kernel_rfl) y

/-- At the first key block of a run the body's stores into scratch buffer 1 tile it, so they cover it. -/
theorem coverFirst_3 (c : Dev nD) (t : Fin cfg0.N) (hF : atFirst (grid0.coords t)) (hL : ¬atLast (grid0.coords t)) (y : S1024x256.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.1 S1024x256.size (by sl_kernel_rfl) y

/-- At the first key block of a run the body's stores into scratch buffer 2 tile it, so they cover it. -/
theorem coverFirst_4 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.1 S1024x1.size (by sl_kernel_rfl) y

/-- At the first key block of a run the body's stores into scratch buffer 3 tile it, so they cover it. -/
theorem coverFirst_5 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.1 S1024x1.size (by sl_kernel_rfl) y

/-- At the first key block of a run the body's stores into scratch buffer 4 tile it, so they cover it. -/
theorem coverFirst_6 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.1 S1024x1.size (by sl_kernel_rfl) y

/-- At the first key block of a run the body's stores into scratch buffer 5 tile it, so they cover it. -/
theorem coverFirst_7 (c : Dev nD) (t : Fin cfg0.N) (hF : atFirst (grid0.coords t)) (hL : ¬atLast (grid0.coords t)) (y : S1024x1.Idx) :
    ∃ pc ∈ (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.2.1, y ∈ pc.1.set :=
  View.cover_of_tiledL (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.2.1 S1024x1.size (by sl_kernel_rfl) y

/-- What the first key block of a run leaves: each buffer's stores read back over junk (the stores cover every scratch buffer; the output blocks are not touched, and what is written here for them is never consulted). -/
def stFirst (c : Dev nD) (t : Fin cfg0.N) (hF : atFirst (grid0.coords t)) (hL : ¬atLast (grid0.coords t)) : Carried F where
  o6 := VO6.read (Elt F) (VO6.writes (Elt F) VO6.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).1)
  o7 := VO7.read (Elt F) (VO7.writes (Elt F) VO7.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.1)
  accV := scAccV.view.read (Elt F) (scAccV.view.writes (Elt F) scAccV.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.1)
  accT := scAccT.view.read (Elt F) (scAccT.view.writes (Elt F) scAccT.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.1)
  maxV := scMaxV.view.read (Elt F) (scMaxV.view.writes (Elt F) scMaxV.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.1)
  sumV := scSumV.view.read (Elt F) (scSumV.view.writes (Elt F) scSumV.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.1)
  maxT := scMaxT.view.read (Elt F) (scMaxT.view.writes (Elt F) scMaxT.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.1)
  sumT := scSumT.view.read (Elt F) (scSumT.view.writes (Elt F) scSumT.view.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t)).2.2.2.2.2.2.2.1)

/-- At a middle key block the body's stores into scratch buffer 0 tile it, so they cover it. -/
theorem coverMid_2 (c : Dev nD) (t : Fin cfg0.N) (hF : ¬atFirst (grid0.coords t)) (hL : ¬atLast (grid0.coords t)) (p : Carried F) (y : S1024x256.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1 S1024x256.size (by sl_kernel_rfl) y

/-- At a middle key block the body's stores into scratch buffer 1 tile it, so they cover it. -/
theorem coverMid_3 (c : Dev nD) (t : Fin cfg0.N) (hF : ¬atFirst (grid0.coords t)) (hL : ¬atLast (grid0.coords t)) (p : Carried F) (y : S1024x256.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1 S1024x256.size (by sl_kernel_rfl) y

/-- At a middle key block the body's stores into scratch buffer 2 tile it, so they cover it. -/
theorem coverMid_4 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1 S1024x1.size (by sl_kernel_rfl) y

/-- At a middle key block the body's stores into scratch buffer 3 tile it, so they cover it. -/
theorem coverMid_5 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1 S1024x1.size (by sl_kernel_rfl) y

/-- At a middle key block the body's stores into scratch buffer 4 tile it, so they cover it. -/
theorem coverMid_6 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1 S1024x1.size (by sl_kernel_rfl) y

/-- At a middle key block the body's stores into scratch buffer 5 tile it, so they cover it. -/
theorem coverMid_7 (c : Dev nD) (t : Fin cfg0.N) (hF : ¬atFirst (grid0.coords t)) (hL : ¬atLast (grid0.coords t)) (p : Carried F) (y : S1024x1.Idx) :
    ∃ pc ∈ (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1, y ∈ pc.1.set :=
  View.cover_of_tiledL (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1 S1024x1.size (by sl_kernel_rfl) y

/-- What a middle key block leaves: each buffer's stores read back over junk (the stores cover every scratch buffer; the output blocks are not touched, and what is written here for them is never consulted). -/
def stMid (c : Dev nD) (t : Fin cfg0.N) (hF : ¬atFirst (grid0.coords t)) (hL : ¬atLast (grid0.coords t)) (p : Carried F) : Carried F where
  o6 := VO6.read (Elt F) (VO6.writes (Elt F) VO6.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1)
  o7 := VO7.read (Elt F) (VO7.writes (Elt F) VO7.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1)
  accV := scAccV.view.read (Elt F) (scAccV.view.writes (Elt F) scAccV.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1)
  accT := scAccT.view.read (Elt F) (scAccT.view.writes (Elt F) scAccT.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1)
  maxV := scMaxV.view.read (Elt F) (scMaxV.view.writes (Elt F) scMaxV.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1)
  sumV := scSumV.view.read (Elt F) (scSumV.view.writes (Elt F) scSumV.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1)
  maxT := scMaxT.view.read (Elt F) (scMaxT.view.writes (Elt F) scMaxT.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1)
  sumT := scSumT.view.read (Elt F) (scSumT.view.writes (Elt F) scSumT.view.junk (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1)

/-- At the last key block of a run the body's stores into the first output block tile it, so they cover it. -/
theorem coverLast_0 (c : Dev nD) (t : Fin cfg0.N) (hF : ¬atFirst (grid0.coords t)) (hL : atLast (grid0.coords t)) (p : Carried F) (y : S1x1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1 S1x1024x256.size (by sl_kernel_rfl) y

/-- At the last key block of a run the body's stores into the second output block tile it, so they cover it. -/
theorem coverLast_1 (c : Dev nD) (t : Fin cfg0.N) (hF : ¬atFirst (grid0.coords t)) (hL : atLast (grid0.coords t)) (p : Carried F) (y : S1x1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1 S1x1024x256.size (by sl_kernel_rfl) y

/-- At the last key block of a run the body's stores into scratch buffer 0 tile it, so they cover it. -/
theorem coverLast_2 (c : Dev nD) (t : Fin cfg0.N) (hF : ¬atFirst (grid0.coords t)) (hL : atLast (grid0.coords t)) (p : Carried F) (y : S1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1 S1024x256.size (by sl_kernel_rfl) y

/-- At the last key block of a run the body's stores into scratch buffer 1 tile it, so they cover it. -/
theorem coverLast_3 (c : Dev nD) (t : Fin cfg0.N) (hF : ¬atFirst (grid0.coords t)) (hL : atLast (grid0.coords t)) (p : Carried F) (y : S1024x256.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1 S1024x256.size (by sl_kernel_rfl) y

/-- At the last key block of a run the body's stores into scratch buffer 2 tile it, so they cover it. -/
theorem coverLast_4 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1 S1024x1.size (by sl_kernel_rfl) y

/-- At the last key block of a run the body's stores into scratch buffer 3 tile it, so they cover it. -/
theorem coverLast_5 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1 S1024x1.size (by sl_kernel_rfl) y

/-- At the last key block of a run the body's stores into scratch buffer 4 tile it, so they cover it. -/
theorem coverLast_6 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1 S1024x1.size (by sl_kernel_rfl) y

/-- At the last key block of a run the body's stores into scratch buffer 5 tile it, so they cover it. -/
theorem coverLast_7 (c : Dev nD) (t : Fin cfg0.N) (hF : ¬atFirst (grid0.coords t)) (hL : atLast (grid0.coords t)) (p : Carried F) (y : S1024x1.Idx) :
    ∃ pc ∈ (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1, y ∈ pc.1.set :=
  View.cover_of_tiledL (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1 S1024x1.size (by sl_kernel_rfl) y

/-- What the last key block of a run leaves: each buffer's stores read back over junk (the stores cover every scratch buffer and both output blocks). -/
def stLast (c : Dev nD) (t : Fin cfg0.N) (hF : ¬atFirst (grid0.coords t)) (hL : atLast (grid0.coords t)) (p : Carried F) : Carried F where
  o6 := VO6.read (Elt F) (VO6.writes (Elt F) VO6.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).1)
  o7 := VO7.read (Elt F) (VO7.writes (Elt F) VO7.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.1)
  accV := scAccV.view.read (Elt F) (scAccV.view.writes (Elt F) scAccV.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.1)
  accT := scAccT.view.read (Elt F) (scAccT.view.writes (Elt F) scAccT.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.1)
  maxV := scMaxV.view.read (Elt F) (scMaxV.view.writes (Elt F) scMaxV.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.1)
  sumV := scSumV.view.read (Elt F) (scSumV.view.writes (Elt F) scSumV.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.1)
  maxT := scMaxT.view.read (Elt F) (scMaxT.view.writes (Elt F) scMaxT.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.1)
  sumT := scSumT.view.read (Elt F) (scSumT.view.writes (Elt F) scSumT.view.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) (p).accV (p).accT (p).maxV (p).sumV (p).maxT (p).sumT).2.2.2.2.2.2.2.1)

/-! ## Point by point -/

/-- What the kernel's buffers hold after the body at position `n`: the case the closed forms select at `n`, run at the
    point's memrefs and input blocks, a middle or last key block over what position `n - 1` left. -/
def outsAt (c : Dev nD) : (n : ℕ) → n < cfg0.N → Carried F
  | 0, hn => stFirst m c ⟨0, hn⟩ ((atFirst_iff ⟨0, hn⟩).mpr (Nat.zero_mod _)) (fun h => (fun h => by (try dsimp only at h); omega) ((atLast_iff ⟨0, hn⟩).mp h))
  | n + 1, hn =>
    if h0 : (n + 1) % 8 = 0 then
      stFirst m c ⟨n + 1, hn⟩ ((atFirst_iff ⟨n + 1, hn⟩).mpr h0) (fun h => (fun h => by (try dsimp only at h); omega) ((atLast_iff ⟨n + 1, hn⟩).mp h))
    else
      if h1 : (n + 1) % 8 = 7 then
        stLast m c ⟨n + 1, hn⟩ (fun h => h0 ((atFirst_iff ⟨n + 1, hn⟩).mp h)) ((atLast_iff ⟨n + 1, hn⟩).mpr h1) (outsAt c n (Nat.lt_of_succ_lt hn))
      else
        stMid m c ⟨n + 1, hn⟩ (fun h => h0 ((atFirst_iff ⟨n + 1, hn⟩).mp h)) (fun h => h1 ((atLast_iff ⟨n + 1, hn⟩).mp h)) (outsAt c n (Nat.lt_of_succ_lt hn))

/-- At the first key block of a run. -/
theorem outsAt_first (c : Dev nD) (t : Fin cfg0.N) (h0 : t.val % 8 = 0) :
    outsAt m c t.val t.isLt = stFirst m c t ((atFirst_iff t).mpr h0) (fun h => (fun h => by omega) ((atLast_iff t).mp h)) := by
  obtain ⟨n, hn⟩ := t
  cases n with
  | zero => exact rfl
  | succ n => exact (dif_pos h0).trans rfl

/-- At a middle key block: over what the point before left. -/
theorem outsAt_mid (c : Dev nD) (t : Fin cfg0.N) (h0 : ¬t.val % 8 = 0) (h1 : ¬t.val % 8 = 7) :
    outsAt m c t.val t.isLt = stMid m c t (fun h => h0 ((atFirst_iff t).mp h)) (fun h => h1 ((atLast_iff t).mp h))
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At the last key block: over what the point before left. -/
theorem outsAt_last (c : Dev nD) (t : Fin cfg0.N) (h0 : ¬t.val % 8 = 0) (h1 : t.val % 8 = 7) :
    outsAt m c t.val t.isLt = stLast m c t (fun h => h0 ((atFirst_iff t).mp h)) ((atLast_iff t).mpr h1)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The six scratch buffers, each at given contents. -/
def scratchAt (c : Dev nD) (p : Carried F) : sProp 𝕄 :=
  iprop(owns (c : Thread nD τ) scAccV fullShare p.accV ∗ owns (c : Thread nD τ) scAccT fullShare p.accT ∗ owns (c : Thread nD τ) scMaxV fullShare p.maxV ∗ owns (c : Thread nD τ) scSumV fullShare p.sumV ∗ owns (c : Thread nD τ) scMaxT fullShare p.maxT ∗ owns (c : Thread nD τ) scSumT fullShare p.sumT)

/-- Before the first point the scratch buffers hold anything (the launch hands them over unnamed); before any later
    point they hold what the point before left. -/
def PhiS (c : Dev nD) : (n : ℕ) → n ≤ cfg0.N → sProp 𝕄
  | 0, _ => Pipeline.scopedRest spec0 c
  | n + 1, hn => scratchAt c (outsAt m c n hn)

/-- The launch's scoped rest is the six scratch buffers owned at some contents. -/
theorem scopedRest_eq (c : Dev nD) :
    (Pipeline.scopedRest spec0 c : sProp 𝕄)
      = iprop((∃ d, owns (c : Thread nD τ) scAccV fullShare d) ∗ (∃ d, owns (c : Thread nD τ) scAccT fullShare d) ∗ (∃ d, owns (c : Thread nD τ) scMaxV fullShare d) ∗ (∃ d, owns (c : Thread nD τ) scSumV fullShare d) ∗ (∃ d, owns (c : Thread nD τ) scMaxT fullShare d) ∗ (∃ d, owns (c : Thread nD τ) scSumT fullShare d)) := by
  rw [scopedRest0_eq]; simp only [scAccV, scAccT, scMaxV, scSumV, scMaxT, scSumT, owns_whole]; try rfl

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) : PhiS m c (n + 1) hn = scratchAt c (outsAt m c n hn) := rfl
theorem PhiS_pos (c : Dev nD) (n : ℕ) (h : n ≤ cfg0.N) (hz : n ≠ 0) :
    PhiS m c n h = scratchAt c (outsAt m c (n - 1) (by omega)) := by
  cases n with
  | zero => exact absurd rfl hz
  | succ n => rfl

/-! ## The proof data -/

/-- The proof data on core `c`: the arrays as the region finds them; after the body each input's buffer at its block
    and each output's at the recursion's component; the invariant `PhiS`; nothing owed. The two bf16 arrays are each read
    through two windows (a query-block window and a key-block window), which hold them by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).o6
    | ⟨7, _⟩ => (outsAt m c t.val t.isLt).o7
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).o6 := by dsimp only [dats]
theorem after7 (c : Dev nD) (t : Fin cfg0.N) : (dats m 0 c).after 7 t = (outsAt m c t.val t.isLt).o7 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

end Cert.KernelIdeal.Flash

end
-- ==== Proof.FlashBodyDefs.lean ====
/-
  What the attention kernel's body is called with at a grid point, and what it returns: the invariant, the duties
  (none), and the eight windows' staging buffers.
-/
import proofs.«154790_j27118423507780_2_alg».proof.Proof.FlashData

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.KernelIdeal.Flash

end
-- ==== Proof.FlashBodyFirst0.lean ====
/-
  The attention kernel's body obligation at the very first grid point (the scratch at anything).
-/
import proofs.«154790_j27118423507780_2_alg».proof.Proof.FlashBodyDefs

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the very first grid point (the scratch at anything): the case's symbolic run applies, and every buffer it rewrote is handed back at the recursion's component. -/
theorem sound_first0 (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have h0 : t.val % 8 = 0 := by rw [hz]
  have hF : atFirst (grid0.coords t) := (atFirst_iff t).mpr h0
  have hL : ¬atLast (grid0.coords t) := fun h => (fun h => by omega) ((atLast_iff t).mp h)
  rw [Dat.leavesExact_idle (dats m 0 c) 6 t (idle_out6 t hL) (noFlush6 t hL), Dat.leavesExact_idle (dats m 0 c) 7 t (idle_out7 t hL) (noFlush7 t hL)]
  rw [outsAt_first m c t h0]
  rw [PhiS_castSucc m c t, PhiS_zero m c _ _ hz, scopedRest_eq]
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t))).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stFirst); (try dsimp only)
    isplitl [HS0]
    · unfold owns; iexists _; isplitr
      swap; · iexact HS0
      ipureintro; exact View.read_writes_of_cover _ _ _ _ _ (coverFirst_2 m c t hF hL)
    isplitl [HS1]
    · unfold owns; iexists _; isplitr
      swap; · iexact HS1
      ipureintro; exact View.read_writes_of_cover _ _ _ _ _ (coverFirst_3 m c t hF hL)
    isplitl [HS2]
    · unfold owns; iexists _; isplitr
      swap; · iexact HS2
      ipureintro; exact View.read_writes_of_cover _ _ _ _ _ (coverFirst_4 m c t hF hL)
    isplitl [HS3]
    · unfold owns; iexists _; isplitr
      swap; · iexact HS3
      ipureintro; exact View.read_writes_of_cover _ _ _ _ _ (coverFirst_5 m c t hF hL)
    isplitl [HS4]
    · unfold owns; iexists _; isplitr
      swap; · iexact HS4
      ipureintro; exact View.read_writes_of_cover _ _ _ _ _ (coverFirst_6 m c t hF hL)
    unfold owns; iexists _; isplitr
    swap; · iexact HS5
    ipureintro; exact View.read_writes_of_cover _ _ _ _ _ (coverFirst_7 m c t hF hL)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Flash

end
-- ==== Proof.FlashBodyFirst.lean ====
/-
  The attention kernel's body obligation at the first key block of a later run (the scratch at what the run before left, which the reset overwrites).
-/
import proofs.«154790_j27118423507780_2_alg».proof.Proof.FlashBodyDefs

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the first key block of a later run (the scratch at what the run before left, which the reset overwrites): the case's symbolic run applies, and every buffer it rewrote is handed back at the recursion's component. -/
theorem sound_first (c : Dev nD) (t : Fin cfg0.N) (h0 : t.val % 8 = 0) (hz : t.val ≠ 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have hF : atFirst (grid0.coords t) := (atFirst_iff t).mpr h0
  have hL : ¬atLast (grid0.coords t) := fun h => (fun h => by omega) ((atLast_iff t).mp h)
  rw [Dat.leavesExact_idle (dats m 0 c) 6 t (idle_out6 t hL) (noFlush6 t hL), Dat.leavesExact_idle (dats m 0 c) 7 t (idle_out7 t hL) (noFlush7 t hL)]
  rw [outsAt_first m c t h0]
  rw [PhiS_castSucc m c t, PhiS_pos m c _ _ hz]; unfold scratchAt
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t))).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stFirst); (try dsimp only)
    isplitl [HS0]
    · unfold owns; iexists _; isplitr
      swap; · iexact HS0
      ipureintro; exact View.read_writes_of_cover _ _ _ _ _ (coverFirst_2 m c t hF hL)
    isplitl [HS1]
    · unfold owns; iexists _; isplitr
      swap; · iexact HS1
      ipureintro; exact View.read_writes_of_cover _ _ _ _ _ (coverFirst_3 m c t hF hL)
    isplitl [HS2]
    · unfold owns; iexists _; isplitr
      swap; · iexact HS2
      ipureintro; exact View.read_writes_of_cover _ _ _ _ _ (coverFirst_4 m c t hF hL)
    isplitl [HS3]
    · unfold owns; iexists _; isplitr
      swap; · iexact HS3
      ipureintro; exact View.read_writes_of_cover _ _ _ _ _ (coverFirst_5 m c t hF hL)
    isplitl [HS4]
    · unfold owns; iexists _; isplitr
      swap; · iexact HS4
      ipureintro; exact View.read_writes_of_cover _ _ _ _ _ (coverFirst_6 m c t hF hL)
    unfold owns; iexists _; isplitr
    swap; · iexact HS5
    ipureintro; exact View.read_writes_of_cover _ _ _ _ _ (coverFirst_7 m c t hF hL)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Flash

end
-- ==== Proof.FlashBodyMid.lean ====
/-
  The attention kernel's body obligation at a middle key block.
-/
import proofs.«154790_j27118423507780_2_alg».proof.Proof.FlashBodyDefs

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a middle key block: the case's symbolic run applies, and every buffer it rewrote is handed back at the recursion's component. -/
theorem sound_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have hF : ¬atFirst (grid0.coords t) := fun h => h0 ((atFirst_iff t).mp h)
  have hz : t.val ≠ 0 := fun e => h0 (by rw [e])
  have hL : ¬atLast (grid0.coords t) := fun h => h1 ((atLast_iff t).mp h)
  rw [Dat.leavesExact_idle (dats m 0 c) 6 t (idle_out6 t hL) (noFlush6 t hL), Dat.leavesExact_idle (dats m 0 c) 7 t (idle_out7 t hL) (noFlush7 t hL)]
  rw [outsAt_mid m c t h0 h1]
  rw [PhiS_castSucc m c t, PhiS_pos m c _ _ hz]; unfold scratchAt
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) ((outsAt m c (t.val - 1) (Nat.lt_of_le_of_lt (Nat.sub_le _ _) t.isLt))).accV ((outsAt m c (t.val - 1) (Nat.lt_of_le_of_lt (Nat.sub_le _ _) t.isLt))).accT ((outsAt m c (t.val - 1) (Nat.lt_of_le_of_lt (Nat.sub_le _ _) t.isLt))).maxV ((outsAt m c (t.val - 1) (Nat.lt_of_le_of_lt (Nat.sub_le _ _) t.isLt))).sumV ((outsAt m c (t.val - 1) (Nat.lt_of_le_of_lt (Nat.sub_le _ _) t.isLt))).maxT ((outsAt m c (t.val - 1) (Nat.lt_of_le_of_lt (Nat.sub_le _ _) t.isLt))).sumT)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stMid); (try dsimp only)
    isplitl [HS0]
    · unfold owns; iexists _; isplitr
      swap; · iexact HS0
      ipureintro; exact View.read_writes_of_cover _ _ _ _ _ (coverMid_2 m c t hF hL (outsAt m c (t.val - 1) (Nat.lt_of_le_of_lt (Nat.sub_le _ _) t.isLt)))
    isplitl [HS1]
    · unfold owns; iexists _; isplitr
      swap; · iexact HS1
      ipureintro; exact View.read_writes_of_cover _ _ _ _ _ (coverMid_3 m c t hF hL (outsAt m c (t.val - 1) (Nat.lt_of_le_of_lt (Nat.sub_le _ _) t.isLt)))
    isplitl [HS2]
    · unfold owns; iexists _; isplitr
      swap; · iexact HS2
      ipureintro; exact View.read_writes_of_cover _ _ _ _ _ (coverMid_4 m c t hF hL (outsAt m c (t.val - 1) (Nat.lt_of_le_of_lt (Nat.sub_le _ _) t.isLt)))
    isplitl [HS3]
    · unfold owns; iexists _; isplitr
      swap; · iexact HS3
      ipureintro; exact View.read_writes_of_cover _ _ _ _ _ (coverMid_5 m c t hF hL (outsAt m c (t.val - 1) (Nat.lt_of_le_of_lt (Nat.sub_le _ _) t.isLt)))
    isplitl [HS4]
    · unfold owns; iexists _; isplitr
      swap; · iexact HS4
      ipureintro; exact View.read_writes_of_cover _ _ _ _ _ (coverMid_6 m c t hF hL (outsAt m c (t.val - 1) (Nat.lt_of_le_of_lt (Nat.sub_le _ _) t.isLt)))
    unfold owns; iexists _; isplitr
    swap; · iexact HS5
    ipureintro; exact View.read_writes_of_cover _ _ _ _ _ (coverMid_7 m c t hF hL (outsAt m c (t.val - 1) (Nat.lt_of_le_of_lt (Nat.sub_le _ _) t.isLt)))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Cert.KernelIdeal.Flash

end
-- ==== Proof.FlashBodyLast.lean ====
/-
  The attention kernel's body obligation at the last key block of a run.
-/
import proofs.«154790_j27118423507780_2_alg».proof.Proof.FlashBodyDefs

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the last key block of a run: the case's symbolic run applies, and every buffer it rewrote is handed back at the recursion's component. -/
theorem sound_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  have hF : ¬atFirst (grid0.coords t) := fun h => h0 ((atFirst_iff t).mp h)
  have hz : t.val ≠ 0 := fun e => h0 (by rw [e])
  have hL : atLast (grid0.coords t) := (atLast_iff t).mpr h1
  rw [show (dats m 0 c).leavesExact 6 t = owns (c : Thread nD τ) (ms6 t) fullShare ((dats m 0 c).after 6 t) from by
    unfold Dat.leavesExact; rw [live_out6 t hL], after6]
  rw [show (dats m 0 c).leavesExact 7 t = owns (c : Thread nD τ) (ms7 t) fullShare ((dats m 0 c).after 7 t) from by
    unfold Dat.leavesExact; rw [live_out7 t hL], after7]
  rw [outsAt_last m c t h0 h1]
  rw [PhiS_castSucc m c t, PhiS_pos m c _ _ hz]; unfold scratchAt
  iintro ⟨⟨HS0, HS1, HS2, HS3, HS4, HS5⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) scAccV (Memref.isWhole_whole _) scAccT (Memref.isWhole_whole _) scMaxV (Memref.isWhole_whole _) scSumV (Memref.isWhole_whole _) scMaxT (Memref.isWhole_whole _) scSumT (Memref.isWhole_whole _) hF hL (iblk m c 0 t) (iblk m c 1 t) (iblk m c 2 t) (iblk m c 3 t) (iblk m c 4 t) (iblk m c 5 t) ((outsAt m c (t.val - 1) (Nat.lt_of_le_of_lt (Nat.sub_le _ _) t.isLt))).accV ((outsAt m c (t.val - 1) (Nat.lt_of_le_of_lt (Nat.sub_le _ _) t.isLt))).accT ((outsAt m c (t.val - 1) (Nat.lt_of_le_of_lt (Nat.sub_le _ _) t.isLt))).maxV ((outsAt m c (t.val - 1) (Nat.lt_of_le_of_lt (Nat.sub_le _ _) t.isLt))).sumV ((outsAt m c (t.val - 1) (Nat.lt_of_le_of_lt (Nat.sub_le _ _) t.isLt))).maxT ((outsAt m c (t.val - 1) (Nat.lt_of_le_of_lt (Nat.sub_le _ _) t.isLt))).sumT)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5]
  · (try unfold scratchAt); (try unfold stLast); (try dsimp only)
    isplitl [HS0]
    · unfold owns; iexists _; isplitr
      swap; · iexact HS0
      ipureintro; exact View.read_writes_of_cover _ _ _ _ _ (coverLast_2 m c t hF hL (outsAt m c (t.val - 1) (Nat.lt_of_le_of_lt (Nat.sub_le _ _) t.isLt)))
    isplitl [HS1]
    · unfold owns; iexists _; isplitr
      swap; · iexact HS1
      ipureintro; exact View.read_writes_of_cover _ _ _ _ _ (coverLast_3 m c t hF hL (outsAt m c (t.val - 1) (Nat.lt_of_le_of_lt (Nat.sub_le _ _) t.isLt)))
    isplitl [HS2]
    · unfold owns; iexists _; isplitr
      swap; · iexact HS2
      ipureintro; exact View.read_writes_of_cover _ _ _ _ _ (coverLast_4 m c t hF hL (outsAt m c (t.val - 1) (Nat.lt_of_le_of_lt (Nat.sub_le _ _) t.isLt)))
    isplitl [HS3]
    · unfold owns; iexists _; isplitr
      swap; · iexact HS3
      ipureintro; exact View.read_writes_of_cover _ _ _ _ _ (coverLast_5 m c t hF hL (outsAt m c (t.val - 1) (Nat.lt_of_le_of_lt (Nat.sub_le _ _) t.isLt)))
    isplitl [HS4]
    · unfold owns; iexists _; isplitr
      swap; · iexact HS4
      ipureintro; exact View.read_writes_of_cover _ _ _ _ _ (coverLast_6 m c t hF hL (outsAt m c (t.val - 1) (Nat.lt_of_le_of_lt (Nat.sub_le _ _) t.isLt)))
    unfold owns; iexists _; isplitr
    swap; · iexact HS5
    ipureintro; exact View.read_writes_of_cover _ _ _ _ _ (coverLast_7 m c t hF hL (outsAt m c (t.val - 1) (Nat.lt_of_le_of_lt (Nat.sub_le _ _) t.isLt)))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns stLast; (try dsimp only); iexists _; isplitr
    swap; · iexact H6
    ipureintro; exact View.read_writes_of_cover _ _ _ _ _ (coverLast_0 m c t hF hL (outsAt m c (t.val - 1) (Nat.lt_of_le_of_lt (Nat.sub_le _ _) t.isLt)))
  unfold owns stLast; (try dsimp only); iexists _; isplitr
  swap; · iexact H7
  ipureintro; exact View.read_writes_of_cover _ _ _ _ _ (coverLast_1 m c t hF hL (outsAt m c (t.val - 1) (Nat.lt_of_le_of_lt (Nat.sub_le _ _) t.isLt)))

end Cert.KernelIdeal.Flash

end
-- ==== Proof.FlashBody.lean ====
/-
  The attention kernel's body obligation at every grid point: by cases on where the point stands in its run of eight
  key blocks.
-/
import proofs.«154790_j27118423507780_2_alg».proof.Proof.FlashBodyFirst0
import proofs.«154790_j27118423507780_2_alg».proof.Proof.FlashBodyFirst
import proofs.«154790_j27118423507780_2_alg».proof.Proof.FlashBodyMid
import proofs.«154790_j27118423507780_2_alg».proof.Proof.FlashBodyLast

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_first0 m c t hz
    · exact sound_first m c t h0 hz
  · by_cases h1 : t.val % 8 = 7
    · exact sound_last m c t h0 h1
    · exact sound_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Flash

end
-- ==== Proof.FlashTail.lean ====
/-
  The launch of the attention kernel's program: four host operations, the region, five host operations.
  The two bf16 arrays are each read through two windows (the query-block window and the key-block window of one
  array), so the launch deals each array's points-to among its windows by halves; the host operations after the
  region read the two output arrays, which the region hands back whole, and write buffers of their own. The run's
  post names the program's result as those operations applied to what the region leaves in the two output arrays.
-/
import proofs.«154790_j27118423507780_2_alg».proof.Proof.FlashData

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The proof data's arrays at contents `G`, one points-to per window: the two bf16 arrays by halves, the rest whole. -/
theorem arrays_eq8 (c : Dev nD) (G : (w : Fin cfg0.W) → Buf (Elt F) ((cfg0.win w).arr.view.loc (c : Thread nD τ))) :
    ((dats m 0 c).arrays G : sProp 𝕄) = iprop(
        (((c : Thread nD τ).loc main_v2) ↦{fullShare.left} G 0) ∗ (((c : Thread nD τ).loc main_v3) ↦{fullShare.left} G 1)
      ∗ (((c : Thread nD τ).loc main_v2) ↦{fullShare.right} G 2) ∗ (((c : Thread nD τ).loc main_v3) ↦{fullShare.right} G 3)
      ∗ (((c : Thread nD τ).loc main_v0) ↦{fullShare} G 4) ∗ (((c : Thread nD τ).loc main_v1) ↦{fullShare} G 5)
      ∗ (((c : Thread nD τ).loc main_v4_0) ↦{fullShare} G 6) ∗ (((c : Thread nD τ).loc main_v4_1) ↦{fullShare} G 7)) := by
  unfold Dat.arrays
  rw [bigSep_W0]
  rw [(arr_whole0 0).set_eq_univ, (arr_whole0 1).set_eq_univ,
    (arr_whole0 4).set_eq_univ, (arr_whole0 5).set_eq_univ, (arr_whole0 6).set_eq_univ, (arr_whole0 7).set_eq_univ]
  rfl

/-- The six distinct buffers behind the eight windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v2) ↦{fullShare} W main_v2) ∗ (((c : Thread nD τ).loc main_v3) ↦{fullShare} W main_v3)
        ∗ (((c : Thread nD τ).loc main_v0) ↦{fullShare} W main_v0) ∗ (((c : Thread nD τ).loc main_v1) ↦{fullShare} W main_v1)
        ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_v2, main_v3, main_v0, main_v1, main_v4_0, main_v4_1] (by decide) (by decide) _

/-- The buffers behind the arrays, each whole, make the arrays at entry: the two shared ones are halved. -/
theorem hsplit (c : Dev nD) :
    (Pipeline.arrBufs spec0 c (V m c) : sProp 𝕄) ⊢ (dats m 0 c).arrays ((dats m 0 c).arrAt · 0) := by
  rw [arrays_eq8, arrBufs_eq]
  iintro ⟨H2, H3, H0, H1, H40, H41⟩
  ihave H2' := (pointsTo_share (PosShare.mem_left_op_right fullShare)).1 $$ H2
  icases H2' with ⟨H2l, H2r⟩
  ihave H3' := (pointsTo_share (PosShare.mem_left_op_right fullShare)).1 $$ H3
  icases H3' with ⟨H3l, H3r⟩
  isplitl [H2l]; · iexact H2l
  isplitl [H3l]; · iexact H3l
  isplitl [H2r]; · iexact H2r
  isplitl [H3r]; · iexact H3r
  isplitl [H0]; · iexact H0
  isplitl [H1]; · iexact H1
  isplitl [H40]; · iexact H40
  iexact H41

/-! ## The host operations after the region -/

/-- The buffers the five later operations touch: the two output arrays, which they read, and their own five results. -/
abbrev tailRefsL : List (Ref sig .tc) := [main_v4_0, main_v4_1, main_v5, main_v6, main_v7, main_v8, main_v9]
abbrev tailDev : Finset (DevRef τ sig) := tailRefsL.toFinset.map ⟨Proc.devRef (sig := sig) .tc, Proc.devRef_injective _⟩

theorem held_tail (c : Dev nD) (W : Valuation τ sig (Elt F)) :
    (StableHlo.held (c : Thread nD τ) tailDev W : sProp 𝕄)
      = iprop((((c : Thread nD τ).loc main_v4_0) ↦{fullShare} W (Proc.devRef .tc main_v4_0))
        ∗ (((c : Thread nD τ).loc main_v4_1) ↦{fullShare} W (Proc.devRef .tc main_v4_1))
        ∗ (((c : Thread nD τ).loc main_v5) ↦{fullShare} W (Proc.devRef .tc main_v5))
        ∗ (((c : Thread nD τ).loc main_v6) ↦{fullShare} W (Proc.devRef .tc main_v6))
        ∗ (((c : Thread nD τ).loc main_v7) ↦{fullShare} W (Proc.devRef .tc main_v7))
        ∗ (((c : Thread nD τ).loc main_v8) ↦{fullShare} W (Proc.devRef .tc main_v8))
        ∗ (((c : Thread nD τ).loc main_v9) ↦{fullShare} W (Proc.devRef .tc main_v9))) := by
  unfold StableHlo.held tailDev
  rw [bigSep_map]
  exact bigSep_eq_bigSepL tailRefsL (by decide) _

theorem tail_sub : ∀ ops ∈ ([hostOps1] : List (List (HloOp τ sig (Elt F)))), ∀ op ∈ ops, op.bufs ⊆ tailDev := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals
    intro b hb
    simp only [StableHlo.unary_bufs, StableHlo.reshape_bufs, StableHlo.binary_bufs, Finset.mem_insert, Finset.mem_singleton] at hb
    rcases hb with rfl | rfl | rfl <;> exact Finset.mem_map_of_mem _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- What the region leaves, as a valuation: the two output arrays at what the pipeline wrote back, everything else as the
    region found it. -/
def Wt (c : Dev nD) : Valuation τ sig (Elt F) :=
  Function.update (Function.update (V0 m c) (Proc.devRef .tc main_v4_0) ((dats m 0 c).arrAt 6 cfg0.N))
    (Proc.devRef .tc main_v4_1) ((dats m 0 c).arrAt 7 cfg0.N)

theorem Wt_out0 (c : Dev nD) : Wt m c (Proc.devRef .tc main_v4_0) = (dats m 0 c).arrAt 6 cfg0.N := by
  unfold Wt
  rw [Function.update_of_ne (StableHlo.devRef_ne_of_ne (by decide)), Function.update_self]
theorem Wt_out1 (c : Dev nD) : Wt m c (Proc.devRef .tc main_v4_1) = (dats m 0 c).arrAt 7 cfg0.N := by
  unfold Wt
  rw [Function.update_self]
theorem Wt_other (c : Dev nD) (b : Ref sig .tc) (h0 : b ≠ main_v4_0) (h1 : b ≠ main_v4_1) : Wt m c (Proc.devRef .tc b) = V m c b := by
  unfold Wt
  rw [Function.update_of_ne (StableHlo.devRef_ne_of_ne h1), Function.update_of_ne (StableHlo.devRef_ne_of_ne h0)]

/-! ## What the buffers hold at the end -/

/-- A buffer's contents after the five later operations. -/
def Wfin (c : Dev nD) (b : Ref sig .tc) : Buf (Elt F) ((c : Thread nD τ).loc b) :=
  StableHlo.after (List.flatten [hostOps1]) (Wt m c) (Proc.devRef .tc b)

/-- The program's result on core `c`: the five later operations applied to what the region leaves in its two output arrays. -/
def kernelOut (c : Dev nD) : Buf (Elt F) ((c : Thread nD τ).loc main_v9) := Wfin m c main_v9

/-- No operation before the region writes an argument. -/
theorem not_written0 (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

/-- The later operations write only their own five results. -/
theorem not_written1 (b : Ref sig .tc) (hb : b ≠ main_v5 ∧ b ≠ main_v6 ∧ b ≠ main_v7 ∧ b ≠ main_v8 ∧ b ≠ main_v9) :
    ∀ op ∈ (hostOps1 (F := F)), Proc.devRef .tc b ∉ op.writes := by
  obtain ⟨h5, h6, h7, h8, h9⟩ := hb
  intro op hop
  simp only [List.mem_cons, List.mem_nil_iff, or_false] at hop
  rcases hop with rfl | rfl | rfl | rfl | rfl <;>
    simp only [StableHlo.unary_writes, StableHlo.reshape_writes, StableHlo.binary_writes, Finset.mem_singleton] <;>
    exact StableHlo.devRef_ne_of_ne ‹_›

theorem V_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  exact StableHlo.after_of_forall_not_mem (b := Proc.devRef .tc main_arg0) hostOps0 _ (not_written0 main_arg0 (by decide))
theorem V_arg1 (c : Dev nD) : V m c main_arg1 = m ((c : Thread nD τ).loc main_arg1) := by
  show StableHlo.after (List.flatten [hostOps0]) (fun b => m (c, b)) (Proc.devRef .tc main_arg1) = _
  simp only [List.flatten_cons, List.flatten_nil, List.append_nil]
  exact StableHlo.after_of_forall_not_mem (b := Proc.devRef .tc main_arg1) hostOps0 _ (not_written0 main_arg1 (by decide))

/-- The later operations leave the two output arrays as the region left them. -/
theorem Wfin_out0 (c : Dev nD) : Wfin m c main_v4_0 = (dats m 0 c).arrAt 6 cfg0.N := by
  unfold Wfin; simp only [List.flatten_cons, List.flatten_nil, List.append_nil]
  rw [StableHlo.after_of_forall_not_mem (b := Proc.devRef .tc main_v4_0) hostOps1 _ (not_written1 main_v4_0 (by decide)), Wt_out0]
theorem Wfin_out1 (c : Dev nD) : Wfin m c main_v4_1 = (dats m 0 c).arrAt 7 cfg0.N := by
  unfold Wfin; simp only [List.flatten_cons, List.flatten_nil, List.append_nil]
  rw [StableHlo.after_of_forall_not_mem (b := Proc.devRef .tc main_v4_1) hostOps1 _ (not_written1 main_v4_1 (by decide)), Wt_out1]

/-- What the run leaves of the buffers that bypass the region: the arguments as the region found them, the five later
    results at the later operations' values. -/
def Zout (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_v5) ↦{fullShare} Wfin m c main_v5) ∗ (((c : Thread nD τ).loc main_v6) ↦{fullShare} Wfin m c main_v6)
    ∗ (((c : Thread nD τ).loc main_v7) ↦{fullShare} Wfin m c main_v7) ∗ (((c : Thread nD τ).loc main_v8) ↦{fullShare} Wfin m c main_v8)
    ∗ (((c : Thread nD τ).loc main_v9) ↦{fullShare} Wfin m c main_v9))

set_option backward.isDefEq.respectTransparency.types false in
/-- The five later operations, run from the region's exit: they read the two output arrays and write their own results. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_eq8, unscopedRest0_eq]; unfold Zout
  have hpre := held_tail (F := F) c (Wt m c)
  rw [Wt_out0, Wt_out1, Wt_other m c main_v5 (by decide) (by decide), Wt_other m c main_v6 (by decide) (by decide),
    Wt_other m c main_v7 (by decide) (by decide), Wt_other m c main_v8 (by decide) (by decide), Wt_other m c main_v9 (by decide) (by decide)] at hpre
  have hpost := held_tail (F := F) c (StableHlo.after (List.flatten [hostOps1]) (Wt m c))
  rw [show StableHlo.after (List.flatten [hostOps1]) (Wt m c) (Proc.devRef .tc main_v4_0) = (dats m 0 c).arrAt 6 cfg0.N from Wfin_out0 m c,
    show StableHlo.after (List.flatten [hostOps1]) (Wt m c) (Proc.devRef .tc main_v4_1) = (dats m 0 c).arrAt 7 cfg0.N from Wfin_out1 m c] at hpost
  have hrun := Pipeline.wp_seqs_then (Ix := Unit) (Name := ℕ) (U := UR sig nD τ) (Lvl := ℕ) (fun q => (cfgs q).toPCfg (Val := Elt F)) defs₀ Variants.none c tailDev [] [hostOps1] tail_sub tail_fresh (Wt m c) (K := Q')
  rw [hpre, hpost, Pipeline.chain_nil, wp_pure] at hrun
  iintro ⟨Hk, Hb, ⟨A0, A1, A2, A3, A4, A5, A6, A7⟩, ⟨R0, R1, R5, R6, R7, R8, R9⟩⟩
  ihave Hrun := hrun $$ [Hb A6 A7 R5 R6 R7 R8 R9]
  · isplitl [Hb]; · iexact Hb
    isplitl [A6]; · iexact A6
    isplitl [A7]; · iexact A7
    isplitl [R5]; · iexact R5
    isplitl [R6]; · iexact R6
    isplitl [R7]; · iexact R7
    isplitl [R8]; · iexact R8
    iexact R9
  iapply Hrun
  iintro ⟨Hb, A6, A7, R5, R6, R7, R8, R9⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R0]; · iexact R0
  isplitl [R1]; · iexact R1
  isplitl [R5]; · iexact R5
  isplitl [R6]; · iexact R6
  isplitl [R7]; · iexact R7
  isplitl [R8]; · iexact R8
  iexact R9

/-- After the last point the invariant gives the scoped rest back: the scratch contents are forgotten. -/
theorem hout (c : Dev nD) : (dats m 0 c).Φ (Fin.last cfg0.N) ⊢ iprop((emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq]
  unfold scratchAt
  iintro ⟨HS0, HS1, HS2, HS3, HS4, HS5⟩
  isplitr; · iempintro
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

/-- The final state's result buffer and arguments, read off the points-tos the run ends with. -/
theorem hY (c : Dev nD) (s' : Phys nD τ sig (Elt F)) :
    iprop((emp : sProp 𝕄) ∗ Zout m c ∗ SI s') ⊢ |={Set.univ}=> iprop(⌜s'.mem.mem ((c : Thread nD τ).loc main_v9) = kernelOut m c
        ∧ s'.mem.mem ((c : Thread nD τ).loc main_arg0) = m ((c : Thread nD τ).loc main_arg0)
        ∧ s'.mem.mem ((c : Thread nD τ).loc main_arg1) = m ((c : Thread nD τ).loc main_arg1)⌝ ∗ SI s') := by
  unfold Zout
  rw [V_arg0, V_arg1]
  iintro ⟨-, ⟨R0, R1, -, -, -, -, R9⟩, HSI⟩
  icombine HSI R0 gives %h0
  icombine HSI R1 gives %h1
  icombine HSI R9 gives %h9
  imodintro
  isplitr; · ipureintro; exact ⟨Buf.eq_of_forall_mem_univ h9, Buf.eq_of_forall_mem_univ h0, Buf.eq_of_forall_mem_univ h1⟩
  iexact HSI

end Cert.KernelIdeal.Flash

end
-- ==== Proof.FlashLaunch.lean ====
/-
  The attention kernel's program run as a whole: the launch theorem for windows that share arrays, fed the body
  obligation, the share split, the two ends of the scratch invariant and the five later host operations.
-/
import proofs.«154790_j27118423507780_2_alg».proof.Proof.FlashBody
import proofs.«154790_j27118423507780_2_alg».proof.Proof.FlashTail

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- From any memory with zero counters every weakly fair execution of @main terminates, nothing faulting, with the result
    buffer at the later operations' value of what the region leaves and both arguments as they were. -/
theorem run_main : θ_run (defs (F := F)) (onTc (τ := τ) (main (F := F))) ⟨m, fun _ => 0, ρ⟩ (fun r => ∀ c : Dev nD,
      r.2.mem ((c.tc : Thread nD τ).loc main_v9) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun q => (cfgs q).toPCfg (Val := Elt F)) (fun q => (cfgs q).toPCfg_adm) (dats m) () cellOf_inj 0 winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp)) (Z := fun c => Pipeline.unscopedRest spec0 c (V m c)) (Z' := Zout m)
    (hX := fun c => by
      rw [Pipeline.unscopedRestP_none]
      iintro H; isplitr; · iempintro
      iexact H)
    (hin := fun c => by
      rw [show (dats m 0 c).Φ 0 = Pipeline.scopedRest spec0 c from rfl]
      iintro ⟨-, -, H⟩; iexact H)
    (hout := hout m) (htail := htail m)
    (QY := fun c s => s.mem ((c.tc : Thread nD τ).loc main_v9) = kernelOut m c
        ∧ s.mem ((c.tc : Thread nD τ).loc main_arg0) = m ((c.tc : Thread nD τ).loc main_arg0)
        ∧ s.mem ((c.tc : Thread nD τ).loc main_arg1) = m ((c.tc : Thread nD τ).loc main_arg1))
    (hY := hY m) (hQ := fun s h c => (h c).2.2)

/-- The frame: the program runs, faults nowhere, and leaves both arguments as they were. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Flash

end
-- ==== Proof.FlashPieces.lean ====
import proofs.«154790_j27118423507780_2_alg».proof.Proof.FlashData
import Idealize.ShloMosaic.Lib.Pipeline.Value

/-!
# What each key block leaves, as the step's arithmetic

The attention kernel visits the key blocks of a run one after the other and carries three running
quantities per direction in scratch buffers.  The symbolic run of its body finds, for every
buffer, the list of stores the body made into it; each store covers its whole buffer.  This file
reads those lists back: what a key block leaves in each scratch buffer is the value of the
online-softmax update computed from the point's input blocks and from what the key block before
left (or, at the first key block of a run, from the reset values), and what the last key block
leaves in the two output blocks is the final quotient plus the residual input.
-/

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The zero offsets of a rank-2 whole-buffer access, however spelt. -/
theorem hz2 : (![0, 0] : Fin 2 → Nat) = fun _ => 0 := funext fun a => by fin_cases a <;> rfl
/-- The zero offsets of a rank-3 whole-buffer access. -/
theorem hz3 : (![0, 0, 0] : Fin 3 → Nat) = fun _ => 0 := funext fun a => by fin_cases a <;> rfl

/-- Reading back the whole scratch buffer scAccV at contents X gives X. -/
theorem read_scAccV (X : Vec F S1024x256 .f32) :
    View.read (Elt F) (View.whole cc0_scratch0) ((Memref.isWhole_whole cc0_scratch0 : scAccV.IsWhole).unread X) = X := by
  have e := (Memref.isWhole_whole cc0_scratch0 : scAccV.IsWhole).read_unread (Val := Elt F) X
  simp only [Memref.view_whole] at e
  exact e

/-- Reading back the whole scratch buffer scAccT at contents X gives X. -/
theorem read_scAccT (X : Vec F S1024x256 .f32) :
    View.read (Elt F) (View.whole cc0_scratch1) ((Memref.isWhole_whole cc0_scratch1 : scAccT.IsWhole).unread X) = X := by
  have e := (Memref.isWhole_whole cc0_scratch1 : scAccT.IsWhole).read_unread (Val := Elt F) X
  simp only [Memref.view_whole] at e
  exact e

/-- Reading back the whole scratch buffer scMaxV at contents X gives X. -/
theorem read_scMaxV (X : Vec F S1024x1 .f32) :
    View.read (Elt F) (View.whole cc0_scratch2) ((Memref.isWhole_whole cc0_scratch2 : scMaxV.IsWhole).unread X) = X := by
  have e := (Memref.isWhole_whole cc0_scratch2 : scMaxV.IsWhole).read_unread (Val := Elt F) X
  simp only [Memref.view_whole] at e
  exact e

/-- Reading back the whole scratch buffer scSumV at contents X gives X. -/
theorem read_scSumV (X : Vec F S1024x1 .f32) :
    View.read (Elt F) (View.whole cc0_scratch3) ((Memref.isWhole_whole cc0_scratch3 : scSumV.IsWhole).unread X) = X := by
  have e := (Memref.isWhole_whole cc0_scratch3 : scSumV.IsWhole).read_unread (Val := Elt F) X
  simp only [Memref.view_whole] at e
  exact e

/-- Reading back the whole scratch buffer scMaxT at contents X gives X. -/
theorem read_scMaxT (X : Vec F S1024x1 .f32) :
    View.read (Elt F) (View.whole cc0_scratch4) ((Memref.isWhole_whole cc0_scratch4 : scMaxT.IsWhole).unread X) = X := by
  have e := (Memref.isWhole_whole cc0_scratch4 : scMaxT.IsWhole).read_unread (Val := Elt F) X
  simp only [Memref.view_whole] at e
  exact e

/-- Reading back the whole scratch buffer scSumT at contents X gives X. -/
theorem read_scSumT (X : Vec F S1024x1 .f32) :
    View.read (Elt F) (View.whole cc0_scratch5) ((Memref.isWhole_whole cc0_scratch5 : scSumT.IsWhole).unread X) = X := by
  have e := (Memref.isWhole_whole cc0_scratch5 : scSumT.IsWhole).read_unread (Val := Elt F) X
  simp only [Memref.view_whole] at e
  exact e

/-! ## At the first key block of a run -/

/-- At the first key block of a run, the first direction's running maximum is left at the update's value, computed from the point's blocks and from the reset values. -/
theorem first_maxV (c : Dev nD) (t : Fin cfg0.N) (hF : atFirst (grid0.coords t)) (hL : ¬atLast (grid0.coords t)) :
    (stFirst m c t hF hL).maxV = k0_pay21 (k0_pay15 (iblk m c 0 t) (iblk m c 3 t) (k0_pay5 (F := F))) := by
  unfold stFirst
  dsimp only
  rw [View.read_writes_eq_canon _ _ _ (coverFirst_4 m c t hF hL)]
  unfold runFirst
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the first key block of a run, the first direction's running denominator is left at the update's value, computed from the point's blocks and from the reset values. -/
theorem first_sumV (c : Dev nD) (t : Fin cfg0.N) (hF : atFirst (grid0.coords t)) (hL : ¬atLast (grid0.coords t)) :
    (stFirst m c t hF hL).sumV = k0_pay19 (k0_pay18 (iblk m c 0 t) (iblk m c 3 t) (k0_pay5 (F := F)) (k0_pay5 (F := F)) (k0_pay6 (F := F))) := by
  unfold stFirst
  dsimp only
  rw [View.read_writes_eq_canon _ _ _ (coverFirst_5 m c t hF hL)]
  unfold runFirst
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the first key block of a run, the first direction's running weighted sum is left at the update's value, computed from the point's blocks and from the reset values. -/
theorem first_accV (c : Dev nD) (t : Fin cfg0.N) (hF : atFirst (grid0.coords t)) (hL : ¬atLast (grid0.coords t)) :
    (stFirst m c t hF hL).accV = k0_pay20 (k0_pay12 (iblk m c 3 t)) (k0_pay16 (iblk m c 0 t) (iblk m c 3 t) (k0_pay5 (F := F)) (k0_pay5 (F := F))) (k0_pay17 (iblk m c 0 t) (iblk m c 3 t) (k0_pay5 (F := F))) (k0_pay7 (F := F)) := by
  unfold stFirst
  dsimp only
  rw [View.read_writes_eq_canon _ _ _ (coverFirst_2 m c t hF hL)]
  unfold runFirst
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the first key block of a run, the second direction's running maximum is left at the update's value, computed from the point's blocks and from the reset values. -/
theorem first_maxT (c : Dev nD) (t : Fin cfg0.N) (hF : atFirst (grid0.coords t)) (hL : ¬atLast (grid0.coords t)) :
    (stFirst m c t hF hL).maxT = k0_pay2 (k0_pay22 (k0_pay14 (iblk m c 1 t) (iblk m c 2 t)) (k0_pay8 (F := F))) := by
  unfold stFirst
  dsimp only
  rw [View.read_writes_eq_canon _ _ _ (coverFirst_6 m c t hF hL)]
  unfold runFirst
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the first key block of a run, the second direction's running denominator is left at the update's value, computed from the point's blocks and from the reset values. -/
theorem first_sumT (c : Dev nD) (t : Fin cfg0.N) (hF : atFirst (grid0.coords t)) (hL : ¬atLast (grid0.coords t)) :
    (stFirst m c t hF hL).sumT = k0_pay25 (k0_pay14 (iblk m c 1 t) (iblk m c 2 t)) (k0_pay8 (F := F)) (k0_pay8 (F := F)) (k0_pay9 (F := F)) := by
  unfold stFirst
  dsimp only
  rw [View.read_writes_eq_canon _ _ _ (coverFirst_7 m c t hF hL)]
  unfold runFirst
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the first key block of a run, the second direction's running weighted sum is left at the update's value, computed from the point's blocks and from the reset values. -/
theorem first_accT (c : Dev nD) (t : Fin cfg0.N) (hF : atFirst (grid0.coords t)) (hL : ¬atLast (grid0.coords t)) :
    (stFirst m c t hF hL).accT = k0_pay1 (k0_pay26 (k0_pay14 (iblk m c 1 t) (iblk m c 2 t)) (k0_pay8 (F := F)) (k0_pay8 (F := F)) (k0_pay10 (F := F))) (k0_pay27 (k0_pay11 (iblk m c 2 t)) (k0_pay14 (iblk m c 1 t) (iblk m c 2 t)) (k0_pay8 (F := F))) := by
  unfold stFirst
  dsimp only
  rw [View.read_writes_eq_canon _ _ _ (coverFirst_3 m c t hF hL)]
  unfold runFirst
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-! ## At a middle key block -/

/-- At a middle key block, the first direction's running maximum is left at the update's value, computed from the point's blocks and from what the key block before left. -/
theorem mid_maxV (c : Dev nD) (t : Fin cfg0.N) (hF : ¬atFirst (grid0.coords t)) (hL : ¬atLast (grid0.coords t)) (p : Carried F) :
    (stMid m c t hF hL p).maxV = k0_pay21 (k0_pay15 (iblk m c 0 t) (iblk m c 3 t) p.maxV) := by
  unfold stMid
  dsimp only
  rw [View.read_writes_eq_canon _ _ _ (coverMid_4 m c t hF hL p)]
  unfold runMid
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At a middle key block, the first direction's running denominator is left at the update's value, computed from the point's blocks and from what the key block before left. -/
theorem mid_sumV (c : Dev nD) (t : Fin cfg0.N) (hF : ¬atFirst (grid0.coords t)) (hL : ¬atLast (grid0.coords t)) (p : Carried F) :
    (stMid m c t hF hL p).sumV = k0_pay19 (k0_pay18 (iblk m c 0 t) (iblk m c 3 t) p.maxV p.maxV p.sumV) := by
  unfold stMid
  dsimp only
  rw [View.read_writes_eq_canon _ _ _ (coverMid_5 m c t hF hL p)]
  unfold runMid
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At a middle key block, the first direction's running weighted sum is left at the update's value, computed from the point's blocks and from what the key block before left. -/
theorem mid_accV (c : Dev nD) (t : Fin cfg0.N) (hF : ¬atFirst (grid0.coords t)) (hL : ¬atLast (grid0.coords t)) (p : Carried F) :
    (stMid m c t hF hL p).accV = k0_pay20 (k0_pay12 (iblk m c 3 t)) (k0_pay16 (iblk m c 0 t) (iblk m c 3 t) p.maxV p.maxV) (k0_pay17 (iblk m c 0 t) (iblk m c 3 t) p.maxV) p.accV := by
  unfold stMid
  dsimp only
  rw [View.read_writes_eq_canon _ _ _ (coverMid_2 m c t hF hL p)]
  unfold runMid
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At a middle key block, the second direction's running maximum is left at the update's value, computed from the point's blocks and from what the key block before left. -/
theorem mid_maxT (c : Dev nD) (t : Fin cfg0.N) (hF : ¬atFirst (grid0.coords t)) (hL : ¬atLast (grid0.coords t)) (p : Carried F) :
    (stMid m c t hF hL p).maxT = k0_pay2 (k0_pay22 (k0_pay14 (iblk m c 1 t) (iblk m c 2 t)) p.maxT) := by
  unfold stMid
  dsimp only
  rw [View.read_writes_eq_canon _ _ _ (coverMid_6 m c t hF hL p)]
  unfold runMid
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At a middle key block, the second direction's running denominator is left at the update's value, computed from the point's blocks and from what the key block before left. -/
theorem mid_sumT (c : Dev nD) (t : Fin cfg0.N) (hF : ¬atFirst (grid0.coords t)) (hL : ¬atLast (grid0.coords t)) (p : Carried F) :
    (stMid m c t hF hL p).sumT = k0_pay25 (k0_pay14 (iblk m c 1 t) (iblk m c 2 t)) p.maxT p.maxT p.sumT := by
  unfold stMid
  dsimp only
  rw [View.read_writes_eq_canon _ _ _ (coverMid_7 m c t hF hL p)]
  unfold runMid
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At a middle key block, the second direction's running weighted sum is left at the update's value, computed from the point's blocks and from what the key block before left. -/
theorem mid_accT (c : Dev nD) (t : Fin cfg0.N) (hF : ¬atFirst (grid0.coords t)) (hL : ¬atLast (grid0.coords t)) (p : Carried F) :
    (stMid m c t hF hL p).accT = k0_pay1 (k0_pay26 (k0_pay14 (iblk m c 1 t) (iblk m c 2 t)) p.maxT p.maxT p.accT) (k0_pay27 (k0_pay11 (iblk m c 2 t)) (k0_pay14 (iblk m c 1 t) (iblk m c 2 t)) p.maxT) := by
  unfold stMid
  dsimp only
  rw [View.read_writes_eq_canon _ _ _ (coverMid_3 m c t hF hL p)]
  unfold runMid
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-! ## At the last key block of a run -/

/-- At the last key block of a run, the first direction's running maximum is left at the update's value, computed from the point's blocks and from what the key block before left. -/
theorem last_maxV (c : Dev nD) (t : Fin cfg0.N) (hF : ¬atFirst (grid0.coords t)) (hL : atLast (grid0.coords t)) (p : Carried F) :
    (stLast m c t hF hL p).maxV = k0_pay21 (k0_pay15 (iblk m c 0 t) (iblk m c 3 t) p.maxV) := by
  unfold stLast
  dsimp only
  rw [View.read_writes_eq_canon _ _ _ (coverLast_4 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the last key block of a run, the first direction's running denominator is left at the update's value, computed from the point's blocks and from what the key block before left. -/
theorem last_sumV (c : Dev nD) (t : Fin cfg0.N) (hF : ¬atFirst (grid0.coords t)) (hL : atLast (grid0.coords t)) (p : Carried F) :
    (stLast m c t hF hL p).sumV = k0_pay19 (k0_pay18 (iblk m c 0 t) (iblk m c 3 t) p.maxV p.maxV p.sumV) := by
  unfold stLast
  dsimp only
  rw [View.read_writes_eq_canon _ _ _ (coverLast_5 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the last key block of a run, the first direction's running weighted sum is left at the update's value, computed from the point's blocks and from what the key block before left. -/
theorem last_accV (c : Dev nD) (t : Fin cfg0.N) (hF : ¬atFirst (grid0.coords t)) (hL : atLast (grid0.coords t)) (p : Carried F) :
    (stLast m c t hF hL p).accV = k0_pay20 (k0_pay12 (iblk m c 3 t)) (k0_pay16 (iblk m c 0 t) (iblk m c 3 t) p.maxV p.maxV) (k0_pay17 (iblk m c 0 t) (iblk m c 3 t) p.maxV) p.accV := by
  unfold stLast
  dsimp only
  rw [View.read_writes_eq_canon _ _ _ (coverLast_2 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the last key block of a run, the second direction's running maximum is left at the update's value, computed from the point's blocks and from what the key block before left. -/
theorem last_maxT (c : Dev nD) (t : Fin cfg0.N) (hF : ¬atFirst (grid0.coords t)) (hL : atLast (grid0.coords t)) (p : Carried F) :
    (stLast m c t hF hL p).maxT = k0_pay2 (k0_pay22 (k0_pay14 (iblk m c 1 t) (iblk m c 2 t)) p.maxT) := by
  unfold stLast
  dsimp only
  rw [View.read_writes_eq_canon _ _ _ (coverLast_6 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the last key block of a run, the second direction's running denominator is left at the update's value, computed from the point's blocks and from what the key block before left. -/
theorem last_sumT (c : Dev nD) (t : Fin cfg0.N) (hF : ¬atFirst (grid0.coords t)) (hL : atLast (grid0.coords t)) (p : Carried F) :
    (stLast m c t hF hL p).sumT = k0_pay25 (k0_pay14 (iblk m c 1 t) (iblk m c 2 t)) p.maxT p.maxT p.sumT := by
  unfold stLast
  dsimp only
  rw [View.read_writes_eq_canon _ _ _ (coverLast_7 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the last key block of a run, the second direction's running weighted sum is left at the update's value, computed from the point's blocks and from what the key block before left. -/
theorem last_accT (c : Dev nD) (t : Fin cfg0.N) (hF : ¬atFirst (grid0.coords t)) (hL : atLast (grid0.coords t)) (p : Carried F) :
    (stLast m c t hF hL p).accT = k0_pay1 (k0_pay26 (k0_pay14 (iblk m c 1 t) (iblk m c 2 t)) p.maxT p.maxT p.accT) (k0_pay27 (k0_pay11 (iblk m c 2 t)) (k0_pay14 (iblk m c 1 t) (iblk m c 2 t)) p.maxT) := by
  unfold stLast
  dsimp only
  rw [View.read_writes_eq_canon _ _ _ (coverLast_3 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the last key block of a run the output block is the final quotient plus the residual input,
    computed from the NEW weighted sum and the NEW denominator (the body reads them back after
    storing them). -/
theorem last_o6 (c : Dev nD) (t : Fin cfg0.N) (hF : ¬atFirst (grid0.coords t)) (hL : atLast (grid0.coords t)) (p : Carried F) :
    (stLast m c t hF hL p).o6 = k0_pay3 (iblk m c 4 t) (stLast m c t hF hL p).accV (stLast m c t hF hL p).sumV := by
  rw [last_accV m c t hF hL p, last_sumV m c t hF hL p]
  unfold stLast
  dsimp only
  rw [View.read_writes_eq_canon _ _ _ (coverLast_0 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

/-- At the last key block of a run the output block is the final quotient plus the residual input,
    computed from the NEW weighted sum and the NEW denominator (the body reads them back after
    storing them). -/
theorem last_o7 (c : Dev nD) (t : Fin cfg0.N) (hF : ¬atFirst (grid0.coords t)) (hL : atLast (grid0.coords t)) (p : Carried F) :
    (stLast m c t hF hL p).o7 = k0_pay4 (iblk m c 5 t) (stLast m c t hF hL p).accT (stLast m c t hF hL p).sumT := by
  rw [last_accT m c t hF hL p, last_sumT m c t hF hL p]
  unfold stLast
  dsimp only
  rw [View.read_writes_eq_canon _ _ _ (coverLast_1 m c t hF hL p)]
  unfold runLast
  dsimp only
  sl_unfold_words
  simp only [View.canon_unit_zero (S := S1024x1) hz2, View.canon_unit_zero (S := S1024x256) hz2,
    View.canon_unit_zero (S := S1x1024x256) hz3, View.canon_cons_unit_zero (S := S1024x1) hz2,
    View.canon_cons_unit_zero (S := S1024x256) hz2, View.canon_cons_unit_zero (S := S1x1024x256) hz3,
    View.readCov_unit_zero (S := S1024x1) _ hz2, View.readCov_unit_zero (S := S1024x256) _ hz2,
    View.readAt_eq_ld, (hs0 t).read_unread, (hs1 t).read_unread, (hs2 t).read_unread, (hs3 t).read_unread,
    (hs4 t).read_unread, (hs5 t).read_unread, View.ld_unit_zero (S := S1024x1) hz2,
    View.ld_unit_zero (S := S1024x256) hz2, View.ld_unit_zero (S := S1x256x1024) hz3,
    View.ld_unit_zero (S := S1x256x512) hz3, read_scAccV, read_scAccT, read_scMaxV, read_scSumV, read_scMaxT,
    read_scSumT]

end Cert.KernelIdeal.Flash

end
-- ==== Proof.FlashLayout.lean ====
/-
  The layout side of the attention kernel's value: which element of which array each index reads. The two arguments
  [4,256,64,64] are flattened to [4,256,4096] before the region (and, at the ideal instance, their bf16 copies are the
  same arrays); a window's block at a grid point is a rectangle of its array at block index times block size; the two
  output arrays [4,4096,256] are tiled by the blocks written back at the last key block of each run of eight; and the
  result [4,512,64,64] is the two outputs, each with its last two axes swapped and its positions unflattened to 64 by 64,
  laid one after the other along the channel axis.
-/
import proofs.«154790_j27118423507780_2_alg».proof.Proof.FlashTail
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The layout operations of this program, each read at an index given by coordinates -/

section Layout
variable {α : Type}

/-- [4,256,4096] unflattened to [4,256,64,64]: position (h, w) of the 64 by 64 grid is flat position 64 h + w. -/
theorem unflatten_apply (x : S4x256x4096.Idx → α) (hc : S4x256x4096.ShapeCasts S4x256x64x64)
    (b : Fin 4) (ch : Fin 256) (h w : Fin 64) :
    shapeCast S4x256x64x64 x hc (ix4 b ch h w) = x (ix3 b ch ⟨h.val * 64 + w.val, by omega⟩) :=
  shapeCast_apply x hc _ _ (by
    rw [Shape.rowMajor_val_three, Shape.rowMajor_val_four]
    show (b.val * 256 + ch.val) * 4096 + (h.val * 64 + w.val) = ((b.val * 256 + ch.val) * 64 + h.val) * 64 + w.val
    omega)

/-- [4,256,64,64] flattened to [4,256,4096]: flat position n is position (n / 64, n % 64) of the grid. -/
theorem flatten_apply (x : S4x256x64x64.Idx → α) (hc : S4x256x64x64.ShapeCasts S4x256x4096)
    (b : Fin 4) (ch : Fin 256) (n : Fin 4096) :
    shapeCast S4x256x4096 x hc (ix3 b ch n)
      = x (ix4 b ch ⟨n.val / 64, by omega⟩ ⟨n.val % 64, by omega⟩) :=
  shapeCast_apply x hc _ _ (by
    rw [Shape.rowMajor_val_three, Shape.rowMajor_val_four]
    show ((b.val * 256 + ch.val) * 64 + n.val / 64) * 64 + n.val % 64 = (b.val * 256 + ch.val) * 4096 + n.val
    omega)

/-- The last two axes of [4,4096,256] swapped. -/
theorem swap_apply (x : S4x4096x256.Idx → α) (ht : S4x4096x256.Transposes [0, 2, 1] S4x256x4096)
    (b : Fin 4) (ch : Fin 256) (n : Fin 4096) :
    transpose S4x256x4096 [0, 2, 1] x ht (ix3 b ch n) = x (ix3 b n ch) :=
  transpose_apply _ x ht _ _ (fun a => match a with | ⟨0, _⟩ => rfl | ⟨1, _⟩ => rfl | ⟨2, _⟩ => rfl)

/-- Two [4,256,64,64] arrays laid along the channel axis: a channel below 256 reads the first. -/
theorem channels_left_apply (x₁ x₂ : S4x256x64x64.Idx → α)
    (hc : Shape.Concatenates [S4x256x64x64, S4x256x64x64] S4x512x64x64 1)
    (b : Fin 4) (ch : Fin 256) (h w : Fin 64) :
    concatenate S4x512x64x64 1 [⟨S4x256x64x64, x₁⟩, ⟨S4x256x64x64, x₂⟩] hc (ix4 b ⟨ch.val, by omega⟩ h w) = x₁ (ix4 b ch h w) :=
  concatenate_pair_apply_left 1 x₁ x₂ hc _ rfl _
    (fun a => match a with | ⟨0, _⟩ => rfl | ⟨1, _⟩ => rfl | ⟨2, _⟩ => rfl | ⟨3, _⟩ => rfl)

/-- Two [4,256,64,64] arrays laid along the channel axis: channel 256 + ch reads the second at ch. -/
theorem channels_right_apply (x₁ x₂ : S4x256x64x64.Idx → α)
    (hc : Shape.Concatenates [S4x256x64x64, S4x256x64x64] S4x512x64x64 1)
    (b : Fin 4) (ch : Fin 256) (h w : Fin 64) :
    concatenate S4x512x64x64 1 [⟨S4x256x64x64, x₁⟩, ⟨S4x256x64x64, x₂⟩] hc (ix4 b ⟨256 + ch.val, by omega⟩ h w) = x₂ (ix4 b ch h w) :=
  concatenate_pair_apply_right 1 x₁ x₂ hc _ rfl rfl _
    (fun a hne => match a, hne with
      | ⟨0, _⟩, _ => rfl
      | ⟨1, _⟩, hne => absurd rfl hne
      | ⟨2, _⟩, _ => rfl
      | ⟨3, _⟩, _ => rfl)
    (by show ch.val + 256 = 256 + ch.val; omega)

end Layout

/-! ## The result at an index -/

/-- The program's result as the later operations' term over the two output arrays. -/
theorem kernelOut_eq (c : Dev nD) :
    (kernelOut m c : S4x512x64x64.Idx → Elt F .f32)
      = concatenate S4x512x64x64 1
          [⟨S4x256x64x64, shapeCast S4x256x64x64 (transpose S4x256x4096 [0, 2, 1] ((dats m 0 c).arrAt 6 cfg0.N : S4x4096x256.Idx → Elt F .f32) transposes_S4x4096x256_S4x256x4096_0_2_1) shapeCasts_S4x256x4096_S4x256x64x64⟩,
           ⟨S4x256x64x64, shapeCast S4x256x64x64 (transpose S4x256x4096 [0, 2, 1] ((dats m 0 c).arrAt 7 cfg0.N : S4x4096x256.Idx → Elt F .f32) transposes_S4x4096x256_S4x256x4096_0_2_1) shapeCasts_S4x256x4096_S4x256x64x64⟩]
          concatenates_S4x256x64x64_S4x256x64x64_S4x512x64x64_d1 := by
  unfold kernelOut Wfin
  simp only [List.flatten_cons, List.flatten_nil, List.append_nil]
  show StableHlo.after hostOps1 (Wt m c) (Proc.devRef .tc main_v9) = _
  after_results
  rw [Wt_out0, Wt_out1]
  rfl

/-- A channel of the first half of the result is the first output array, position (h, w) at row 64 h + w. -/
theorem kernelOut_left (c : Dev nD) (b : Fin 4) (ch : Fin 256) (h w : Fin 64) :
    (kernelOut m c : S4x512x64x64.Idx → Elt F .f32) (ix4 b ⟨ch.val, by omega⟩ h w)
      = ((dats m 0 c).arrAt 6 cfg0.N : S4x4096x256.Idx → Elt F .f32) (ix3 b ⟨h.val * 64 + w.val, by omega⟩ ch) := by
  rw [kernelOut_eq, channels_left_apply, unflatten_apply, swap_apply]

/-- A channel of the second half of the result is the second output array, position (h, w) at row 64 h + w. -/
theorem kernelOut_right (c : Dev nD) (b : Fin 4) (ch : Fin 256) (h w : Fin 64) :
    (kernelOut m c : S4x512x64x64.Idx → Elt F .f32) (ix4 b ⟨256 + ch.val, by omega⟩ h w)
      = ((dats m 0 c).arrAt 7 cfg0.N : S4x4096x256.Idx → Elt F .f32) (ix3 b ⟨h.val * 64 + w.val, by omega⟩ ch) := by
  rw [kernelOut_eq, channels_right_apply, unflatten_apply, swap_apply]

/-! ## From the written-back blocks to the two output arrays -/

/-- What the kernel's buffers hold after a point depends on the point's position only. -/
theorem outsAt_congr (c : Dev nD) {n n' : ℕ} (e : n = n') (h : n < cfg0.N) (h' : n' < cfg0.N) :
    outsAt m c n h = outsAt m c n' h' := by
  subst e; rfl

/-- The point that writes back row `i` of batch `b` of an output array: the last key block of the run of eight of the
    query block `i / 1024` of batch `b`. -/
theorem lastPoint_lt (b : Fin 4) (i : Fin 4096) : b.val * 32 + (i.val / 1024) * 8 + 7 < cfg0.N := by
  have : cfg0.N = 128 := N_0
  omega

/-- The first output array, row by row: row `i` of batch `b` is row `i % 1024` of the block the kernel's first output
    buffer holds after the point that writes it back. -/
def outArr6 (c : Dev nD) : S4x4096x256.Idx → Elt F .f32 := fun j =>
  (outsAt m c ((j 0).val * 32 + ((j 1).val / 1024) * 8 + 7) (lastPoint_lt (j 0) (j 1))).o6
    (ix3 (0 : Fin 1) ⟨(j 1).val % 1024, Nat.mod_lt _ (by omega)⟩ (j 2))

/-- The second output array, row by row. -/
def outArr7 (c : Dev nD) : S4x4096x256.Idx → Elt F .f32 := fun j =>
  (outsAt m c ((j 0).val * 32 + ((j 1).val / 1024) * 8 + 7) (lastPoint_lt (j 0) (j 1))).o7
    (ix3 (0 : Fin 1) ⟨(j 1).val % 1024, Nat.mod_lt _ (by omega)⟩ (j 2))

/-- The output windows' block indices at a point: batch, query block, 0. -/
theorem outIndex_facts : ∀ t : Fin cfg0.N,
    win0_6.index t (0 : Fin 3) = t.val / 32 ∧ win0_6.index t (1 : Fin 3) = (t.val / 8) % 4 ∧ win0_6.index t (2 : Fin 3) = 0
    ∧ win0_7.index t (0 : Fin 3) = t.val / 32 ∧ win0_7.index t (1 : Fin 3) = (t.val / 8) % 4 ∧ win0_7.index t (2 : Fin 3) = 0 :=
  (by decide +kernel : ∀ t : Fin grid0.N, _)

/-- The row-by-row array at an index under the block of a point that writes back is that point's block. -/
theorem outArr6_apply (c : Dev nD) (t : Fin cfg0.N) (h7 : t.val % 8 = 7) (k : S4x4096x256.Idx) (y : S1x1024x256.Idx)
    (h0 : (k 0).val = t.val / 32) (h1 : (k 1).val = ((t.val / 8) % 4) * 1024 + (y 1).val) (h2 : (k 2).val = (y 2).val) :
    outArr6 m c k = (outsAt m c t.val t.isLt).o6 y := by
  have hy0 : (y 0).val = 0 := by have : (y 0).val < 1 := (y 0).isLt; omega
  have hy1 : (y 1).val < 1024 := (y 1).isLt
  have hN : cfg0.N = 128 := N_0
  have ht := t.isLt
  unfold outArr6
  rw [outsAt_congr m c (show (k 0).val * 32 + ((k 1).val / 1024) * 8 + 7 = t.val by omega) _ t.isLt]
  congr 1
  funext a
  match a with
  | ⟨0, _⟩ => exact Fin.ext hy0.symm
  | ⟨1, _⟩ => exact Fin.ext (by show (k 1).val % 1024 = (y 1).val; omega)
  | ⟨2, _⟩ => exact Fin.ext h2

theorem outArr7_apply (c : Dev nD) (t : Fin cfg0.N) (h7 : t.val % 8 = 7) (k : S4x4096x256.Idx) (y : S1x1024x256.Idx)
    (h0 : (k 0).val = t.val / 32) (h1 : (k 1).val = ((t.val / 8) % 4) * 1024 + (y 1).val) (h2 : (k 2).val = (y 2).val) :
    outArr7 m c k = (outsAt m c t.val t.isLt).o7 y := by
  have hy0 : (y 0).val = 0 := by have : (y 0).val < 1 := (y 0).isLt; omega
  have hy1 : (y 1).val < 1024 := (y 1).isLt
  have hN : cfg0.N = 128 := N_0
  have ht := t.isLt
  unfold outArr7
  rw [outsAt_congr m c (show (k 0).val * 32 + ((k 1).val / 1024) * 8 + 7 = t.val by omega) _ t.isLt]
  congr 1
  funext a
  match a with
  | ⟨0, _⟩ => exact Fin.ext hy0.symm
  | ⟨1, _⟩ => exact Fin.ext (by show (k 1).val % 1024 = (y 1).val; omega)
  | ⟨2, _⟩ => exact Fin.ext h2

/-- What a writing point writes back of the first output is its block of the row-by-row array. -/
theorem flushed6_eq (c : Dev nD) (t : Fin cfg0.N) (hf : (cfg0.win 6).flush t = true) :
    (dats m 0 c).flushed 6 t = ((cfg0.win 6).blk t).view.read (Elt F) (outArr6 m c) := by
  have h7 : t.val % 8 = 7 := (flush0_6 t).mp hf
  obtain ⟨i0, i1, i2, -, -, -⟩ := outIndex_facts t
  show (cfg0.win 6).cut (grid0.coords t) ((dats m 0 c).after 6 t) = _
  rw [after6]
  funext y
  rw [View.read_apply]
  refine (outArr6_apply m c t h7 _ y ?_ ?_ ?_).symm
  · show win0_6.index t 0 * 1 + 1 * (y 0).val = t.val / 32
    have : (y 0).val < 1 := (y 0).isLt
    rw [i0]; omega
  · show win0_6.index t 1 * 1024 + 1 * (y 1).val = ((t.val / 8) % 4) * 1024 + (y 1).val
    rw [i1]; omega
  · show win0_6.index t 2 * 256 + 1 * (y 2).val = (y 2).val
    rw [i2]; omega

/-- What a writing point writes back of the second output is its block of the row-by-row array. -/
theorem flushed7_eq (c : Dev nD) (t : Fin cfg0.N) (hf : (cfg0.win 7).flush t = true) :
    (dats m 0 c).flushed 7 t = ((cfg0.win 7).blk t).view.read (Elt F) (outArr7 m c) := by
  have h7 : t.val % 8 = 7 := (flush0_7 t).mp hf
  obtain ⟨-, -, -, i0, i1, i2⟩ := outIndex_facts t
  show (cfg0.win 7).cut (grid0.coords t) ((dats m 0 c).after 7 t) = _
  rw [after7]
  funext y
  rw [View.read_apply]
  refine (outArr7_apply m c t h7 _ y ?_ ?_ ?_).symm
  · show win0_7.index t 0 * 1 + 1 * (y 0).val = t.val / 32
    have : (y 0).val < 1 := (y 0).isLt
    rw [i0]; omega
  · show win0_7.index t 1 * 1024 + 1 * (y 1).val = ((t.val / 8) % 4) * 1024 + (y 1).val
    rw [i1]; omega
  · show win0_7.index t 2 * 256 + 1 * (y 2).val = (y 2).val
    rw [i2]; omega

/-- Every index of the first output array lies in the block of the point that writes its row back. -/
theorem cover6 (i : S4x4096x256.Idx) :
    ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 256 := (i 2).isLt
  have hT : (i 0).val * 32 + ((i 1).val / 1024) * 8 + 7 < cfg0.N := lastPoint_lt (i 0) (i 1)
  obtain ⟨i0, i1, i2, -, -, -⟩ := outIndex_facts ⟨(i 0).val * 32 + ((i 1).val / 1024) * 8 + 7, hT⟩
  refine ⟨⟨(i 0).val * 32 + ((i 1).val / 1024) * 8 + 7, hT⟩, (flush0_6 _).mpr (by show ((i 0).val * 32 + ((i 1).val / 1024) * 8 + 7) % 8 = 7; omega), ?_⟩
  show i ∈ ((View.whole main_v4_0).slice (win0_6.rect ⟨(i 0).val * 32 + ((i 1).val / 1024) * 8 + 7, hT⟩)).set
  rw [View.set_slice_whole, Rect.mem_set_unit]
  intro a
  match a with
  | ⟨0, _⟩ =>
    show win0_6.index ⟨(i 0).val * 32 + ((i 1).val / 1024) * 8 + 7, hT⟩ 0 * 1 ≤ (i 0).val ∧ (i 0).val < win0_6.index ⟨(i 0).val * 32 + ((i 1).val / 1024) * 8 + 7, hT⟩ 0 * 1 + 1
    rw [i0]
    show ((i 0).val * 32 + ((i 1).val / 1024) * 8 + 7) / 32 * 1 ≤ (i 0).val ∧ (i 0).val < ((i 0).val * 32 + ((i 1).val / 1024) * 8 + 7) / 32 * 1 + 1
    omega
  | ⟨1, _⟩ =>
    show win0_6.index ⟨(i 0).val * 32 + ((i 1).val / 1024) * 8 + 7, hT⟩ 1 * 1024 ≤ (i 1).val ∧ (i 1).val < win0_6.index ⟨(i 0).val * 32 + ((i 1).val / 1024) * 8 + 7, hT⟩ 1 * 1024 + 1024
    rw [i1]
    show ((i 0).val * 32 + ((i 1).val / 1024) * 8 + 7) / 8 % 4 * 1024 ≤ (i 1).val ∧ (i 1).val < ((i 0).val * 32 + ((i 1).val / 1024) * 8 + 7) / 8 % 4 * 1024 + 1024
    omega
  | ⟨2, _⟩ =>
    show win0_6.index ⟨(i 0).val * 32 + ((i 1).val / 1024) * 8 + 7, hT⟩ 2 * 256 ≤ (i 2).val ∧ (i 2).val < win0_6.index ⟨(i 0).val * 32 + ((i 1).val / 1024) * 8 + 7, hT⟩ 2 * 256 + 256
    rw [i2]
    omega

/-- Every index of the second output array lies in the block of the point that writes its row back. -/
theorem cover7 (i : S4x4096x256.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 256 := (i 2).isLt
  have hT : (i 0).val * 32 + ((i 1).val / 1024) * 8 + 7 < cfg0.N := lastPoint_lt (i 0) (i 1)
  obtain ⟨-, -, -, i0, i1, i2⟩ := outIndex_facts ⟨(i 0).val * 32 + ((i 1).val / 1024) * 8 + 7, hT⟩
  refine ⟨⟨(i 0).val * 32 + ((i 1).val / 1024) * 8 + 7, hT⟩, (flush0_7 _).mpr (by show ((i 0).val * 32 + ((i 1).val / 1024) * 8 + 7) % 8 = 7; omega), ?_⟩
  show i ∈ ((View.whole main_v4_1).slice (win0_7.rect ⟨(i 0).val * 32 + ((i 1).val / 1024) * 8 + 7, hT⟩)).set
  rw [View.set_slice_whole, Rect.mem_set_unit]
  intro a
  match a with
  | ⟨0, _⟩ =>
    show win0_7.index ⟨(i 0).val * 32 + ((i 1).val / 1024) * 8 + 7, hT⟩ 0 * 1 ≤ (i 0).val ∧ (i 0).val < win0_7.index ⟨(i 0).val * 32 + ((i 1).val / 1024) * 8 + 7, hT⟩ 0 * 1 + 1
    rw [i0]
    show ((i 0).val * 32 + ((i 1).val / 1024) * 8 + 7) / 32 * 1 ≤ (i 0).val ∧ (i 0).val < ((i 0).val * 32 + ((i 1).val / 1024) * 8 + 7) / 32 * 1 + 1
    omega
  | ⟨1, _⟩ =>
    show win0_7.index ⟨(i 0).val * 32 + ((i 1).val / 1024) * 8 + 7, hT⟩ 1 * 1024 ≤ (i 1).val ∧ (i 1).val < win0_7.index ⟨(i 0).val * 32 + ((i 1).val / 1024) * 8 + 7, hT⟩ 1 * 1024 + 1024
    rw [i1]
    show ((i 0).val * 32 + ((i 1).val / 1024) * 8 + 7) / 8 % 4 * 1024 ≤ (i 1).val ∧ (i 1).val < ((i 0).val * 32 + ((i 1).val / 1024) * 8 + 7) / 8 % 4 * 1024 + 1024
    omega
  | ⟨2, _⟩ =>
    show win0_7.index ⟨(i 0).val * 32 + ((i 1).val / 1024) * 8 + 7, hT⟩ 2 * 256 ≤ (i 2).val ∧ (i 2).val < win0_7.index ⟨(i 0).val * 32 + ((i 1).val / 1024) * 8 + 7, hT⟩ 2 * 256 + 256
    rw [i2]
    omega

/-- The first output array after the run, row by row. -/
theorem final6 (c : Dev nD) : (dats m 0 c).arrAt 6 cfg0.N = outArr6 m c :=
  (dats m 0 c).arrAt_eq_of_cover 6 (outArr6 m c) (flushed6_eq m c) cover6

/-- The second output array after the run, row by row. -/
theorem final7 (c : Dev nD) : (dats m 0 c).arrAt 7 cfg0.N = outArr7 m c :=
  (dats m 0 c).arrAt_eq_of_cover 7 (outArr7 m c) (flushed7_eq m c) cover7

/-- Row `i` of batch `b` of the first output array is row `i % 1024` of the block the first output buffer holds after the
    last key block of the run of the query block `i / 1024` of batch `b`. -/
theorem arrAt6_apply (c : Dev nD) (b : Fin 4) (i : Fin 4096) (ch : Fin 256) :
    ((dats m 0 c).arrAt 6 cfg0.N : S4x4096x256.Idx → Elt F .f32) (ix3 b i ch)
      = (outsAt m c (b.val * 32 + (i.val / 1024) * 8 + 7) (lastPoint_lt b i)).o6 (ix3 (0 : Fin 1) ⟨i.val % 1024, Nat.mod_lt _ (by omega)⟩ ch) := by
  rw [final6]; rfl

/-- The same for the second output array. -/
theorem arrAt7_apply (c : Dev nD) (b : Fin 4) (i : Fin 4096) (ch : Fin 256) :
    ((dats m 0 c).arrAt 7 cfg0.N : S4x4096x256.Idx → Elt F .f32) (ix3 b i ch)
      = (outsAt m c (b.val * 32 + (i.val / 1024) * 8 + 7) (lastPoint_lt b i)).o7 (ix3 (0 : Fin 1) ⟨i.val % 1024, Nat.mod_lt _ (by omega)⟩ ch) := by
  rw [final7]; rfl

/-! ## The arrays the region finds, at an index -/

/-- The first flattened argument as the region finds it. -/
theorem V_v0_eq (c : Dev nD) :
    (V m c main_v0 : S4x256x4096.Idx → Elt F .f32)
      = shapeCast S4x256x4096 (m ((c : Thread nD τ).loc main_arg0) : S4x256x64x64.Idx → Elt F .f32) shapeCasts_S4x256x64x64_S4x256x4096 := by
  show StableHlo.after hostOps0 (fun b => m (c, b)) (Proc.devRef .tc main_v0) = _
  after_results
  rfl

/-- The second flattened argument as the region finds it. -/
theorem V_v1_eq (c : Dev nD) :
    (V m c main_v1 : S4x256x4096.Idx → Elt F .f32)
      = shapeCast S4x256x4096 (m ((c : Thread nD τ).loc main_arg1) : S4x256x64x64.Idx → Elt F .f32) shapeCasts_S4x256x64x64_S4x256x4096 := by
  show StableHlo.after hostOps0 (fun b => m (c, b)) (Proc.devRef .tc main_v1) = _
  after_results
  rfl

/-- The first argument's bf16 copy is the change of format of the flattened argument. -/
theorem V_v2_eq (c : Dev nD) :
    (V m c main_v2 : S4x256x4096.Idx → Elt F .bf16)
      = truncf .bf16 (V m c main_v0 : S4x256x4096.Idx → Elt F .f32) bitsLt_bf16_f32 := by
  rw [V_v0_eq]
  show StableHlo.after hostOps0 (fun b => m (c, b)) (Proc.devRef .tc main_v2) = _
  after_results
  rfl

/-- The second argument's bf16 copy is the change of format of the flattened argument. -/
theorem V_v3_eq (c : Dev nD) :
    (V m c main_v3 : S4x256x4096.Idx → Elt F .bf16)
      = truncf .bf16 (V m c main_v1 : S4x256x4096.Idx → Elt F .f32) bitsLt_bf16_f32 := by
  rw [V_v1_eq]
  show StableHlo.after hostOps0 (fun b => m (c, b)) (Proc.devRef .tc main_v3) = _
  after_results
  rfl

/-- Flat position `n` of the first flattened argument is position `(n / 64, n % 64)` of the argument. -/
theorem V_v0_apply (c : Dev nD) (b : Fin 4) (ch : Fin 256) (n : Fin 4096) :
    (V m c main_v0 : S4x256x4096.Idx → Elt F .f32) (ix3 b ch n)
      = (m ((c : Thread nD τ).loc main_arg0) : S4x256x64x64.Idx → Elt F .f32) (ix4 b ch ⟨n.val / 64, by omega⟩ ⟨n.val % 64, by omega⟩) := by
  rw [V_v0_eq, flatten_apply]

/-- Flat position `n` of the second flattened argument is position `(n / 64, n % 64)` of the argument. -/
theorem V_v1_apply (c : Dev nD) (b : Fin 4) (ch : Fin 256) (n : Fin 4096) :
    (V m c main_v1 : S4x256x4096.Idx → Elt F .f32) (ix3 b ch n)
      = (m ((c : Thread nD τ).loc main_arg1) : S4x256x64x64.Idx → Elt F .f32) (ix4 b ch ⟨n.val / 64, by omega⟩ ⟨n.val % 64, by omega⟩) := by
  rw [V_v1_eq, flatten_apply]

section AtIdeal
variable (mI : (ℓ : Loc nD τ sig) → Buf (Elt Ideal) ℓ)

/-- At the ideal instance a change of float format is the identity: the bf16 copy of the first argument is the
    flattened argument itself. -/
theorem V_v2_apply (c : Dev nD) (b : Fin 4) (ch : Fin 256) (n : Fin 4096) :
    (V mI c main_v2 : S4x256x4096.Idx → Elt Ideal .bf16) (ix3 b ch n)
      = (V mI c main_v0 : S4x256x4096.Idx → Elt Ideal .f32) (ix3 b ch n) := by
  rw [V_v2_eq]; rfl

/-- At the ideal instance the bf16 copy of the second argument is the flattened argument itself. -/
theorem V_v3_apply (c : Dev nD) (b : Fin 4) (ch : Fin 256) (n : Fin 4096) :
    (V mI c main_v3 : S4x256x4096.Idx → Elt Ideal .bf16) (ix3 b ch n)
      = (V mI c main_v1 : S4x256x4096.Idx → Elt Ideal .f32) (ix3 b ch n) := by
  rw [V_v3_eq]; rfl

end AtIdeal

/-! ## The input windows' blocks at an index -/

/-- The input windows' block indices at a point: batch, 0, and the query block (windows 0, 1, 4, 5) or the key block
    (windows 2, 3). -/
theorem inIndex_facts : ∀ t : Fin cfg0.N,
    (win0_0.index t (0 : Fin 3) = t.val / 32 ∧ win0_0.index t (1 : Fin 3) = 0 ∧ win0_0.index t (2 : Fin 3) = (t.val / 8) % 4)
    ∧ (win0_1.index t (0 : Fin 3) = t.val / 32 ∧ win0_1.index t (1 : Fin 3) = 0 ∧ win0_1.index t (2 : Fin 3) = (t.val / 8) % 4)
    ∧ (win0_2.index t (0 : Fin 3) = t.val / 32 ∧ win0_2.index t (1 : Fin 3) = 0 ∧ win0_2.index t (2 : Fin 3) = t.val % 8)
    ∧ (win0_3.index t (0 : Fin 3) = t.val / 32 ∧ win0_3.index t (1 : Fin 3) = 0 ∧ win0_3.index t (2 : Fin 3) = t.val % 8)
    ∧ (win0_4.index t (0 : Fin 3) = t.val / 32 ∧ win0_4.index t (1 : Fin 3) = 0 ∧ win0_4.index t (2 : Fin 3) = (t.val / 8) % 4)
    ∧ (win0_5.index t (0 : Fin 3) = t.val / 32 ∧ win0_5.index t (1 : Fin 3) = 0 ∧ win0_5.index t (2 : Fin 3) = (t.val / 8) % 4) :=
  (by decide +kernel : ∀ t : Fin grid0.N, _)

/-- The query block of the first argument's bf16 copy at a point: columns `1024 qi …` of batch `b`. -/
theorem iblk0_apply (c : Dev nD) (t : Fin cfg0.N) (ch : Fin 256) (r : Fin 1024) :
    (iblk m c 0 t : S1x256x1024.Idx → Elt F .bf16) (ix3 (0 : Fin 1) ch r)
      = (V m c main_v2 : S4x256x4096.Idx → Elt F .bf16)
          (ix3 ⟨t.val / 32, by have := t.isLt; have : cfg0.N = 128 := N_0; omega⟩ ch
            ⟨((t.val / 8) % 4) * 1024 + r.val, by omega⟩) := by
  obtain ⟨i0, i1, i2⟩ := (inIndex_facts t).1
  unfold iblk
  rw [View.read_apply]
  show V m c main_v2 _ = V m c main_v2 _
  congr 1
  funext a
  apply Fin.ext
  match a with
  | ⟨0, _⟩ => show win0_0.index t 0 * 1 + 1 * 0 = t.val / 32; rw [i0]; omega
  | ⟨1, _⟩ => show win0_0.index t 1 * 256 + 1 * ch.val = ch.val; rw [i1]; omega
  | ⟨2, _⟩ => show win0_0.index t 2 * 1024 + 1 * r.val = ((t.val / 8) % 4) * 1024 + r.val; rw [i2]; omega

/-- The query block of the second argument's bf16 copy at a point. -/
theorem iblk1_apply (c : Dev nD) (t : Fin cfg0.N) (ch : Fin 256) (r : Fin 1024) :
    (iblk m c 1 t : S1x256x1024.Idx → Elt F .bf16) (ix3 (0 : Fin 1) ch r)
      = (V m c main_v3 : S4x256x4096.Idx → Elt F .bf16)
          (ix3 ⟨t.val / 32, by have := t.isLt; have : cfg0.N = 128 := N_0; omega⟩ ch
            ⟨((t.val / 8) % 4) * 1024 + r.val, by omega⟩) := by
  obtain ⟨i0, i1, i2⟩ := (inIndex_facts t).2.1
  unfold iblk
  rw [View.read_apply]
  show V m c main_v3 _ = V m c main_v3 _
  congr 1
  funext a
  apply Fin.ext
  match a with
  | ⟨0, _⟩ => show win0_1.index t 0 * 1 + 1 * 0 = t.val / 32; rw [i0]; omega
  | ⟨1, _⟩ => show win0_1.index t 1 * 256 + 1 * ch.val = ch.val; rw [i1]; omega
  | ⟨2, _⟩ => show win0_1.index t 2 * 1024 + 1 * r.val = ((t.val / 8) % 4) * 1024 + r.val; rw [i2]; omega

/-- The key block of the first argument's bf16 copy at a point: columns `512 ki …` of batch `b`. -/
theorem iblk2_apply (c : Dev nD) (t : Fin cfg0.N) (ch : Fin 256) (r : Fin 512) :
    (iblk m c 2 t : S1x256x512.Idx → Elt F .bf16) (ix3 (0 : Fin 1) ch r)
      = (V m c main_v2 : S4x256x4096.Idx → Elt F .bf16)
          (ix3 ⟨t.val / 32, by have := t.isLt; have : cfg0.N = 128 := N_0; omega⟩ ch
            ⟨(t.val % 8) * 512 + r.val, by omega⟩) := by
  obtain ⟨i0, i1, i2⟩ := (inIndex_facts t).2.2.1
  unfold iblk
  rw [View.read_apply]
  show V m c main_v2 _ = V m c main_v2 _
  congr 1
  funext a
  apply Fin.ext
  match a with
  | ⟨0, _⟩ => show win0_2.index t 0 * 1 + 1 * 0 = t.val / 32; rw [i0]; omega
  | ⟨1, _⟩ => show win0_2.index t 1 * 256 + 1 * ch.val = ch.val; rw [i1]; omega
  | ⟨2, _⟩ => show win0_2.index t 2 * 512 + 1 * r.val = (t.val % 8) * 512 + r.val; rw [i2]; omega

/-- The key block of the second argument's bf16 copy at a point. -/
theorem iblk3_apply (c : Dev nD) (t : Fin cfg0.N) (ch : Fin 256) (r : Fin 512) :
    (iblk m c 3 t : S1x256x512.Idx → Elt F .bf16) (ix3 (0 : Fin 1) ch r)
      = (V m c main_v3 : S4x256x4096.Idx → Elt F .bf16)
          (ix3 ⟨t.val / 32, by have := t.isLt; have : cfg0.N = 128 := N_0; omega⟩ ch
            ⟨(t.val % 8) * 512 + r.val, by omega⟩) := by
  obtain ⟨i0, i1, i2⟩ := (inIndex_facts t).2.2.2.1
  unfold iblk
  rw [View.read_apply]
  show V m c main_v3 _ = V m c main_v3 _
  congr 1
  funext a
  apply Fin.ext
  match a with
  | ⟨0, _⟩ => show win0_3.index t 0 * 1 + 1 * 0 = t.val / 32; rw [i0]; omega
  | ⟨1, _⟩ => show win0_3.index t 1 * 256 + 1 * ch.val = ch.val; rw [i1]; omega
  | ⟨2, _⟩ => show win0_3.index t 2 * 512 + 1 * r.val = (t.val % 8) * 512 + r.val; rw [i2]; omega

/-- The query block of the first flattened argument at a point. -/
theorem iblk4_apply (c : Dev nD) (t : Fin cfg0.N) (ch : Fin 256) (r : Fin 1024) :
    (iblk m c 4 t : S1x256x1024.Idx → Elt F .f32) (ix3 (0 : Fin 1) ch r)
      = (V m c main_v0 : S4x256x4096.Idx → Elt F .f32)
          (ix3 ⟨t.val / 32, by have := t.isLt; have : cfg0.N = 128 := N_0; omega⟩ ch
            ⟨((t.val / 8) % 4) * 1024 + r.val, by omega⟩) := by
  obtain ⟨i0, i1, i2⟩ := (inIndex_facts t).2.2.2.2.1
  unfold iblk
  rw [View.read_apply]
  show V m c main_v0 _ = V m c main_v0 _
  congr 1
  funext a
  apply Fin.ext
  match a with
  | ⟨0, _⟩ => show win0_4.index t 0 * 1 + 1 * 0 = t.val / 32; rw [i0]; omega
  | ⟨1, _⟩ => show win0_4.index t 1 * 256 + 1 * ch.val = ch.val; rw [i1]; omega
  | ⟨2, _⟩ => show win0_4.index t 2 * 1024 + 1 * r.val = ((t.val / 8) % 4) * 1024 + r.val; rw [i2]; omega

/-- The query block of the second flattened argument at a point. -/
theorem iblk5_apply (c : Dev nD) (t : Fin cfg0.N) (ch : Fin 256) (r : Fin 1024) :
    (iblk m c 5 t : S1x256x1024.Idx → Elt F .f32) (ix3 (0 : Fin 1) ch r)
      = (V m c main_v1 : S4x256x4096.Idx → Elt F .f32)
          (ix3 ⟨t.val / 32, by have := t.isLt; have : cfg0.N = 128 := N_0; omega⟩ ch
            ⟨((t.val / 8) % 4) * 1024 + r.val, by omega⟩) := by
  obtain ⟨i0, i1, i2⟩ := (inIndex_facts t).2.2.2.2.2
  unfold iblk
  rw [View.read_apply]
  show V m c main_v1 _ = V m c main_v1 _
  congr 1
  funext a
  apply Fin.ext
  match a with
  | ⟨0, _⟩ => show win0_5.index t 0 * 1 + 1 * 0 = t.val / 32; rw [i0]; omega
  | ⟨1, _⟩ => show win0_5.index t 1 * 256 + 1 * ch.val = ch.val; rw [i1]; omega
  | ⟨2, _⟩ => show win0_5.index t 2 * 1024 + 1 * r.val = ((t.val / 8) % 4) * 1024 + r.val; rw [i2]; omega

end Cert.KernelIdeal.Flash

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowDots.lean ====
/-
  A matrix product that pairs the ROWS of its two operands, read at an entry, for any sizes.

  When the dimension numbers of a matrix product contract the second axis of an `a × k` left operand with the second
  axis of a `b × k` right operand (no batch axes; the first axis of each operand is kept), entry `(p, q)` of the
  `a × b` result, accumulated from zero, is the inner product of row `p` of the left operand with row `q` of the right
  one: the sum over the shared coordinate `c` of `A (p, c) * B (q, c)`, in the coordinate's order. This is the product
  of the left operand with the transpose of the right one, without a transpose being formed.
-/
import Idealize.ShloMosaic.Lib.Pipeline.Value
import Idealize.ShloMosaic.Lib.ValueIdx
import Idealize.ShloMosaic.PureOps.Ideal.Laws

noncomputable section

open scoped BigOperators

namespace Cert.Lib.RowDots

open Idealize.ShloMosaic Idealize.ShloMosaic.ValueIdx

variable {a b k : ℕ}

/-- A coordinate of an index read at two positions that are the same number. -/
theorem coord_congr {s : Shape} (j : s.Idx) (p q : ℕ) (hp : p < s.rank) (hq : q < s.rank) (h : p = q) :
    (j ⟨p, hp⟩).val = (j ⟨q, hq⟩).val := by subst h; rfl

/-- The left operand's entry paired with result entry `j`: its kept axis reads the result's first coordinate. -/
theorem lhs_kept (D : DotDims ⟨2, ![a, k]⟩ ⟨2, ![b, k]⟩ ⟨2, ![a, b]⟩) (hlb : D.lhsBatch = []) (hln : D.lhsNonContracting = [0])
    (j : (⟨2, ![a, b]⟩ : Shape).Idx) (c : D.contr.Idx) : (D.lhsIdx j c 0).val = (j 0).val := by
  unfold DotDims.lhsIdx
  rw [dif_neg (by rw [hlb]; exact List.not_mem_nil), dif_pos (by rw [hln]; exact List.mem_singleton.mpr rfl)]
  simp only [Fin.val_cast]
  exact coord_congr j _ 0 _ (show 0 < 2 by omega) (by simp [hlb, hln])

/-- The right operand's entry paired with result entry `j`: its kept axis reads the result's second coordinate. -/
theorem rhs_kept (D : DotDims ⟨2, ![a, k]⟩ ⟨2, ![b, k]⟩ ⟨2, ![a, b]⟩) (hlb : D.lhsBatch = []) (hln : D.lhsNonContracting = [0])
    (hrb : D.rhsBatch = []) (hrn : D.rhsNonContracting = [0])
    (j : (⟨2, ![a, b]⟩ : Shape).Idx) (c : D.contr.Idx) : (D.rhsIdx j c 0).val = (j 1).val := by
  unfold DotDims.rhsIdx
  rw [dif_neg (by rw [hrb]; exact List.not_mem_nil), dif_pos (by rw [hrn]; exact List.mem_singleton.mpr rfl)]
  simp only [Fin.val_cast]
  exact coord_congr j _ 1 _ (show 1 < 2 by omega) (by simp [hlb, hln, hrn])

/-- Entry `(p, q)` of a product from zero that contracts the second axis of both operands: row `p` of the left
    operand against row `q` of the right one. -/
theorem matmul_rows_apply {φ₁ φ₂ : FTy} (D : DotDims ⟨2, ![a, k]⟩ ⟨2, ![b, k]⟩ ⟨2, ![a, b]⟩)
    (hlb : D.lhsBatch = []) (hln : D.lhsNonContracting = [0]) (hlc : D.lhsContracting = [1])
    (hrb : D.rhsBatch = []) (hrn : D.rhsNonContracting = [0]) (hrc : D.rhsContracting = [1])
    (hrank : D.contr.rank = 1) (hsize : D.contr.size ⟨0, by omega⟩ = k) (prec : Option ContractPrecision)
    (A : FVec Ideal ⟨2, ![a, k]⟩ φ₁) (B : FVec Ideal ⟨2, ![b, k]⟩ φ₂) (p : Fin a) (q : Fin b) :
    matmul D prec A B (constant ⟨2, ![a, b]⟩ .f32 0x00000000#32) (ix2 p q) = ∑ c : Fin k, A (ix2 p c) * B (ix2 q c) := by
  show FloatOps.matmul D prec A B _ (ix2 p q) = _
  rw [Ideal.matmul_constant_zero_apply, ← Equiv.sum_comp (contrEquiv1 D k hrank hsize).symm]
  refine Finset.sum_congr rfl fun c _ => ?_
  have hc := contrEquiv1_symm_val D k hrank hsize c
  have el : D.lhsIdx (ix2 p q) ((contrEquiv1 D k hrank hsize).symm c) = ix2 p c := funext fun ax => Fin.ext (by
    match ax with
    | ⟨0, _⟩ => exact lhs_kept D hlb hln _ _
    | ⟨1, _⟩ => exact (D.lhsIdx_val_of_single hlc _ _).trans hc)
  have er : D.rhsIdx (ix2 p q) ((contrEquiv1 D k hrank hsize).symm c) = ix2 q c := funext fun ax => Fin.ext (by
    match ax with
    | ⟨0, _⟩ => exact rhs_kept D hlb hln hrb hrn _ _
    | ⟨1, _⟩ => exact (D.rhsIdx_val_of_single hrc _ _).trans hc)
  rw [el, er]

end Cert.Lib.RowDots

end
-- ==== Proof.KernelPayloads.lean ====
import proofs.«154790_j27118423507780_2_alg».proof.Proof.Gen.KernelIdeal.Skeleton
import proofs.«154790_j27118423507780_2_alg».proof.Proof.LibRowMax
import proofs.«154790_j27118423507780_2_alg».proof.Proof.LibRowOps
import proofs.«154790_j27118423507780_2_alg».proof.Proof.LibGram
import proofs.«154790_j27118423507780_2_alg».proof.Proof.LibRowDots
import Idealize.ShloMosaic.Lib.ValueIdx
import Idealize.ShloMosaic.Lib.Pipeline.Value
import Idealize.ShloMosaic.Lib.ValueLayout
import Idealize.ShloMosaic.PureOps.Ideal.Laws

/-!
# The kernel body's arithmetic, read at an entry

One step of a blocked attention kernel takes a block of 1024 query rows and a block of 512 key
columns, each with 256 channels, and updates three running quantities per query row: a running
maximum, a running denominator and a running weighted sum (one value per channel).  Every value
the step computes is a whole array; this file reads each of them at ONE entry, named by explicit
coordinates, as a formula in the extended reals over the entries of the arrays the step loaded.

* scores: S (r, q) = the sum over channels c of query (c, r) * key (c, q);
* new maximum: m' r = max (m r) (the maximum over q of S (r, q));
* rescaling factor: alpha r = exp (m r - m' r);
* weights: p (r, q) = exp (S (r, q) - m' r);
* new denominator: l' r = alpha r * l r + the sum over q of p (r, q);
* new weighted sum: a' (r, c) = alpha r * a (r, c) + the sum over q of p (r, q) * value (c, q);
* the last step: out (r, c) = a (r, c) * (1 / l r) + residual (c, r).

The kernel does this twice, for two directions that exchange the roles of its two inputs; the
second direction's arrays are read in the same way.
-/

noncomputable section

open scoped BigOperators

namespace Cert.KernelIdeal.Payloads

open Idealize.ShloMosaic Idealize.ShloMosaic.ValueIdx
open Cert.KernelIdeal Cert.KernelIdeal.Gen
open Cert.Lib

/-! ## A matrix product that pairs the COLUMNS of its two operands -/

section ColDots
variable {a b k : ℕ}

/-- The left operand's entry paired with result entry j when the FIRST axis of both operands is
    contracted: its kept (second) axis reads the result's first coordinate. -/
theorem lhs_kept_col (D : DotDims ⟨2, ![k, a]⟩ ⟨2, ![k, b]⟩ ⟨2, ![a, b]⟩) (hlb : D.lhsBatch = [])
    (hln : D.lhsNonContracting = [1]) (j : (⟨2, ![a, b]⟩ : Shape).Idx) (c : D.contr.Idx) :
    (D.lhsIdx j c 1).val = (j 0).val := by
  unfold DotDims.lhsIdx
  rw [dif_neg (by rw [hlb]; exact List.not_mem_nil), dif_pos (by rw [hln]; exact List.mem_singleton.mpr rfl)]
  simp only [Fin.val_cast]
  exact RowDots.coord_congr j _ 0 _ (show 0 < 2 by omega) (by simp [hlb, hln])

/-- The right operand's entry paired with result entry j: its kept (second) axis reads the
    result's second coordinate. -/
theorem rhs_kept_col (D : DotDims ⟨2, ![k, a]⟩ ⟨2, ![k, b]⟩ ⟨2, ![a, b]⟩) (hlb : D.lhsBatch = [])
    (hln : D.lhsNonContracting = [1]) (hrb : D.rhsBatch = []) (hrn : D.rhsNonContracting = [1])
    (j : (⟨2, ![a, b]⟩ : Shape).Idx) (c : D.contr.Idx) : (D.rhsIdx j c 1).val = (j 1).val := by
  unfold DotDims.rhsIdx
  rw [dif_neg (by rw [hrb]; exact List.not_mem_nil), dif_pos (by rw [hrn]; exact List.mem_singleton.mpr rfl)]
  simp only [Fin.val_cast]
  exact RowDots.coord_congr j _ 1 _ (show 1 < 2 by omega) (by simp [hlb, hln, hrn])

/-- Entry (p, q) of a product from zero that contracts the FIRST axis of both operands: column p
    of the k × a left operand against column q of the k × b right one, the sum over the shared
    coordinate c of A (c, p) * B (c, q). -/
theorem matmul_cols_apply {φ₁ φ₂ : FTy} (D : DotDims ⟨2, ![k, a]⟩ ⟨2, ![k, b]⟩ ⟨2, ![a, b]⟩)
    (hlb : D.lhsBatch = []) (hln : D.lhsNonContracting = [1]) (hlc : D.lhsContracting = [0])
    (hrb : D.rhsBatch = []) (hrn : D.rhsNonContracting = [1]) (hrc : D.rhsContracting = [0])
    (hrank : D.contr.rank = 1) (hsize : D.contr.size ⟨0, by omega⟩ = k) (prec : Option ContractPrecision)
    (A : FVec Ideal ⟨2, ![k, a]⟩ φ₁) (B : FVec Ideal ⟨2, ![k, b]⟩ φ₂) (p : Fin a) (q : Fin b) :
    matmul D prec A B (constant ⟨2, ![a, b]⟩ .f32 0x00000000#32) (ix2 p q)
      = ∑ c : Fin k, A (ix2 c p) * B (ix2 c q) := by
  show FloatOps.matmul D prec A B _ (ix2 p q) = _
  rw [Ideal.matmul_constant_zero_apply, ← Equiv.sum_comp (contrEquiv1 D k hrank hsize).symm]
  refine Finset.sum_congr rfl fun c _ => ?_
  have hc := contrEquiv1_symm_val D k hrank hsize c
  have el : D.lhsIdx (ix2 p q) ((contrEquiv1 D k hrank hsize).symm c) = ix2 c p := funext fun ax => Fin.ext (by
    match ax with
    | ⟨0, _⟩ => exact (D.lhsIdx_val_of_single hlc _ _).trans hc
    | ⟨1, _⟩ => exact lhs_kept_col D hlb hln _ _)
  have er : D.rhsIdx (ix2 p q) ((contrEquiv1 D k hrank hsize).symm c) = ix2 c q := funext fun ax => Fin.ext (by
    match ax with
    | ⟨0, _⟩ => exact (D.rhsIdx_val_of_single hrc _ _).trans hc
    | ⟨1, _⟩ => exact rhs_kept_col D hlb hln hrb hrn _ _)
  rw [el, er]

end ColDots

/-- The word 0xFF800000 denotes the bottom of the extended reals. -/
theorem ofBits_negInf : Ideal.ofBits .f32 0xFF800000#32 = (⊥ : EReal) := by
  simp [Ideal.ofBits, Ideal.ieee]

/-! ## The first direction -/

/-- The key block with its leading unit axis dropped, read at (c, q). -/
theorem keys_apply (v9 : Vec Ideal S1x256x512 .bf16) (c : Fin 256) (q : Fin 512) :
    k0_pay12 (F := Ideal) v9 (ix2 c q) = v9 (ix3 (0 : Fin 1) c q) := by
  unfold k0_pay12
  exact shapeCast_1ab_ab_apply v9 _ c q

/-- Scores: entry (r, q) is the sum over the 256 channels of query (c, r) times key (c, q). -/
theorem scores_apply (v3 : Vec Ideal S1x256x1024 .bf16) (v9 : Vec Ideal S1x256x512 .bf16)
    (r : Fin 1024) (q : Fin 512) :
    k0_pay13 (F := Ideal) v3 v9 (ix2 r q)
      = ∑ c : Fin 256, v3 (ix3 (0 : Fin 1) c r) * v9 (ix3 (0 : Fin 1) c q) := by
  unfold k0_pay13
  refine (matmul_cols_apply dot_S256x1024_S256x512_S1024x512_0_0_1_1_n_n rfl rfl rfl rfl rfl rfl rfl rfl
    none _ _ r q).trans ?_
  exact Finset.sum_congr rfl fun c _ =>
    congrArg₂ (· * ·) (shapeCast_1ab_ab_apply v3 _ c r) (keys_apply v9 c q)

/-- The word 0x3F800000 denotes the number one. -/
theorem ofBits_one : Ideal.ofBits .f32 0x3F800000#32 = (1 : EReal) := by
  simp [Ideal.ofBits, Ideal.ieee, -EReal.coe_mul]; norm_num

/-! ## Casts to the same shape, and the sum of two arrays -/

/-- The new denominator is stored as it is. -/
theorem pay19_eq (v27 : FVec Ideal S1024x1 .f32) : k0_pay19 (F := Ideal) v27 = v27 := by
  unfold k0_pay19
  exact shapeCast_self _ _

/-- The new maximum is stored as it is. -/
theorem pay21_eq (v16 : FVec Ideal S1024x1 .f32) : k0_pay21 (F := Ideal) v16 = v16 := by
  unfold k0_pay21
  exact shapeCast_self _ _

/-- The second direction's new maximum is stored as it is. -/
theorem pay2_eq (v46 : FVec Ideal S1024x1 .f32) : k0_pay2 (F := Ideal) v46 = v46 := by
  unfold k0_pay2
  exact shapeCast_self _ _

/-- The second direction's new weighted sum is the sum of its two parts, entry by entry. -/
theorem pay1_apply (v63 v65 : FVec Ideal S1024x256 .f32) (i : S1024x256.Idx) :
    k0_pay1 (F := Ideal) v63 v65 i = v63 i + v65 i := by
  unfold k0_pay1
  exact congrFun (shapeCast_self _ _) i

/-! ## The initial values of the running quantities -/

/-- The first direction's running maximum starts at the finite stand-in word for minus infinity. -/
theorem pay5_apply (i : S1024x1.Idx) : k0_pay5 (F := Ideal) i = Ideal.ofBits .f32 0xFF333332#32 := by
  unfold k0_pay5
  exact congrFun (shapeCast_self _ _) i

/-- The first direction's running denominator starts at zero. -/
theorem pay6_apply (i : S1024x1.Idx) : k0_pay6 (F := Ideal) i = (0 : EReal) := by
  unfold k0_pay6
  exact (congrFun (shapeCast_self _ _) i).trans Ideal.ofBits_zero_f32

/-- The first direction's running weighted sum starts at zero. -/
theorem pay7_apply (i : S1024x256.Idx) : k0_pay7 (F := Ideal) i = (0 : EReal) := by
  unfold k0_pay7
  exact (congrFun (shapeCast_self _ _) i).trans Ideal.ofBits_zero_f32

/-- The second direction's running maximum starts at the same stand-in word. -/
theorem pay8_apply (i : S1024x1.Idx) : k0_pay8 (F := Ideal) i = Ideal.ofBits .f32 0xFF333332#32 := by
  unfold k0_pay8
  exact congrFun (shapeCast_self _ _) i

/-- The second direction's running denominator starts at zero. -/
theorem pay9_apply (i : S1024x1.Idx) : k0_pay9 (F := Ideal) i = (0 : EReal) := by
  unfold k0_pay9
  exact (congrFun (shapeCast_self _ _) i).trans Ideal.ofBits_zero_f32

/-- The second direction's running weighted sum starts at zero. -/
theorem pay10_apply (i : S1024x256.Idx) : k0_pay10 (F := Ideal) i = (0 : EReal) := by
  unfold k0_pay10
  exact (congrFun (shapeCast_self _ _) i).trans Ideal.ofBits_zero_f32

/-! ## One step over an arbitrary array of scores

These are the second direction's values as the kernel computes them, over ANY 1024 × 512 array of
scores v12; the first direction's are the same functions of its own scores (the bridges below). -/

/-- New running maximum: at row r, the maximum of the old one with the largest score of the row. -/
theorem rowMax_apply (v12 : FVec Ideal S1024x512 .f32) (v43 : Vec Ideal S1024x1 .f32) (r : Fin 1024) (u : Fin 1) :
    k0_pay22 (F := Ideal) v12 v43 (ix2 r u) = max (v43 (ix2 r (0 : Fin 1))) ((Finset.univ : Finset (Fin 512)).fold max (⊥ : EReal) fun q => v12 (ix2 r q)) := by
  obtain rfl : u = 0 := Subsingleton.elim _ _
  unfold k0_pay22
  refine (maximumf_apply _ _ _).trans ?_
  refine congrArg (max (v43 (ix2 r (0 : Fin 1)))) ?_
  refine (Gram.shapeCast_a_a1_apply _ _ r 0).trans ?_
  refine (RowMax.laneMax_apply _ _ _ _ r).trans ?_
  exact congrArg (fun z : EReal => (Finset.univ : Finset (Fin 512)).fold max z fun q => v12 (ix2 r q))
    ofBits_negInf

/-- Rescaling factor: at row r, the exponential of the old maximum minus the new one. -/
theorem rowRescale_apply (v12 : FVec Ideal S1024x512 .f32) (v43 v47 : Vec Ideal S1024x1 .f32) (r : Fin 1024) (u : Fin 1) :
    k0_pay23 (F := Ideal) v12 v43 v47 (ix2 r u)
      = Ideal.exp (v47 (ix2 r (0 : Fin 1)) - max (v43 (ix2 r (0 : Fin 1))) ((Finset.univ : Finset (Fin 512)).fold max (⊥ : EReal) fun q => v12 (ix2 r q))) := by
  obtain rfl : u = 0 := Subsingleton.elim _ _
  unfold k0_pay23
  exact congrArg (fun z : EReal => Ideal.exp (v47 (ix2 r (0 : Fin 1)) - z)) (rowMax_apply v12 v43 r 0)

/-- Weights: at (r, q), the exponential of the score minus the row's new maximum. -/
theorem rowWeights_apply (v12 : FVec Ideal S1024x512 .f32) (v43 : Vec Ideal S1024x1 .f32)
    (r : Fin 1024) (q' : Fin 512) :
    k0_pay24 (F := Ideal) v12 v43 (ix2 r q')
      = Ideal.exp (v12 (ix2 r q') - max (v43 (ix2 r (0 : Fin 1))) ((Finset.univ : Finset (Fin 512)).fold max (⊥ : EReal) fun q => v12 (ix2 r q))) := by
  unfold k0_pay24
  refine congrArg (fun z : EReal => Ideal.exp (v12 (ix2 r q') - z)) ?_
  exact (RowOps.broadcastTo_a1_ab_apply _ _ r q').trans (rowMax_apply v12 v43 r 0)

/-- New running denominator: at row r, the rescaled old one plus the sum of the row's weights. -/
theorem rowDenominator_apply (v12 : FVec Ideal S1024x512 .f32) (v43 v47 v53 : Vec Ideal S1024x1 .f32) (r : Fin 1024) (u : Fin 1) :
    k0_pay25 (F := Ideal) v12 v43 v47 v53 (ix2 r u)
      = Ideal.exp (v47 (ix2 r (0 : Fin 1)) - max (v43 (ix2 r (0 : Fin 1))) ((Finset.univ : Finset (Fin 512)).fold max (⊥ : EReal) fun q => v12 (ix2 r q))) * v53 (ix2 r (0 : Fin 1))
        + ∑ q' : Fin 512, Ideal.exp (v12 (ix2 r q') - max (v43 (ix2 r (0 : Fin 1))) ((Finset.univ : Finset (Fin 512)).fold max (⊥ : EReal) fun q => v12 (ix2 r q))) := by
  obtain rfl : u = 0 := Subsingleton.elim _ _
  unfold k0_pay25
  refine (congrFun (shapeCast_self _ _) _).trans ?_
  refine (addf_apply _ _ _).trans ?_
  refine congrArg₂ (· + ·) ?_ ?_
  · exact congrArg (· * v53 (ix2 r (0 : Fin 1))) (rowRescale_apply v12 v43 v47 r 0)
  · refine (Gram.shapeCast_a_a1_apply _ _ r 0).trans ?_
    refine (RowOps.laneSum_apply _ _ _ _ r).trans ?_
    exact Finset.sum_congr rfl fun q' _ => rowWeights_apply v12 v43 r q'

/-- The old weighted sum rescaled: at (r, c), the row's rescaling factor times the old entry. -/
theorem rowScaledSum_apply (v12 : FVec Ideal S1024x512 .f32) (v43 v47 : Vec Ideal S1024x1 .f32)
    (v61 : Vec Ideal S1024x256 .f32) (r : Fin 1024) (c : Fin 256) :
    k0_pay26 (F := Ideal) v12 v43 v47 v61 (ix2 r c)
      = Ideal.exp (v47 (ix2 r (0 : Fin 1)) - max (v43 (ix2 r (0 : Fin 1))) ((Finset.univ : Finset (Fin 512)).fold max (⊥ : EReal) fun q => v12 (ix2 r q))) * v61 (ix2 r c) := by
  unfold k0_pay26
  refine (mulf_apply _ _ _).trans ?_
  exact congrArg (· * v61 (ix2 r c))
    ((RowOps.broadcastTo_a1_ab_apply _ _ r c).trans (rowRescale_apply v12 v43 v47 r 0))

/-- The block's contribution to the weighted sum: at (r, c), the sum over the block's 512 keys of
    the weight times the value's channel c. -/
theorem rowWeightedValues_apply (v8 : FVec Ideal S256x512 .bf16) (v12 : FVec Ideal S1024x512 .f32)
    (v43 : Vec Ideal S1024x1 .f32) (r : Fin 1024) (c : Fin 256) :
    k0_pay27 (F := Ideal) v8 v12 v43 (ix2 r c)
      = ∑ q' : Fin 512, Ideal.exp (v12 (ix2 r q') - max (v43 (ix2 r (0 : Fin 1))) ((Finset.univ : Finset (Fin 512)).fold max (⊥ : EReal) fun q => v12 (ix2 r q))) * v8 (ix2 c q') := by
  unfold k0_pay27
  refine (RowDots.matmul_rows_apply dot_S1024x512_S256x512_S1024x256_1_1_0_0_n_n rfl rfl rfl rfl rfl rfl
    rfl rfl none _ _ r c).trans ?_
  exact Finset.sum_congr rfl fun q' _ => congrArg (· * v8 (ix2 c q')) (rowWeights_apply v12 v43 r q')

/-- New running weighted sum, over arbitrary rescaling factors v19, weights v22 and values v10:
    at (r, c), the factor of row r times the old entry plus the sum over the keys of weight
    times value. -/
theorem pay20_apply (v10 : FVec Ideal S256x512 .bf16) (v19 : FVec Ideal S1024x1 .f32)
    (v22 : FVec Ideal S1024x512 .f32) (v31 : Vec Ideal S1024x256 .f32) (r : Fin 1024) (c : Fin 256) :
    k0_pay20 (F := Ideal) v10 v19 v22 v31 (ix2 r c)
      = v19 (ix2 r (0 : Fin 1)) * v31 (ix2 r c) + ∑ q' : Fin 512, v22 (ix2 r q') * v10 (ix2 c q') := by
  unfold k0_pay20
  refine (congrFun (shapeCast_self _ _) _).trans ?_
  refine (addf_apply _ _ _).trans ?_
  refine congrArg₂ (· + ·) ?_ ?_
  · refine (mulf_apply _ _ _).trans ?_
    exact congrArg (· * v31 (ix2 r c)) (RowOps.broadcastTo_a1_ab_apply _ _ r c)
  · exact RowDots.matmul_rows_apply dot_S1024x512_S256x512_S1024x256_1_1_0_0_n_n rfl rfl rfl rfl rfl rfl
      rfl rfl none _ _ r c

/-! ## The last step -/

/-- The first direction's output: at (r, c), the weighted sum divided by the denominator (as a
    product with the reciprocal) plus the residual input, which is stored channel-major and so is
    read at (c, r). -/
theorem output_apply (v76 : Vec Ideal S1x256x1024 .f32) (v82 : Vec Ideal S1024x256 .f32)
    (v83 : Vec Ideal S1024x1 .f32) (u : Fin 1) (r : Fin 1024) (c : Fin 256) :
    k0_pay3 (F := Ideal) v76 v82 v83 (ix3 u r c)
      = v82 (ix2 r c) * Ideal.div 1 (v83 (ix2 r (0 : Fin 1))) + v76 (ix3 (0 : Fin 1) c r) := by
  unfold k0_pay3
  refine (shapeCast_ab_1ab_apply _ _ u r c).trans ?_
  refine (addf_apply _ _ _).trans ?_
  refine congrArg₂ (· + ·) ?_ ?_
  · refine (mulf_apply _ _ _).trans ?_
    refine congrArg (v82 (ix2 r c) * ·) ?_
    refine (RowOps.broadcastTo_a1_ab_apply _ _ r c).trans ?_
    exact congrArg (fun z : EReal => Ideal.div z (v83 (ix2 r (0 : Fin 1)))) ofBits_one
  · refine (transpose_ix2_apply _ _ r c).trans ?_
    exact shapeCast_1ab_ab_apply v76 _ c r

/-- The second direction's output, the same formula over its own arrays. -/
theorem output2_apply (v79 : Vec Ideal S1x256x1024 .f32) (v92 : Vec Ideal S1024x256 .f32)
    (v93 : Vec Ideal S1024x1 .f32) (u : Fin 1) (r : Fin 1024) (c : Fin 256) :
    k0_pay4 (F := Ideal) v79 v92 v93 (ix3 u r c)
      = v92 (ix2 r c) * Ideal.div 1 (v93 (ix2 r (0 : Fin 1))) + v79 (ix3 (0 : Fin 1) c r) := by
  unfold k0_pay4
  refine (shapeCast_ab_1ab_apply _ _ u r c).trans ?_
  refine (addf_apply _ _ _).trans ?_
  refine congrArg₂ (· + ·) ?_ ?_
  · refine (mulf_apply _ _ _).trans ?_
    refine congrArg (v92 (ix2 r c) * ·) ?_
    refine (RowOps.broadcastTo_a1_ab_apply _ _ r c).trans ?_
    exact congrArg (fun z : EReal => Ideal.div z (v93 (ix2 r (0 : Fin 1)))) ofBits_one
  · refine (transpose_ix2_apply _ _ r c).trans ?_
    exact shapeCast_1ab_ab_apply v79 _ c r

/-! ## The first direction, over the loaded blocks -/

/-- The first direction's new maximum is the generic one at its own scores. -/
theorem pay15_eq (v3 : Vec Ideal S1x256x1024 .bf16) (v9 : Vec Ideal S1x256x512 .bf16) (v13 : Vec Ideal S1024x1 .f32) :
    k0_pay15 (F := Ideal) v3 v9 v13 = k0_pay22 (F := Ideal) (k0_pay13 (F := Ideal) v3 v9) v13 := rfl

/-- The first direction's rescaling factor is the generic one at its own scores. -/
theorem pay16_eq (v3 : Vec Ideal S1x256x1024 .bf16) (v9 : Vec Ideal S1x256x512 .bf16) (v13 v17 : Vec Ideal S1024x1 .f32) :
    k0_pay16 (F := Ideal) v3 v9 v13 v17 = k0_pay23 (F := Ideal) (k0_pay13 (F := Ideal) v3 v9) v13 v17 := rfl

/-- The first direction's weights are the generic ones at its own scores. -/
theorem pay17_eq (v3 : Vec Ideal S1x256x1024 .bf16) (v9 : Vec Ideal S1x256x512 .bf16) (v13 : Vec Ideal S1024x1 .f32) :
    k0_pay17 (F := Ideal) v3 v9 v13 = k0_pay24 (F := Ideal) (k0_pay13 (F := Ideal) v3 v9) v13 := rfl

/-- The first direction's new denominator is the generic one at its own scores. -/
theorem pay18_eq (v3 : Vec Ideal S1x256x1024 .bf16) (v9 : Vec Ideal S1x256x512 .bf16) (v13 v17 v23 : Vec Ideal S1024x1 .f32) :
    k0_pay18 (F := Ideal) v3 v9 v13 v17 v23 = k0_pay25 (F := Ideal) (k0_pay13 (F := Ideal) v3 v9) v13 v17 v23 := by
  unfold k0_pay25
  exact (shapeCast_self _ _).symm

/-- New running maximum of the first direction, over the loaded blocks. -/
theorem newMax_apply (v3 : Vec Ideal S1x256x1024 .bf16) (v9 : Vec Ideal S1x256x512 .bf16) (v13 : Vec Ideal S1024x1 .f32) (r : Fin 1024) (u : Fin 1) :
    k0_pay15 (F := Ideal) v3 v9 v13 (ix2 r u) = max (v13 (ix2 r (0 : Fin 1))) ((Finset.univ : Finset (Fin 512)).fold max (⊥ : EReal) fun q => (∑ c : Fin 256, v3 (ix3 (0 : Fin 1) c r) * v9 (ix3 (0 : Fin 1) c q))) := by
  refine (rowMax_apply (k0_pay13 (F := Ideal) v3 v9) v13 r u).trans ?_
  exact congrArg (fun f : Fin 512 → EReal =>
      max (v13 (ix2 r (0 : Fin 1))) ((Finset.univ : Finset (Fin 512)).fold max (⊥ : EReal) f))
    (funext fun q => scores_apply v3 v9 r q)

/-- Rescaling factor of the first direction, over the loaded blocks. -/
theorem rescale_apply (v3 : Vec Ideal S1x256x1024 .bf16) (v9 : Vec Ideal S1x256x512 .bf16) (v13 v17 : Vec Ideal S1024x1 .f32) (r : Fin 1024) (u : Fin 1) :
    k0_pay16 (F := Ideal) v3 v9 v13 v17 (ix2 r u) = Ideal.exp (v17 (ix2 r (0 : Fin 1)) - max (v13 (ix2 r (0 : Fin 1))) ((Finset.univ : Finset (Fin 512)).fold max (⊥ : EReal) fun q => (∑ c : Fin 256, v3 (ix3 (0 : Fin 1) c r) * v9 (ix3 (0 : Fin 1) c q)))) := by
  obtain rfl : u = 0 := Subsingleton.elim _ _
  unfold k0_pay16
  exact congrArg (fun z : EReal => Ideal.exp (v17 (ix2 r (0 : Fin 1)) - z)) (newMax_apply v3 v9 v13 r 0)

/-- Weights of the first direction, over the loaded blocks. -/
theorem weights_apply (v3 : Vec Ideal S1x256x1024 .bf16) (v9 : Vec Ideal S1x256x512 .bf16) (v13 : Vec Ideal S1024x1 .f32) (r : Fin 1024) (q' : Fin 512) :
    k0_pay17 (F := Ideal) v3 v9 v13 (ix2 r q') = Ideal.exp ((∑ c : Fin 256, v3 (ix3 (0 : Fin 1) c r) * v9 (ix3 (0 : Fin 1) c q')) - max (v13 (ix2 r (0 : Fin 1))) ((Finset.univ : Finset (Fin 512)).fold max (⊥ : EReal) fun q => (∑ c : Fin 256, v3 (ix3 (0 : Fin 1) c r) * v9 (ix3 (0 : Fin 1) c q)))) := by
  refine (rowWeights_apply (k0_pay13 (F := Ideal) v3 v9) v13 r q').trans ?_
  exact congrArg₂ (fun a b : EReal => Ideal.exp (a - b)) (scores_apply v3 v9 r q')
    ((rowMax_apply (k0_pay13 (F := Ideal) v3 v9) v13 r 0).symm.trans (newMax_apply v3 v9 v13 r 0))

/-- New running denominator of the first direction, over the loaded blocks. -/
theorem denominator_apply (v3 : Vec Ideal S1x256x1024 .bf16) (v9 : Vec Ideal S1x256x512 .bf16) (v13 v17 v23 : Vec Ideal S1024x1 .f32) (r : Fin 1024) (u : Fin 1) :
    k0_pay18 (F := Ideal) v3 v9 v13 v17 v23 (ix2 r u)
      = Ideal.exp (v17 (ix2 r (0 : Fin 1)) - max (v13 (ix2 r (0 : Fin 1))) ((Finset.univ : Finset (Fin 512)).fold max (⊥ : EReal) fun q => (∑ c : Fin 256, v3 (ix3 (0 : Fin 1) c r) * v9 (ix3 (0 : Fin 1) c q)))) * v23 (ix2 r (0 : Fin 1))
        + ∑ q' : Fin 512, Ideal.exp ((∑ c : Fin 256, v3 (ix3 (0 : Fin 1) c r) * v9 (ix3 (0 : Fin 1) c q')) - max (v13 (ix2 r (0 : Fin 1))) ((Finset.univ : Finset (Fin 512)).fold max (⊥ : EReal) fun q => (∑ c : Fin 256, v3 (ix3 (0 : Fin 1) c r) * v9 (ix3 (0 : Fin 1) c q)))) := by
  obtain rfl : u = 0 := Subsingleton.elim _ _
  unfold k0_pay18
  refine (addf_apply _ _ _).trans ?_
  refine congrArg₂ (· + ·) ?_ ?_
  · exact congrArg (· * v23 (ix2 r (0 : Fin 1))) (rescale_apply v3 v9 v13 v17 r 0)
  · refine (Gram.shapeCast_a_a1_apply _ _ r 0).trans ?_
    refine (RowOps.laneSum_apply _ _ _ _ r).trans ?_
    exact Finset.sum_congr rfl fun q' _ => weights_apply v3 v9 v13 r q'

/-- New running weighted sum of the first direction, over the loaded blocks: the value the step
    stores, with the kernel's own operands (values, rescaling factor, weights) in place. -/
theorem weightedSum_apply (v3 : Vec Ideal S1x256x1024 .bf16) (v9 : Vec Ideal S1x256x512 .bf16) (v13 v17 : Vec Ideal S1024x1 .f32) (v31 : Vec Ideal S1024x256 .f32)
    (r : Fin 1024) (c : Fin 256) :
    k0_pay20 (F := Ideal) (k0_pay12 (F := Ideal) v9) (k0_pay16 (F := Ideal) v3 v9 v13 v17)
        (k0_pay17 (F := Ideal) v3 v9 v13) v31 (ix2 r c)
      = Ideal.exp (v17 (ix2 r (0 : Fin 1)) - max (v13 (ix2 r (0 : Fin 1))) ((Finset.univ : Finset (Fin 512)).fold max (⊥ : EReal) fun q => (∑ c : Fin 256, v3 (ix3 (0 : Fin 1) c r) * v9 (ix3 (0 : Fin 1) c q)))) * v31 (ix2 r c)
        + ∑ q' : Fin 512, Ideal.exp ((∑ c : Fin 256, v3 (ix3 (0 : Fin 1) c r) * v9 (ix3 (0 : Fin 1) c q')) - max (v13 (ix2 r (0 : Fin 1))) ((Finset.univ : Finset (Fin 512)).fold max (⊥ : EReal) fun q => (∑ c : Fin 256, v3 (ix3 (0 : Fin 1) c r) * v9 (ix3 (0 : Fin 1) c q)))) * v9 (ix3 (0 : Fin 1) c q') := by
  refine (pay20_apply _ _ _ v31 r c).trans ?_
  refine congrArg₂ (· + ·) ?_ ?_
  · exact congrArg (· * v31 (ix2 r c)) (rescale_apply v3 v9 v13 v17 r 0)
  · exact Finset.sum_congr rfl fun q' _ =>
      congrArg₂ (· * ·) (weights_apply v3 v9 v13 r q') (keys_apply v9 c q')

/-! ## The second direction, over the loaded blocks -/

/-- The second direction's value block with its leading unit axis dropped, read at (c, q). -/
theorem keys2_apply (v7 : Vec Ideal S1x256x512 .bf16) (c : Fin 256) (q : Fin 512) :
    k0_pay11 (F := Ideal) v7 (ix2 c q) = v7 (ix3 (0 : Fin 1) c q) := by
  unfold k0_pay11
  exact shapeCast_1ab_ab_apply v7 _ c q

/-- Scores of the second direction: the sum over the 256 channels of query (c, r) times key (c, q). -/
theorem scores2_apply (v5 : Vec Ideal S1x256x1024 .bf16) (v7 : Vec Ideal S1x256x512 .bf16) (r : Fin 1024) (q : Fin 512) :
    k0_pay14 (F := Ideal) v5 v7 (ix2 r q) = ∑ c : Fin 256, v5 (ix3 (0 : Fin 1) c r) * v7 (ix3 (0 : Fin 1) c q) := by
  unfold k0_pay14
  refine (matmul_cols_apply dot_S256x1024_S256x512_S1024x512_0_0_1_1_n_n rfl rfl rfl rfl rfl rfl rfl rfl
    none _ _ r q).trans ?_
  exact Finset.sum_congr rfl fun c _ =>
    congrArg₂ (· * ·) (shapeCast_1ab_ab_apply v5 _ c r) (keys2_apply v7 c q)

/-- New running maximum of the second direction, over the loaded blocks. -/
theorem newMax2_apply (v5 : Vec Ideal S1x256x1024 .bf16) (v7 : Vec Ideal S1x256x512 .bf16) (v43 : Vec Ideal S1024x1 .f32) (r : Fin 1024) (u : Fin 1) :
    k0_pay22 (F := Ideal) (k0_pay14 (F := Ideal) v5 v7) v43 (ix2 r u) = max (v43 (ix2 r (0 : Fin 1))) ((Finset.univ : Finset (Fin 512)).fold max (⊥ : EReal) fun q => (∑ c : Fin 256, v5 (ix3 (0 : Fin 1) c r) * v7 (ix3 (0 : Fin 1) c q))) := by
  refine (rowMax_apply (k0_pay14 (F := Ideal) v5 v7) v43 r u).trans ?_
  exact congrArg (fun f : Fin 512 → EReal =>
      max (v43 (ix2 r (0 : Fin 1))) ((Finset.univ : Finset (Fin 512)).fold max (⊥ : EReal) f))
    (funext fun q => scores2_apply v5 v7 r q)

/-- The second direction's stored maximum. -/
theorem storedMax2_apply (v5 : Vec Ideal S1x256x1024 .bf16) (v7 : Vec Ideal S1x256x512 .bf16) (v43 : Vec Ideal S1024x1 .f32) (r : Fin 1024) (u : Fin 1) :
    k0_pay2 (F := Ideal) (k0_pay22 (F := Ideal) (k0_pay14 (F := Ideal) v5 v7) v43) (ix2 r u) = max (v43 (ix2 r (0 : Fin 1))) ((Finset.univ : Finset (Fin 512)).fold max (⊥ : EReal) fun q => (∑ c : Fin 256, v5 (ix3 (0 : Fin 1) c r) * v7 (ix3 (0 : Fin 1) c q))) :=
  (congrFun (pay2_eq _) _).trans (newMax2_apply v5 v7 v43 r u)

/-- New running denominator of the second direction, over the loaded blocks. -/
theorem denominator2_apply (v5 : Vec Ideal S1x256x1024 .bf16) (v7 : Vec Ideal S1x256x512 .bf16) (v43 v47 v53 : Vec Ideal S1024x1 .f32) (r : Fin 1024) (u : Fin 1) :
    k0_pay25 (F := Ideal) (k0_pay14 (F := Ideal) v5 v7) v43 v47 v53 (ix2 r u)
      = Ideal.exp (v47 (ix2 r (0 : Fin 1)) - max (v43 (ix2 r (0 : Fin 1))) ((Finset.univ : Finset (Fin 512)).fold max (⊥ : EReal) fun q => (∑ c : Fin 256, v5 (ix3 (0 : Fin 1) c r) * v7 (ix3 (0 : Fin 1) c q)))) * v53 (ix2 r (0 : Fin 1))
        + ∑ q' : Fin 512, Ideal.exp ((∑ c : Fin 256, v5 (ix3 (0 : Fin 1) c r) * v7 (ix3 (0 : Fin 1) c q')) - max (v43 (ix2 r (0 : Fin 1))) ((Finset.univ : Finset (Fin 512)).fold max (⊥ : EReal) fun q => (∑ c : Fin 256, v5 (ix3 (0 : Fin 1) c r) * v7 (ix3 (0 : Fin 1) c q)))) := by
  refine (rowDenominator_apply (k0_pay14 (F := Ideal) v5 v7) v43 v47 v53 r u).trans ?_
  have hM := (rowMax_apply (k0_pay14 (F := Ideal) v5 v7) v43 r 0).symm.trans (newMax2_apply v5 v7 v43 r 0)
  refine congrArg₂ (· + ·) ?_ ?_
  · exact congrArg (fun z : EReal => Ideal.exp (v47 (ix2 r (0 : Fin 1)) - z) * v53 (ix2 r (0 : Fin 1))) hM
  · exact Finset.sum_congr rfl fun q' _ =>
      congrArg₂ (fun a b : EReal => Ideal.exp (a - b)) (scores2_apply v5 v7 r q') hM

/-- New running weighted sum of the second direction, over the loaded blocks: the value the step
    stores, the rescaled old sum plus the block's contribution. -/
theorem weightedSum2_apply (v5 : Vec Ideal S1x256x1024 .bf16) (v7 : Vec Ideal S1x256x512 .bf16) (v43 v47 : Vec Ideal S1024x1 .f32) (v61 : Vec Ideal S1024x256 .f32)
    (r : Fin 1024) (c : Fin 256) :
    k0_pay1 (F := Ideal) (k0_pay26 (F := Ideal) (k0_pay14 (F := Ideal) v5 v7) v43 v47 v61)
        (k0_pay27 (F := Ideal) (k0_pay11 (F := Ideal) v7) (k0_pay14 (F := Ideal) v5 v7) v43) (ix2 r c)
      = Ideal.exp (v47 (ix2 r (0 : Fin 1)) - max (v43 (ix2 r (0 : Fin 1))) ((Finset.univ : Finset (Fin 512)).fold max (⊥ : EReal) fun q => (∑ c : Fin 256, v5 (ix3 (0 : Fin 1) c r) * v7 (ix3 (0 : Fin 1) c q)))) * v61 (ix2 r c)
        + ∑ q' : Fin 512, Ideal.exp ((∑ c : Fin 256, v5 (ix3 (0 : Fin 1) c r) * v7 (ix3 (0 : Fin 1) c q')) - max (v43 (ix2 r (0 : Fin 1))) ((Finset.univ : Finset (Fin 512)).fold max (⊥ : EReal) fun q => (∑ c : Fin 256, v5 (ix3 (0 : Fin 1) c r) * v7 (ix3 (0 : Fin 1) c q)))) * v7 (ix3 (0 : Fin 1) c q') := by
  refine (pay1_apply _ _ _).trans ?_
  have hM := (rowMax_apply (k0_pay14 (F := Ideal) v5 v7) v43 r 0).symm.trans (newMax2_apply v5 v7 v43 r 0)
  refine congrArg₂ (· + ·) ?_ ?_
  · refine (rowScaledSum_apply (k0_pay14 (F := Ideal) v5 v7) v43 v47 v61 r c).trans ?_
    exact congrArg (fun z : EReal => Ideal.exp (v47 (ix2 r (0 : Fin 1)) - z) * v61 (ix2 r c)) hM
  · refine (rowWeightedValues_apply _ (k0_pay14 (F := Ideal) v5 v7) v43 r c).trans ?_
    exact Finset.sum_congr rfl fun q' _ =>
      congrArg₂ (· * ·)
        (congrArg₂ (fun a b : EReal => Ideal.exp (a - b)) (scores2_apply v5 v7 r q') hM)
        (keys2_apply v7 c q')

/-! ## What the first direction stores -/

/-- The first direction's stored maximum. -/
theorem storedMax_apply (v3 : Vec Ideal S1x256x1024 .bf16) (v9 : Vec Ideal S1x256x512 .bf16) (v13 : Vec Ideal S1024x1 .f32) (r : Fin 1024) (u : Fin 1) :
    k0_pay21 (F := Ideal) (k0_pay15 (F := Ideal) v3 v9 v13) (ix2 r u) = max (v13 (ix2 r (0 : Fin 1))) ((Finset.univ : Finset (Fin 512)).fold max (⊥ : EReal) fun q => (∑ c : Fin 256, v3 (ix3 (0 : Fin 1) c r) * v9 (ix3 (0 : Fin 1) c q))) :=
  (congrFun (pay21_eq _) _).trans (newMax_apply v3 v9 v13 r u)

/-- The first direction's stored denominator. -/
theorem storedDenominator_apply (v3 : Vec Ideal S1x256x1024 .bf16) (v9 : Vec Ideal S1x256x512 .bf16) (v13 v17 v23 : Vec Ideal S1024x1 .f32) (r : Fin 1024) (u : Fin 1) :
    k0_pay19 (F := Ideal) (k0_pay18 (F := Ideal) v3 v9 v13 v17 v23) (ix2 r u)
      = Ideal.exp (v17 (ix2 r (0 : Fin 1)) - max (v13 (ix2 r (0 : Fin 1))) ((Finset.univ : Finset (Fin 512)).fold max (⊥ : EReal) fun q => (∑ c : Fin 256, v3 (ix3 (0 : Fin 1) c r) * v9 (ix3 (0 : Fin 1) c q)))) * v23 (ix2 r (0 : Fin 1))
        + ∑ q' : Fin 512, Ideal.exp ((∑ c : Fin 256, v3 (ix3 (0 : Fin 1) c r) * v9 (ix3 (0 : Fin 1) c q')) - max (v13 (ix2 r (0 : Fin 1))) ((Finset.univ : Finset (Fin 512)).fold max (⊥ : EReal) fun q => (∑ c : Fin 256, v3 (ix3 (0 : Fin 1) c r) * v9 (ix3 (0 : Fin 1) c q)))) :=
  (congrFun (pay19_eq _) _).trans (denominator_apply v3 v9 v13 v17 v23 r u)

end Cert.KernelIdeal.Payloads

end
-- ==== Proof.LibOnlineSoftmax.lean ====
import Idealize.ShloMosaic.PureOps.Ideal

/-!
# Online softmax over the extended reals, on finite data

A blocked attention kernel accumulates a softmax-weighted sum by the *online softmax*
recursion: it walks over blocks of keys, keeps a running maximum, and rescales the running
denominator and the running weighted sum whenever the maximum moves.  The reference computes
the plain softmax-weighted sum in one go.

Read exactly, every value is an extended real.  When all inputs are finite every value that
occurs is the coercion of a real number, and this file carries that through: the running sums
have REAL closed forms, the softmax quotient does not depend on the shift that was subtracted
before exponentiating, and so the kernel's result and the reference's result are the coercion
of one and the same real number.
-/

noncomputable section

namespace OnlineSoftmax

open Idealize.ShloMosaic
open scoped BigOperators

/-! ## 1. Finite sums of coerced reals -/

/-- A finite sum of coerced reals is the coercion of the real sum. -/
theorem coe_sum {ι : Type*} (σ : Finset ι) (f : ι → ℝ) :
    (∑ i ∈ σ, (f i : EReal)) = ((∑ i ∈ σ, f i : ℝ) : EReal) := by
  classical
  induction σ using Finset.induction_on with
  | empty => simp
  | insert a s ha ih => rw [Finset.sum_insert ha, Finset.sum_insert ha, ih, EReal.coe_add]

/-- A finite sum of products of coerced reals is the coercion of the real sum of products. -/
theorem coe_sum_mul {ι : Type*} (σ : Finset ι) (a b : ι → ℝ) :
    (∑ i ∈ σ, (a i : EReal) * (b i : EReal)) = ((∑ i ∈ σ, a i * b i : ℝ) : EReal) := by
  rw [← coe_sum]
  simp only [EReal.coe_mul]

/-- The exponential of a difference of two coerced reals is the coerced real exponential of
    the real difference. -/
theorem exp_sub_coe (a b : ℝ) :
    Ideal.exp ((a : EReal) - (b : EReal)) = ((Real.exp (a - b) : ℝ) : EReal) := by
  rw [← EReal.coe_sub, Ideal.exp_coe]

/-! ## 2. The running sums and their closed forms -/

/-- The running denominator of the online softmax. It starts at 0, and block k first rescales
    it by exp (m k - m (k+1)), the old stand-in maximum against the new, and then adds the
    block's exponentials taken against the new maximum. -/
def runL {w : ℕ} (m : ℕ → ℝ) (s : ℕ → Fin w → ℝ) : ℕ → EReal
  | 0 => 0
  | k + 1 =>
      Ideal.exp ((m k : EReal) - (m (k + 1) : EReal)) * runL m s k
        + ∑ j, Ideal.exp ((s k j : EReal) - (m (k + 1) : EReal))

/-- The running weighted sum of the online softmax: the same recursion as for the denominator,
    each new exponential multiplied by its value t k j. -/
def runA {w : ℕ} (m : ℕ → ℝ) (s t : ℕ → Fin w → ℝ) : ℕ → EReal
  | 0 => 0
  | k + 1 =>
      Ideal.exp ((m k : EReal) - (m (k + 1) : EReal)) * runA m s t k
        + ∑ j, Ideal.exp ((s k j : EReal) - (m (k + 1) : EReal)) * (t k j : EReal)

@[simp] theorem runL_zero {w : ℕ} (m : ℕ → ℝ) (s : ℕ → Fin w → ℝ) : runL m s 0 = 0 := rfl

theorem runL_succ {w : ℕ} (m : ℕ → ℝ) (s : ℕ → Fin w → ℝ) (k : ℕ) :
    runL m s (k + 1) =
      Ideal.exp ((m k : EReal) - (m (k + 1) : EReal)) * runL m s k
        + ∑ j, Ideal.exp ((s k j : EReal) - (m (k + 1) : EReal)) := rfl

@[simp] theorem runA_zero {w : ℕ} (m : ℕ → ℝ) (s t : ℕ → Fin w → ℝ) : runA m s t 0 = 0 := rfl

theorem runA_succ {w : ℕ} (m : ℕ → ℝ) (s t : ℕ → Fin w → ℝ) (k : ℕ) :
    runA m s t (k + 1) =
      Ideal.exp ((m k : EReal) - (m (k + 1) : EReal)) * runA m s t k
        + ∑ j, Ideal.exp ((s k j : EReal) - (m (k + 1) : EReal)) * (t k j : EReal) := rfl

/-- Closed form of the running denominator. After k blocks it is the sum over all keys seen so
    far of exp (score - m k), all taken against the CURRENT stand-in maximum: each rescaling
    exp (m k - m (k+1)) * exp (x - m k) = exp (x - m (k+1)) moves every earlier term to the
    new maximum. Nothing is assumed about m beyond its being real. -/
theorem runL_eq {w : ℕ} (m : ℕ → ℝ) (s : ℕ → Fin w → ℝ) (k : ℕ) :
    runL m s k = ((∑ k' ∈ Finset.range k, ∑ j, Real.exp (s k' j - m k) : ℝ) : EReal) := by
  induction k with
  | zero => simp
  | succ k ih =>
    rw [runL_succ, ih]
    simp only [exp_sub_coe]
    rw [coe_sum, ← EReal.coe_mul, ← EReal.coe_add, Finset.sum_range_succ, Finset.mul_sum]
    congr 2
    refine Finset.sum_congr rfl fun k' _ => ?_
    rw [Finset.mul_sum]
    refine Finset.sum_congr rfl fun j _ => ?_
    rw [← Real.exp_add]
    congr 1
    ring

/-- Closed form of the running weighted sum: the sum over all keys seen so far of
    exp (score - m k) * value. -/
theorem runA_eq {w : ℕ} (m : ℕ → ℝ) (s t : ℕ → Fin w → ℝ) (k : ℕ) :
    runA m s t k =
      ((∑ k' ∈ Finset.range k, ∑ j, Real.exp (s k' j - m k) * t k' j : ℝ) : EReal) := by
  induction k with
  | zero => simp
  | succ k ih =>
    rw [runA_succ, ih]
    simp only [exp_sub_coe]
    rw [coe_sum_mul, ← EReal.coe_mul, ← EReal.coe_add, Finset.sum_range_succ, Finset.mul_sum]
    congr 2
    refine Finset.sum_congr rfl fun k' _ => ?_
    rw [Finset.mul_sum]
    refine Finset.sum_congr rfl fun j _ => ?_
    rw [← mul_assoc, ← Real.exp_add]
    congr 2
    ring

/-! ## 3. The softmax quotient does not depend on the shift -/

/-- A sum of exponentials over a nonempty finite set is positive. -/
theorem sum_exp_pos {ι : Type*} (σ : Finset ι) (hσ : σ.Nonempty) (s : ι → ℝ) (M : ℝ) :
    0 < ∑ i ∈ σ, Real.exp (s i - M) :=
  Finset.sum_pos (fun i _ => Real.exp_pos _) hσ

/-- A sum of exponentials over a nonempty finite type is positive. -/
theorem sum_exp_pos_univ {ι : Type*} [Fintype ι] [Nonempty ι] (s : ι → ℝ) (M : ℝ) :
    0 < ∑ i, Real.exp (s i - M) :=
  sum_exp_pos Finset.univ Finset.univ_nonempty s M

/-- A sum of exponentials over a nonempty finite type is not zero. -/
theorem sum_exp_ne_zero {ι : Type*} [Fintype ι] [Nonempty ι] (s : ι → ℝ) (M : ℝ) :
    (∑ i, Real.exp (s i - M)) ≠ 0 :=
  (sum_exp_pos_univ s M).ne'

/-- Shift invariance of the softmax-weighted sum, over a finite set. Subtracting M or μ from
    every score multiplies numerator and denominator by the same positive factor
    exp (μ - M), which cancels; and dividing a sum is dividing each term. (If the set is empty
    both sides are 0, so no hypothesis is needed.) -/
theorem softmax_shift_finset {ι : Type*} (σ : Finset ι) (s t : ι → ℝ) (M μ : ℝ) :
    (∑ i ∈ σ, Real.exp (s i - M) * t i) / (∑ i ∈ σ, Real.exp (s i - M)) =
      ∑ i ∈ σ, t i * (Real.exp (s i - μ) / ∑ i' ∈ σ, Real.exp (s i' - μ)) := by
  have hsplit : ∀ i, Real.exp (s i - M) = Real.exp (μ - M) * Real.exp (s i - μ) := by
    intro i
    rw [← Real.exp_add]
    congr 1
    ring
  have hnum : (∑ i ∈ σ, Real.exp (s i - M) * t i) =
      Real.exp (μ - M) * ∑ i ∈ σ, Real.exp (s i - μ) * t i := by
    rw [Finset.mul_sum]
    refine Finset.sum_congr rfl fun i _ => ?_
    rw [hsplit i, mul_assoc]
  have hden : (∑ i ∈ σ, Real.exp (s i - M)) =
      Real.exp (μ - M) * ∑ i ∈ σ, Real.exp (s i - μ) := by
    rw [Finset.mul_sum]
    exact Finset.sum_congr rfl fun i _ => hsplit i
  rw [hnum, hden, mul_div_mul_left _ _ (Real.exp_ne_zero _), Finset.sum_div]
  refine Finset.sum_congr rfl fun i _ => ?_
  ring

/-- Shift invariance of the softmax-weighted sum, over a finite type. -/
theorem softmax_shift {ι : Type*} [Fintype ι] (s t : ι → ℝ) (M μ : ℝ) :
    (∑ i, Real.exp (s i - M) * t i) / (∑ i, Real.exp (s i - M)) =
      ∑ i, t i * (Real.exp (s i - μ) / ∑ i', Real.exp (s i' - μ)) :=
  softmax_shift_finset Finset.univ s t M μ

/-! ## 4. The two extended-real ends -/

/-- The kernel's last step: the weighted sum times the reciprocal of a nonzero real
    denominator is the coerced real quotient. -/
theorem mul_div_one_coe (A L : ℝ) (hL : L ≠ 0) :
    (A : EReal) * Ideal.div 1 (L : EReal) = ((A / L : ℝ) : EReal) := by
  rw [Ideal.div_coe hL, one_mul, ← EReal.coe_mul, mul_one_div]

/-- The quotient of two coerced reals with a nonzero denominator is the coerced real
    quotient. -/
theorem div_coe_coe (a L : ℝ) (hL : L ≠ 0) :
    Ideal.div (a : EReal) (L : EReal) = ((a / L : ℝ) : EReal) := by
  rw [Ideal.div_coe hL, ← EReal.coe_mul, mul_one_div]

/-- The reference's entry: the plain softmax-weighted sum, written with extended-real
    exponentials and an extended-real quotient, is the coercion of the real
    softmax-weighted sum. -/
theorem reference_coe {ι : Type*} [Fintype ι] [Nonempty ι] (s t : ι → ℝ) (μ : ℝ) :
    (∑ i, (t i : EReal) *
        Ideal.div (Ideal.exp ((s i : EReal) - (μ : EReal)))
          (∑ i', Ideal.exp ((s i' : EReal) - (μ : EReal)))) =
      ((∑ i, t i * (Real.exp (s i - μ) / ∑ i', Real.exp (s i' - μ)) : ℝ) : EReal) := by
  simp only [exp_sub_coe]
  rw [coe_sum]
  simp only [div_coe_coe _ _ (sum_exp_ne_zero s μ)]
  rw [coe_sum_mul]

/-- The reference's entry with the denominator accumulated from 0. -/
theorem reference_coe_zero_add {ι : Type*} [Fintype ι] [Nonempty ι] (s t : ι → ℝ) (μ : ℝ) :
    (∑ i, (t i : EReal) *
        Ideal.div (Ideal.exp ((s i : EReal) - (μ : EReal)))
          ((0 : EReal) + ∑ i', Ideal.exp ((s i' : EReal) - (μ : EReal)))) =
      ((∑ i, t i * (Real.exp (s i - μ) / ∑ i', Real.exp (s i' - μ)) : ℝ) : EReal) := by
  rw [zero_add]
  exact reference_coe s t μ

/-! ## 5. Maxima of finite data stay real -/

/-- The coercion of reals into the extended reals is monotone, so it commutes with max. -/
theorem coe_max (a b : ℝ) : ((max a b : ℝ) : EReal) = max (a : EReal) (b : EReal) :=
  EReal.coe_strictMono.monotone.map_max

/-- The maximum of a coerced real with the running maximum (started at -∞) of finitely many
    coerced reals is the coercion of the real running maximum started at that real. -/
theorem max_fold_coe {ι : Type*} (σ : Finset ι) (m : ℝ) (f : ι → ℝ) :
    max (m : EReal) (σ.fold max (⊥ : EReal) fun i => (f i : EReal)) =
      ((σ.fold max m f : ℝ) : EReal) := by
  classical
  induction σ using Finset.induction_on with
  | empty => simp
  | insert a s ha ih =>
    rw [Finset.fold_insert ha, Finset.fold_insert ha, coe_max, ← ih, max_left_comm]

/-- The maximum of a real with finitely many reals is real. -/
theorem exists_max_fold_coe {ι : Type*} [Fintype ι] (m : ℝ) (f : ι → ℝ) :
    ∃ r : ℝ, max (m : EReal) (Finset.univ.fold max (⊥ : EReal) fun i => (f i : EReal)) =
      (r : EReal) :=
  ⟨_, max_fold_coe Finset.univ m f⟩

/-- The running maximum (started at -∞) of a nonempty finite family of reals is real. -/
theorem exists_fold_coe {ι : Type*} [Fintype ι] [Nonempty ι] (f : ι → ℝ) :
    ∃ r : ℝ, (Finset.univ.fold max (⊥ : EReal) fun i => (f i : EReal)) = (r : EReal) := by
  classical
  obtain ⟨i₀⟩ := ‹Nonempty ι›
  rw [← Finset.insert_erase (Finset.mem_univ i₀),
    Finset.fold_insert (Finset.notMem_erase i₀ Finset.univ)]
  exact ⟨_, max_fold_coe _ (f i₀) f⟩

/-- The same with one more maximum against -∞ in front. -/
theorem exists_bot_max_fold_coe {ι : Type*} [Fintype ι] [Nonempty ι] (f : ι → ℝ) :
    ∃ r : ℝ, max (⊥ : EReal) (Finset.univ.fold max (⊥ : EReal) fun i => (f i : EReal)) =
      (r : EReal) := by
  rw [max_bot_left]
  exact exists_fold_coe f

/-! ## 6. The assembled statement -/

/-- Online softmax equals plain softmax. With K > 0 blocks of w > 0 keys, the kernel's final
    quotient (running weighted sum times the reciprocal of the running denominator) is the
    coercion of the plain softmax-weighted sum over all K * w keys, whatever real μ the
    reference subtracts before exponentiating, and whatever real stand-in maxima m the
    kernel used along the way. -/
theorem online_eq_reference {w K : ℕ} (hK : 0 < K) (hw : 0 < w) (m : ℕ → ℝ)
    (s t : ℕ → Fin w → ℝ) (μ : ℝ) :
    runA m s t K * Ideal.div 1 (runL m s K) =
      ((∑ p : Fin K × Fin w, t p.1 p.2 *
          (Real.exp (s p.1 p.2 - μ) / ∑ p' : Fin K × Fin w, Real.exp (s p'.1 p'.2 - μ)) : ℝ) :
        EReal) := by
  haveI : Nonempty (Fin K × Fin w) := ⟨(⟨0, hK⟩, ⟨0, hw⟩)⟩
  have hL : (∑ k' ∈ Finset.range K, ∑ j, Real.exp (s k' j - m K)) =
      ∑ p : Fin K × Fin w, Real.exp (s p.1 p.2 - m K) := by
    rw [Finset.sum_range, Fintype.sum_prod_type]
  have hA : (∑ k' ∈ Finset.range K, ∑ j, Real.exp (s k' j - m K) * t k' j) =
      ∑ p : Fin K × Fin w, Real.exp (s p.1 p.2 - m K) * t p.1 p.2 := by
    rw [Finset.sum_range, Fintype.sum_prod_type]
  rw [runA_eq, runL_eq, hL, hA,
    mul_div_one_coe _ _ (sum_exp_ne_zero (fun p : Fin K × Fin w => s p.1 p.2) (m K)),
    softmax_shift (fun p : Fin K × Fin w => s p.1 p.2) (fun p : Fin K × Fin w => t p.1 p.2)
      (m K) μ]

/-- The same when the kernel divides directly instead of multiplying by a reciprocal. -/
theorem online_div_eq_reference {w K : ℕ} (hK : 0 < K) (hw : 0 < w) (m : ℕ → ℝ)
    (s t : ℕ → Fin w → ℝ) (μ : ℝ) :
    Ideal.div (runA m s t K) (runL m s K) =
      ((∑ p : Fin K × Fin w, t p.1 p.2 *
          (Real.exp (s p.1 p.2 - μ) / ∑ p' : Fin K × Fin w, Real.exp (s p'.1 p'.2 - μ)) : ℝ) :
        EReal) := by
  haveI : Nonempty (Fin K × Fin w) := ⟨(⟨0, hK⟩, ⟨0, hw⟩)⟩
  have hL : (∑ k' ∈ Finset.range K, ∑ j, Real.exp (s k' j - m K)) =
      ∑ p : Fin K × Fin w, Real.exp (s p.1 p.2 - m K) := by
    rw [Finset.sum_range, Fintype.sum_prod_type]
  have hA : (∑ k' ∈ Finset.range K, ∑ j, Real.exp (s k' j - m K) * t k' j) =
      ∑ p : Fin K × Fin w, Real.exp (s p.1 p.2 - m K) * t p.1 p.2 := by
    rw [Finset.sum_range, Fintype.sum_prod_type]
  rw [runA_eq, runL_eq, hL, hA,
    div_coe_coe _ _ (sum_exp_ne_zero (fun p : Fin K × Fin w => s p.1 p.2) (m K)),
    softmax_shift (fun p : Fin K × Fin w => s p.1 p.2) (fun p : Fin K × Fin w => t p.1 p.2)
      (m K) μ]

end OnlineSoftmax
-- ==== Proof.LibSoftmaxReal.lean ====
import proofs.«154790_j27118423507780_2_alg».proof.Proof.LibOnlineSoftmax

/-!
# The softmax-weighted mean as one real number

For real scores `s` and real values `t` over a finite index type, `softAt s t` is the mean of `t` under the softmax
weights of `s`: the sum over `i` of `t i * (exp (s i) / Σ exp (s i'))`. It does not change when a constant is
subtracted from every score, nor when the index type is renamed along a bijection. The reference's entry — the
weighted sum written over the extended reals, with the row maximum (taken from minus infinity) subtracted before
exponentiating — and the online recursion's final quotient are both the coercion of this one real number.
-/

noncomputable section

namespace OnlineSoftmax

open Idealize.ShloMosaic
open scoped BigOperators

/-- The mean of `t` under the softmax weights of the scores `s`. -/
def softAt {ι : Type*} [Fintype ι] (s t : ι → ℝ) : ℝ := ∑ i, t i * (Real.exp (s i) / ∑ i', Real.exp (s i'))

/-- Subtracting a constant from every score leaves the softmax-weighted mean as it was. -/
theorem softAt_shift {ι : Type*} [Fintype ι] (s t : ι → ℝ) (μ : ℝ) :
    (∑ i, t i * (Real.exp (s i - μ) / ∑ i', Real.exp (s i' - μ))) = softAt s t := by
  unfold softAt
  refine (softmax_shift s t μ μ).symm.trans ((softmax_shift s t μ 0).trans ?_)
  simp only [sub_zero]

/-- Renaming the indices along a bijection leaves the softmax-weighted mean as it was. -/
theorem softAt_equiv {ι κ : Type*} [Fintype ι] [Fintype κ] (e : κ ≃ ι) (s t : ι → ℝ) :
    softAt (s ∘ e) (t ∘ e) = softAt s t := by
  unfold softAt
  have hden : (∑ k', Real.exp ((s ∘ e) k')) = ∑ i', Real.exp (s i') :=
    Equiv.sum_comp e (fun i' => Real.exp (s i'))
  rw [hden]
  exact Equiv.sum_comp e (fun i => t i * (Real.exp (s i) / ∑ i', Real.exp (s i')))

/-- The reference's entry — values times the quotient of the exponentials of the scores less their maximum (the maximum
    taken from minus infinity, and once more against minus infinity) by the sum of those exponentials — is the
    coercion of the softmax-weighted mean. -/
theorem reference_eq_softAt {ι : Type*} [Fintype ι] [Nonempty ι] (s t : ι → ℝ) :
    (∑ i, (t i : EReal) *
        Ideal.div (Ideal.exp ((s i : EReal) - max (⊥ : EReal) (Finset.univ.fold max (⊥ : EReal) fun i => (s i : EReal))))
          (∑ i', Ideal.exp ((s i' : EReal) - max (⊥ : EReal) (Finset.univ.fold max (⊥ : EReal) fun i => (s i : EReal)))))
      = ((softAt s t : ℝ) : EReal) := by
  obtain ⟨μ, hμ⟩ := exists_bot_max_fold_coe s
  rw [hμ, reference_coe, softAt_shift]

/-- The online recursion's final quotient is the coercion of the softmax-weighted mean over all the keys. -/
theorem online_eq_softAt {w K : ℕ} (hK : 0 < K) (hw : 0 < w) (m : ℕ → ℝ) (s t : ℕ → Fin w → ℝ) :
    runA m s t K * Ideal.div 1 (runL m s K)
      = ((softAt (fun p : Fin K × Fin w => s p.1 p.2) (fun p => t p.1 p.2) : ℝ) : EReal) :=
  (online_eq_reference hK hw m s t 0).trans
    (congrArg (fun r : ℝ => (r : EReal)) (softAt_shift (fun p : Fin K × Fin w => s p.1 p.2) (fun p => t p.1 p.2) 0))

end OnlineSoftmax

end
-- ==== Proof.FlashStep.lean ====
/-
  One key block of the online softmax, read at a row. Given the query block's row and the key block as real numbers
  and the running maximum μ a real, the body's new running maximum is the real max(μ, max_q s_q) of the block's scores
  s_q = Σ_c x_c · y_{c,q}; the new normaliser is e^{μ-μ'} times the old one plus Σ_q e^{s_q-μ'}; the new accumulator
  entry is e^{μ-μ'} times the old one plus Σ_q e^{s_q-μ'} times the value. The same for the second direction, and the
  last block's output entry: accumulator times the reciprocal of the normaliser, plus the residual.
-/
import proofs.«154790_j27118423507780_2_alg».proof.Proof.KernelPayloads
import proofs.«154790_j27118423507780_2_alg».proof.Proof.LibSoftmaxReal

noncomputable section

namespace Cert.KernelIdeal.Online

open Idealize.ShloMosaic Idealize.ShloMosaic.ValueIdx Cert.KernelIdeal Cert.KernelIdeal.Gen Cert.KernelIdeal.Payloads OnlineSoftmax

/-- The block's real scores at a row. -/
def scoreRow (xr : Fin 256 → ℝ) (yk : Fin 256 → Fin 512 → ℝ) (q : Fin 512) : ℝ := ∑ c : Fin 256, xr c * yk c q

/-- The new running maximum, as a real. -/
def nextMax (μ : ℝ) (s : Fin 512 → ℝ) : ℝ := (Finset.univ : Finset (Fin 512)).fold max μ s

theorem scores_coe (x0 : Vec Ideal S1x256x1024 .bf16) (x3 : Vec Ideal S1x256x512 .bf16) (r : Fin 1024)
    (xr : Fin 256 → ℝ) (yk : Fin 256 → Fin 512 → ℝ) (hx : ∀ c, x0 (ix3 (0 : Fin 1) c r) = ((xr c : ℝ) : EReal))
    (hy : ∀ c q, x3 (ix3 (0 : Fin 1) c q) = ((yk c q : ℝ) : EReal)) (q : Fin 512) :
    (∑ c : Fin 256, x0 (ix3 (0 : Fin 1) c r) * x3 (ix3 (0 : Fin 1) c q)) = ((scoreRow xr yk q : ℝ) : EReal) := by
  simp only [hx, hy]; exact coe_sum_mul _ _ _

/-- First direction (query rows of V against keys and values of T): one key block at row `r`. -/
theorem stepV (x0 : Vec Ideal S1x256x1024 .bf16) (x3 : Vec Ideal S1x256x512 .bf16) (pm ps : Vec Ideal S1024x1 .f32) (pa : Vec Ideal S1024x256 .f32)
    (r : Fin 1024) (xr : Fin 256 → ℝ) (yk : Fin 256 → Fin 512 → ℝ) (hx : ∀ c, x0 (ix3 (0 : Fin 1) c r) = ((xr c : ℝ) : EReal))
    (hy : ∀ c q, x3 (ix3 (0 : Fin 1) c q) = ((yk c q : ℝ) : EReal)) (μ : ℝ) (hm : pm (ix2 r (0 : Fin 1)) = ((μ : ℝ) : EReal)) :
    k0_pay21 (F := Ideal) (k0_pay15 (F := Ideal) x0 x3 pm) (ix2 r (0 : Fin 1)) = ((nextMax μ (scoreRow xr yk) : ℝ) : EReal)
    ∧ k0_pay19 (F := Ideal) (k0_pay18 (F := Ideal) x0 x3 pm pm ps) (ix2 r (0 : Fin 1))
        = Ideal.exp ((μ : EReal) - (nextMax μ (scoreRow xr yk) : ℝ)) * ps (ix2 r (0 : Fin 1))
          + ∑ q : Fin 512, Ideal.exp ((scoreRow xr yk q : ℝ) - ((nextMax μ (scoreRow xr yk) : ℝ) : EReal))
    ∧ ∀ ch : Fin 256, k0_pay20 (F := Ideal) (k0_pay12 (F := Ideal) x3) (k0_pay16 (F := Ideal) x0 x3 pm pm) (k0_pay17 (F := Ideal) x0 x3 pm) pa (ix2 r ch)
        = Ideal.exp ((μ : EReal) - (nextMax μ (scoreRow xr yk) : ℝ)) * pa (ix2 r ch)
          + ∑ q : Fin 512, Ideal.exp ((scoreRow xr yk q : ℝ) - ((nextMax μ (scoreRow xr yk) : ℝ) : EReal)) * ((yk ch q : ℝ) : EReal) := by
  have hM : max (pm (ix2 r (0 : Fin 1))) ((Finset.univ : Finset (Fin 512)).fold max (⊥ : EReal) fun q => ∑ c : Fin 256, x0 (ix3 (0 : Fin 1) c r) * x3 (ix3 (0 : Fin 1) c q))
      = ((nextMax μ (scoreRow xr yk) : ℝ) : EReal) := by
    rw [hm]; simp only [scores_coe x0 x3 r xr yk hx hy]; exact max_fold_coe _ _ _
  refine ⟨?_, ?_, fun ch => ?_⟩
  · rw [storedMax_apply, hM]
  · rw [storedDenominator_apply, hM, hm]; simp only [scores_coe x0 x3 r xr yk hx hy]
  · rw [weightedSum_apply, hM, hm]; simp only [scores_coe x0 x3 r xr yk hx hy]; simp only [hy]

/-- Second direction (query rows of T against keys and values of V): one key block at row `r`. -/
theorem stepT (x1 : Vec Ideal S1x256x1024 .bf16) (x2 : Vec Ideal S1x256x512 .bf16) (pm ps : Vec Ideal S1024x1 .f32) (pa : Vec Ideal S1024x256 .f32)
    (r : Fin 1024) (xr : Fin 256 → ℝ) (yk : Fin 256 → Fin 512 → ℝ) (hx : ∀ c, x1 (ix3 (0 : Fin 1) c r) = ((xr c : ℝ) : EReal))
    (hy : ∀ c q, x2 (ix3 (0 : Fin 1) c q) = ((yk c q : ℝ) : EReal)) (μ : ℝ) (hm : pm (ix2 r (0 : Fin 1)) = ((μ : ℝ) : EReal)) :
    k0_pay2 (F := Ideal) (k0_pay22 (F := Ideal) (k0_pay14 (F := Ideal) x1 x2) pm) (ix2 r (0 : Fin 1)) = ((nextMax μ (scoreRow xr yk) : ℝ) : EReal)
    ∧ k0_pay25 (F := Ideal) (k0_pay14 (F := Ideal) x1 x2) pm pm ps (ix2 r (0 : Fin 1))
        = Ideal.exp ((μ : EReal) - (nextMax μ (scoreRow xr yk) : ℝ)) * ps (ix2 r (0 : Fin 1))
          + ∑ q : Fin 512, Ideal.exp ((scoreRow xr yk q : ℝ) - ((nextMax μ (scoreRow xr yk) : ℝ) : EReal))
    ∧ ∀ ch : Fin 256, k0_pay1 (F := Ideal) (k0_pay26 (F := Ideal) (k0_pay14 (F := Ideal) x1 x2) pm pm pa) (k0_pay27 (F := Ideal) (k0_pay11 (F := Ideal) x2) (k0_pay14 (F := Ideal) x1 x2) pm) (ix2 r ch)
        = Ideal.exp ((μ : EReal) - (nextMax μ (scoreRow xr yk) : ℝ)) * pa (ix2 r ch)
          + ∑ q : Fin 512, Ideal.exp ((scoreRow xr yk q : ℝ) - ((nextMax μ (scoreRow xr yk) : ℝ) : EReal)) * ((yk ch q : ℝ) : EReal) := by
  have hM : max (pm (ix2 r (0 : Fin 1))) ((Finset.univ : Finset (Fin 512)).fold max (⊥ : EReal) fun q => ∑ c : Fin 256, x1 (ix3 (0 : Fin 1) c r) * x2 (ix3 (0 : Fin 1) c q))
      = ((nextMax μ (scoreRow xr yk) : ℝ) : EReal) := by
    rw [hm]; simp only [scores_coe x1 x2 r xr yk hx hy]; exact max_fold_coe _ _ _
  refine ⟨?_, ?_, fun ch => ?_⟩
  · rw [storedMax2_apply, hM]
  · rw [denominator2_apply, hM, hm]; simp only [scores_coe x1 x2 r xr yk hx hy]
  · rw [weightedSum2_apply, hM, hm]; simp only [scores_coe x1 x2 r xr yk hx hy]; simp only [hy]

/-! ## The row invariant -/

/-- One direction's state at a row after `k` key blocks: the running maximum is the real `mu k`, the normaliser and each
    accumulator entry are the online-softmax running sums over the first `k` blocks. -/
structure RowInv (pm ps : Vec Ideal S1024x1 .f32) (pa : Vec Ideal S1024x256 .f32) (r : Fin 1024) (mu : ℕ → ℝ) (s : ℕ → Fin 512 → ℝ)
    (tv : Fin 256 → ℕ → Fin 512 → ℝ) (k : ℕ) : Prop where
  hm : pm (ix2 r (0 : Fin 1)) = ((mu k : ℝ) : EReal)
  hl : ps (ix2 r (0 : Fin 1)) = runL mu s k
  ha : ∀ ch : Fin 256, pa (ix2 r ch) = runA mu s (tv ch) k

/-- The finite stand-in for the maximum is a real. -/
theorem negBig_real : ∃ r : ℝ, Ideal.ofBits .f32 0xFF333332#32 = ((r : ℝ) : EReal) := by
  unfold Ideal.ofBits Ideal.ieee
  dsimp only
  rw [if_neg (by decide), if_neg (by decide)]
  exact ⟨_, rfl⟩

/-- The stand-in, as a real. -/
def negBig : ℝ := negBig_real.choose
theorem negBig_spec : Ideal.ofBits .f32 0xFF333332#32 = ((negBig : ℝ) : EReal) := negBig_real.choose_spec

/-- After the reset (first direction): nothing summed yet. -/
theorem rowInitV (r : Fin 1024) (mu : ℕ → ℝ) (s : ℕ → Fin 512 → ℝ) (tv : Fin 256 → ℕ → Fin 512 → ℝ) (h0 : mu 0 = negBig) :
    RowInv (k0_pay5 (F := Ideal)) (k0_pay6 (F := Ideal)) (k0_pay7 (F := Ideal)) r mu s tv 0 :=
  ⟨by rw [pay5_apply, negBig_spec, h0], by rw [pay6_apply, runL_zero], fun ch => by rw [pay7_apply, runA_zero]⟩

/-- After the reset (second direction). -/
theorem rowInitT (r : Fin 1024) (mu : ℕ → ℝ) (s : ℕ → Fin 512 → ℝ) (tv : Fin 256 → ℕ → Fin 512 → ℝ) (h0 : mu 0 = negBig) :
    RowInv (k0_pay8 (F := Ideal)) (k0_pay9 (F := Ideal)) (k0_pay10 (F := Ideal)) r mu s tv 0 :=
  ⟨by rw [pay8_apply, negBig_spec, h0], by rw [pay9_apply, runL_zero], fun ch => by rw [pay10_apply, runA_zero]⟩

/-- One key block keeps the invariant (first direction). -/
theorem rowStepV (x0 : Vec Ideal S1x256x1024 .bf16) (x3 : Vec Ideal S1x256x512 .bf16) (pm ps : Vec Ideal S1024x1 .f32) (pa : Vec Ideal S1024x256 .f32)
    (r : Fin 1024) (xr : Fin 256 → ℝ) (yk : Fin 256 → Fin 512 → ℝ) (hx : ∀ c, x0 (ix3 (0 : Fin 1) c r) = ((xr c : ℝ) : EReal))
    (hy : ∀ c q, x3 (ix3 (0 : Fin 1) c q) = ((yk c q : ℝ) : EReal))
    (mu : ℕ → ℝ) (s : ℕ → Fin 512 → ℝ) (tv : Fin 256 → ℕ → Fin 512 → ℝ) (k : ℕ)
    (hs : s k = scoreRow xr yk) (ht : ∀ ch, tv ch k = yk ch) (hmu : mu (k + 1) = nextMax (mu k) (s k))
    (h : RowInv pm ps pa r mu s tv k) :
    RowInv (k0_pay21 (F := Ideal) (k0_pay15 (F := Ideal) x0 x3 pm)) (k0_pay19 (F := Ideal) (k0_pay18 (F := Ideal) x0 x3 pm pm ps))
      (k0_pay20 (F := Ideal) (k0_pay12 (F := Ideal) x3) (k0_pay16 (F := Ideal) x0 x3 pm pm) (k0_pay17 (F := Ideal) x0 x3 pm) pa) r mu s tv (k + 1) := by
  obtain ⟨e1, e2, e3⟩ := stepV x0 x3 pm ps pa r xr yk hx hy (mu k) h.hm
  refine ⟨?_, ?_, fun ch => ?_⟩
  · rw [e1, hmu, hs]
  · rw [e2, h.hl, runL_succ, hmu, hs]
  · rw [e3 ch, h.ha ch, runA_succ, hmu, hs, ht ch]

/-- One key block keeps the invariant (second direction). -/
theorem rowStepT (x1 : Vec Ideal S1x256x1024 .bf16) (x2 : Vec Ideal S1x256x512 .bf16) (pm ps : Vec Ideal S1024x1 .f32) (pa : Vec Ideal S1024x256 .f32)
    (r : Fin 1024) (xr : Fin 256 → ℝ) (yk : Fin 256 → Fin 512 → ℝ) (hx : ∀ c, x1 (ix3 (0 : Fin 1) c r) = ((xr c : ℝ) : EReal))
    (hy : ∀ c q, x2 (ix3 (0 : Fin 1) c q) = ((yk c q : ℝ) : EReal))
    (mu : ℕ → ℝ) (s : ℕ → Fin 512 → ℝ) (tv : Fin 256 → ℕ → Fin 512 → ℝ) (k : ℕ)
    (hs : s k = scoreRow xr yk) (ht : ∀ ch, tv ch k = yk ch) (hmu : mu (k + 1) = nextMax (mu k) (s k))
    (h : RowInv pm ps pa r mu s tv k) :
    RowInv (k0_pay2 (F := Ideal) (k0_pay22 (F := Ideal) (k0_pay14 (F := Ideal) x1 x2) pm)) (k0_pay25 (F := Ideal) (k0_pay14 (F := Ideal) x1 x2) pm pm ps)
      (k0_pay1 (F := Ideal) (k0_pay26 (F := Ideal) (k0_pay14 (F := Ideal) x1 x2) pm pm pa) (k0_pay27 (F := Ideal) (k0_pay11 (F := Ideal) x2) (k0_pay14 (F := Ideal) x1 x2) pm)) r mu s tv (k + 1) := by
  obtain ⟨e1, e2, e3⟩ := stepT x1 x2 pm ps pa r xr yk hx hy (mu k) h.hm
  refine ⟨?_, ?_, fun ch => ?_⟩
  · rw [e1, hmu, hs]
  · rw [e2, h.hl, runL_succ, hmu, hs]
  · rw [e3 ch, h.ha ch, runA_succ, hmu, hs, ht ch]

/-- The output entry at the last block: the accumulator over the normaliser is the softmax-weighted mean of the values
    over all eight key blocks, and the residual is added. -/
theorem outEntryV (x4 : Vec Ideal S1x256x1024 .f32) (pm ps : Vec Ideal S1024x1 .f32) (pa : Vec Ideal S1024x256 .f32) (r : Fin 1024) (ch : Fin 256)
    (mu : ℕ → ℝ) (s : ℕ → Fin 512 → ℝ) (tv : Fin 256 → ℕ → Fin 512 → ℝ) (h : RowInv pm ps pa r mu s tv 8)
    (xres : ℝ) (hx4 : x4 (ix3 (0 : Fin 1) ch r) = ((xres : ℝ) : EReal)) :
    k0_pay3 (F := Ideal) x4 pa ps (ix3 (0 : Fin 1) r ch)
      = ((softAt (fun p : Fin 8 × Fin 512 => s p.1 p.2) (fun p => tv ch p.1 p.2) + xres : ℝ) : EReal) := by
  rw [output_apply, h.ha ch, h.hl, hx4, online_eq_softAt (by norm_num) (by norm_num), EReal.coe_add]

/-- The same for the second direction's output. -/
theorem outEntryT (x5 : Vec Ideal S1x256x1024 .f32) (pm ps : Vec Ideal S1024x1 .f32) (pa : Vec Ideal S1024x256 .f32) (r : Fin 1024) (ch : Fin 256)
    (mu : ℕ → ℝ) (s : ℕ → Fin 512 → ℝ) (tv : Fin 256 → ℕ → Fin 512 → ℝ) (h : RowInv pm ps pa r mu s tv 8)
    (xres : ℝ) (hx5 : x5 (ix3 (0 : Fin 1) ch r) = ((xres : ℝ) : EReal)) :
    k0_pay4 (F := Ideal) x5 pa ps (ix3 (0 : Fin 1) r ch)
      = ((softAt (fun p : Fin 8 × Fin 512 => s p.1 p.2) (fun p => tv ch p.1 p.2) + xres : ℝ) : EReal) := by
  rw [output2_apply, h.ha ch, h.hl, hx5, online_eq_softAt (by norm_num) (by norm_num), EReal.coe_add]

end Cert.KernelIdeal.Online

end
-- ==== Proof.FlashOnline.lean ====
/-
  The attention kernel's result over the reals. For finite arguments every entry the kernel keeps is a real: along a
  run of eight key blocks the running maximum is a real, and the normaliser and the accumulator are the online-softmax
  running sums; at the last block the accumulator over the normaliser is the softmax-weighted mean of the values over
  all 4096 keys (in eight blocks of 512), to which the residual is added. Read through the output windows and the five
  later host operations, that is the result array entry by entry.
-/
import proofs.«154790_j27118423507780_2_alg».proof.Proof.FlashPieces
import proofs.«154790_j27118423507780_2_alg».proof.Proof.FlashLayout
import proofs.«154790_j27118423507780_2_alg».proof.Proof.FlashStep

set_option maxRecDepth 16384

noncomputable section

namespace Cert.KernelIdeal.Flash

open Cert.KernelIdeal Cert.KernelIdeal.Gen Cert.KernelIdeal.Online
open Idealize.ShloMosaic Idealize.ShloMosaic.TcCoe Idealize.ShloMosaic.ValueIdx OnlineSoftmax
open Idealize.SL.Sem

variable (m : (ℓ : Loc nD τ sig) → Buf (Elt Ideal) ℓ) (c : Dev nD)
variable (x y : S4x256x64x64.Idx → ℝ)

/-- A real array read through its flattening: entry (b, ch, n) is the array at pixel (n / 64, n % 64). -/
def flat (x : S4x256x64x64.Idx → ℝ) (b : Fin 4) (ch : Fin 256) (n : Fin 4096) : ℝ :=
  x (ix4 b ch (⟨n.val / 64, by have := n.isLt; omega⟩ : Fin 64) (⟨n.val % 64, Nat.mod_lt _ (by decide)⟩ : Fin 64))

/-- The position of row `r` of query block `qi`, and of column `q` of key block `k`. -/
def qPos (qi : Fin 4) (r : Fin 1024) : Fin 4096 := ⟨qi.val * 1024 + r.val, by have := qi.isLt; have := r.isLt; omega⟩
def kPos (k : ℕ) (q : Fin 512) : Fin 4096 := ⟨(k % 8) * 512 + q.val, by have := Nat.mod_lt k (by decide : 0 < 8); have := q.isLt; omega⟩

/-- The point (b, qi, k) of the grid. -/
def pt (b qi : Fin 4) (k : ℕ) (hk : k < 8) : Fin cfg0.N := ⟨b.val * 32 + qi.val * 8 + k, by have := b.isLt; have := qi.isLt; have : cfg0.N = 128 := N_0; omega⟩

theorem pt_b (b qi : Fin 4) (k : ℕ) (hk : k < 8) : (pt b qi k hk).val / 32 = b.val := by
  have := qi.isLt; show (b.val * 32 + qi.val * 8 + k) / 32 = b.val; omega
theorem pt_q (b qi : Fin 4) (k : ℕ) (hk : k < 8) : ((pt b qi k hk).val / 8) % 4 = qi.val := by
  have := qi.isLt; show ((b.val * 32 + qi.val * 8 + k) / 8) % 4 = qi.val; omega
theorem pt_k (b qi : Fin 4) (k : ℕ) (hk : k < 8) : (pt b qi k hk).val % 8 = k := by
  show (b.val * 32 + qi.val * 8 + k) % 8 = k; omega

section Blocks

variable (hx : ∀ i, (m ((c : Thread nD τ).loc main_arg0) : S4x256x64x64.Idx → EReal) i = ((x i : ℝ) : EReal))
variable (hy : ∀ i, (m ((c : Thread nD τ).loc main_arg1) : S4x256x64x64.Idx → EReal) i = ((y i : ℝ) : EReal))

include hx in
/-- The query block of the first argument's bf16 copy at a row is the argument's real row. -/
theorem blk0 (b qi : Fin 4) (k : ℕ) (hk : k < 8) (ch : Fin 256) (r : Fin 1024) :
    (iblk m c 0 (pt b qi k hk) : S1x256x1024.Idx → EReal) (ix3 (0 : Fin 1) ch r) = ((flat x b ch (qPos qi r) : ℝ) : EReal) := by
  rw [iblk0_apply, V_v2_apply, V_v0_apply, hx]
  unfold flat qPos
  simp only [pt_b, pt_q, Fin.eta]

include hy in
theorem blk1 (b qi : Fin 4) (k : ℕ) (hk : k < 8) (ch : Fin 256) (r : Fin 1024) :
    (iblk m c 1 (pt b qi k hk) : S1x256x1024.Idx → EReal) (ix3 (0 : Fin 1) ch r) = ((flat y b ch (qPos qi r) : ℝ) : EReal) := by
  rw [iblk1_apply, V_v3_apply, V_v1_apply, hy]
  unfold flat qPos
  simp only [pt_b, pt_q, Fin.eta]

include hx in
theorem blk2 (b qi : Fin 4) (k : ℕ) (hk : k < 8) (ch : Fin 256) (q : Fin 512) :
    (iblk m c 2 (pt b qi k hk) : S1x256x512.Idx → EReal) (ix3 (0 : Fin 1) ch q) = ((flat x b ch (kPos k q) : ℝ) : EReal) := by
  rw [iblk2_apply, V_v2_apply, V_v0_apply, hx]
  unfold flat kPos
  simp only [pt_b, pt_k, Fin.eta, Nat.mod_eq_of_lt hk]

include hy in
theorem blk3 (b qi : Fin 4) (k : ℕ) (hk : k < 8) (ch : Fin 256) (q : Fin 512) :
    (iblk m c 3 (pt b qi k hk) : S1x256x512.Idx → EReal) (ix3 (0 : Fin 1) ch q) = ((flat y b ch (kPos k q) : ℝ) : EReal) := by
  rw [iblk3_apply, V_v3_apply, V_v1_apply, hy]
  unfold flat kPos
  simp only [pt_b, pt_k, Fin.eta, Nat.mod_eq_of_lt hk]

include hx in
theorem blk4 (b qi : Fin 4) (k : ℕ) (hk : k < 8) (ch : Fin 256) (r : Fin 1024) :
    (iblk m c 4 (pt b qi k hk) : S1x256x1024.Idx → EReal) (ix3 (0 : Fin 1) ch r) = ((flat x b ch (qPos qi r) : ℝ) : EReal) := by
  rw [iblk4_apply, V_v0_apply, hx]
  unfold flat qPos
  simp only [pt_b, pt_q, Fin.eta]

include hy in
theorem blk5 (b qi : Fin 4) (k : ℕ) (hk : k < 8) (ch : Fin 256) (r : Fin 1024) :
    (iblk m c 5 (pt b qi k hk) : S1x256x1024.Idx → EReal) (ix3 (0 : Fin 1) ch r) = ((flat y b ch (qPos qi r) : ℝ) : EReal) := by
  rw [iblk5_apply, V_v1_apply, hy]
  unfold flat qPos
  simp only [pt_b, pt_q, Fin.eta]

end Blocks

/-! ## The sequences of a run -/

/-- Scores of query row (qi, r) of `u` against key block `k` of `v`, the values of channel `ch`, and the running maxima. -/
def runS (u v : S4x256x64x64.Idx → ℝ) (b qi : Fin 4) (r : Fin 1024) : ℕ → Fin 512 → ℝ :=
  fun k => scoreRow (fun c' => flat u b c' (qPos qi r)) (fun c' q => flat v b c' (kPos k q))
def runT (v : S4x256x64x64.Idx → ℝ) (b : Fin 4) (ch : Fin 256) : ℕ → Fin 512 → ℝ := fun k q => flat v b ch (kPos k q)
def runMu (u v : S4x256x64x64.Idx → ℝ) (b qi : Fin 4) (r : Fin 1024) : ℕ → ℝ
  | 0 => negBig
  | k + 1 => nextMax (runMu u v b qi r k) (runS u v b qi r k)

/-- Both directions' state at row `r` after point (b, qi, k). -/
def BothInv (b qi : Fin 4) (r : Fin 1024) (k : ℕ) (p : Carried Ideal) : Prop :=
  RowInv p.maxV p.sumV p.accV r (runMu x y b qi r) (runS x y b qi r) (fun ch => runT y b ch) (k + 1)
  ∧ RowInv p.maxT p.sumT p.accT r (runMu y x b qi r) (runS y x b qi r) (fun ch => runT x b ch) (k + 1)

section Induction

variable (hx : ∀ i, (m ((c : Thread nD τ).loc main_arg0) : S4x256x64x64.Idx → EReal) i = ((x i : ℝ) : EReal))
variable (hy : ∀ i, (m ((c : Thread nD τ).loc main_arg1) : S4x256x64x64.Idx → EReal) i = ((y i : ℝ) : EReal))

include hx hy in
/-- Along a run of eight key blocks the invariant holds after every point. -/
theorem inv_run (b qi : Fin 4) (r : Fin 1024) : ∀ (k : ℕ) (hk : k < 8),
    BothInv x y b qi r k (outsAt m c (pt b qi k hk).val (pt b qi k hk).isLt) := by
  intro k
  induction k with
  | zero =>
    intro hk
    have h0 : (pt b qi 0 hk).val % 8 = 0 := pt_k b qi 0 hk
    rw [outsAt_first m c (pt b qi 0 hk) h0]
    unfold BothInv
    rw [first_maxV, first_sumV, first_accV, first_maxT, first_sumT, first_accT]
    exact ⟨rowStepV _ _ _ _ _ r _ _ (fun c' => blk0 m c x hx b qi 0 hk c' r) (fun c' q => blk3 m c y hy b qi 0 hk c' q) _ _ _ 0 rfl (fun ch => rfl) rfl
        (rowInitV r _ _ _ rfl),
      rowStepT _ _ _ _ _ r _ _ (fun c' => blk1 m c y hy b qi 0 hk c' r) (fun c' q => blk2 m c x hx b qi 0 hk c' q) _ _ _ 0 rfl (fun ch => rfl) rfl
        (rowInitT r _ _ _ rfl)⟩
  | succ k ih =>
    intro hk
    have hk' : k < 8 := by omega
    obtain ⟨ihV, ihT⟩ := ih hk'
    have hn0 : ¬ (pt b qi (k + 1) hk).val % 8 = 0 := by rw [pt_k]; omega
    have hprev : outsAt m c ((pt b qi (k + 1) hk).val - 1) (Nat.lt_of_le_of_lt (Nat.sub_le _ _) (pt b qi (k + 1) hk).isLt)
        = outsAt m c (pt b qi k hk').val (pt b qi k hk').isLt :=
      outsAt_congr m c (by show b.val * 32 + qi.val * 8 + (k + 1) - 1 = b.val * 32 + qi.val * 8 + k; omega) _ _
    by_cases h7 : (pt b qi (k + 1) hk).val % 8 = 7
    · rw [outsAt_last m c (pt b qi (k + 1) hk) hn0 h7, hprev]
      unfold BothInv
      rw [last_maxV, last_sumV, last_accV, last_maxT, last_sumT, last_accT]
      exact ⟨rowStepV _ _ _ _ _ r _ _ (fun c' => blk0 m c x hx b qi (k + 1) hk c' r) (fun c' q => blk3 m c y hy b qi (k + 1) hk c' q) _ _ _ (k + 1) rfl (fun ch => rfl) rfl ihV,
        rowStepT _ _ _ _ _ r _ _ (fun c' => blk1 m c y hy b qi (k + 1) hk c' r) (fun c' q => blk2 m c x hx b qi (k + 1) hk c' q) _ _ _ (k + 1) rfl (fun ch => rfl) rfl ihT⟩
    · rw [outsAt_mid m c (pt b qi (k + 1) hk) hn0 h7, hprev]
      unfold BothInv
      rw [mid_maxV, mid_sumV, mid_accV, mid_maxT, mid_sumT, mid_accT]
      exact ⟨rowStepV _ _ _ _ _ r _ _ (fun c' => blk0 m c x hx b qi (k + 1) hk c' r) (fun c' q => blk3 m c y hy b qi (k + 1) hk c' q) _ _ _ (k + 1) rfl (fun ch => rfl) rfl ihV,
        rowStepT _ _ _ _ _ r _ _ (fun c' => blk1 m c y hy b qi (k + 1) hk c' r) (fun c' q => blk2 m c x hx b qi (k + 1) hk c' q) _ _ _ (k + 1) rfl (fun ch => rfl) rfl ihT⟩

end Induction

/-! ## The result's entries -/

section Entries

variable (hx : ∀ i, (m ((c : Thread nD τ).loc main_arg0) : S4x256x64x64.Idx → EReal) i = ((x i : ℝ) : EReal))
variable (hy : ∀ i, (m ((c : Thread nD τ).loc main_arg1) : S4x256x64x64.Idx → EReal) i = ((y i : ℝ) : EReal))

/-- At the last key block the first output buffer is the output payload of the residual block and the NEW accumulator and normaliser. -/
theorem o6_at_last (t : Fin cfg0.N) (h7 : t.val % 8 = 7) :
    (outsAt m c t.val t.isLt).o6 = k0_pay3 (F := Ideal) (iblk m c 4 t) (outsAt m c t.val t.isLt).accV (outsAt m c t.val t.isLt).sumV := by
  rw [outsAt_last m c t (by omega) h7]
  exact last_o6 m c t _ _ _
theorem o7_at_last (t : Fin cfg0.N) (h7 : t.val % 8 = 7) :
    (outsAt m c t.val t.isLt).o7 = k0_pay4 (F := Ideal) (iblk m c 5 t) (outsAt m c t.val t.isLt).accT (outsAt m c t.val t.isLt).sumT := by
  rw [outsAt_last m c t (by omega) h7]
  exact last_o7 m c t _ _ _

include hx hy in
/-- The first output block's entry (qi, r, ch) of batch b: the softmax-weighted mean of the second argument's channel over
    all keys, under the scores of the first argument's row against the second, plus the first argument's entry. -/
theorem o6_real (b qi : Fin 4) (r : Fin 1024) (ch : Fin 256) :
    ((outsAt m c (pt b qi 7 (by norm_num)).val (pt b qi 7 (by norm_num)).isLt).o6 : S1x1024x256.Idx → EReal) (ix3 (0 : Fin 1) r ch)
      = ((softAt (fun p : Fin 8 × Fin 512 => runS x y b qi r p.1 p.2) (fun p => runT y b ch p.1 p.2) + flat x b ch (qPos qi r) : ℝ) : EReal) := by
  rw [o6_at_last m c (pt b qi 7 (by norm_num)) (pt_k b qi 7 (by norm_num))]
  exact outEntryV _ _ _ _ r ch _ _ _ (inv_run m c x y hx hy b qi r 7 (by norm_num)).1 _ (blk4 m c x hx b qi 7 (by norm_num) ch r)

include hx hy in
theorem o7_real (b qi : Fin 4) (r : Fin 1024) (ch : Fin 256) :
    ((outsAt m c (pt b qi 7 (by norm_num)).val (pt b qi 7 (by norm_num)).isLt).o7 : S1x1024x256.Idx → EReal) (ix3 (0 : Fin 1) r ch)
      = ((softAt (fun p : Fin 8 × Fin 512 => runS y x b qi r p.1 p.2) (fun p => runT x b ch p.1 p.2) + flat y b ch (qPos qi r) : ℝ) : EReal) := by
  rw [o7_at_last m c (pt b qi 7 (by norm_num)) (pt_k b qi 7 (by norm_num))]
  exact outEntryT _ _ _ _ r ch _ _ _ (inv_run m c x y hx hy b qi r 7 (by norm_num)).2 _ (blk5 m c y hy b qi 7 (by norm_num) ch r)

/-- The query block and the row inside it of a pixel. -/
def qiOf (h w : Fin 64) : Fin 4 := ⟨(h.val * 64 + w.val) / 1024, by have := h.isLt; have := w.isLt; omega⟩
def rOf (h w : Fin 64) : Fin 1024 := ⟨(h.val * 64 + w.val) % 1024, Nat.mod_lt _ (by decide)⟩

include hx hy in
/-- The result at a channel of the first 256. -/
theorem kernelOut_lo_real (b : Fin 4) (ch : Fin 256) (h w : Fin 64) :
    (kernelOut m c : S4x512x64x64.Idx → EReal) (ix4 b ⟨ch.val, by have := ch.isLt; omega⟩ h w)
      = ((softAt (fun p : Fin 8 × Fin 512 => runS x y b (qiOf h w) (rOf h w) p.1 p.2) (fun p => runT y b ch p.1 p.2)
          + flat x b ch (qPos (qiOf h w) (rOf h w)) : ℝ) : EReal) := by
  rw [kernelOut_left, arrAt6_apply]
  exact (congrArg (fun P : Carried Ideal => (P.o6 : S1x1024x256.Idx → EReal) (ix3 (0 : Fin 1) (rOf h w) ch))
      (outsAt_congr m c (by show _ = b.val * 32 + (qiOf h w).val * 8 + 7; rfl) _ _)).trans
    (o6_real m c x y hx hy b (qiOf h w) (rOf h w) ch)

include hx hy in
/-- The result at channel 256 + ch. -/
theorem kernelOut_hi_real (b : Fin 4) (ch : Fin 256) (h w : Fin 64) :
    (kernelOut m c : S4x512x64x64.Idx → EReal) (ix4 b ⟨256 + ch.val, by have := ch.isLt; omega⟩ h w)
      = ((softAt (fun p : Fin 8 × Fin 512 => runS y x b (qiOf h w) (rOf h w) p.1 p.2) (fun p => runT x b ch p.1 p.2)
          + flat y b ch (qPos (qiOf h w) (rOf h w)) : ℝ) : EReal) := by
  rw [kernelOut_right, arrAt7_apply]
  exact (congrArg (fun P : Carried Ideal => (P.o7 : S1x1024x256.Idx → EReal) (ix3 (0 : Fin 1) (rOf h w) ch))
      (outsAt_congr m c (by show _ = b.val * 32 + (qiOf h w).val * 8 + 7; rfl) _ _)).trans
    (o7_real m c x y hx hy b (qiOf h w) (rOf h w) ch)

end Entries

end Cert.KernelIdeal.Flash

end
-- ==== Proof.RefValue.lean ====
/- The reference program's result as ONE function of its two argument arrays, and its run.

   For V, T : f32[4,256,64,64] the program flattens the two spatial axes (Vf, Tf : f32[4,256,4096]), forms for each
   batch member b the 4096 x 4096 score matrix S[b,i,j] = sum over the 256 channels c of Vf[b,c,i] * Tf[b,c,j],
   takes the softmax of every row of it (the row's maximum mx, bounded below by minus infinity; the exponentials
   E = exp(S - mx); their row sum Z from zero; the quotients P = E / Z), and adds to V the attended array
   VA[b,c,i] = sum over j of Tf[b,c,j] * P[b,i,j], brought back to the shape of V. The same with the two arguments
   exchanged gives T + TA, and the result is the two laid one after the other along the channel axis,
   f32[4,512,64,64].

   Each of these arrays is NAMED here as a function of its operands (`flat`, `scores`, `rowMax`, `spread`, `expo`,
   `rowSum`, `probs`, `att`, `refOut`), so that the program's 39 operations are read in four stretches —
   the two reshapes; the softmax of the scores of (Vf, Tf); the softmax of the scores of (Tf, Vf); the two products
   with the arguments added and joined — each stretch's result stated over the buffer contents before it,
   and no expression ever holds the whole composition spelt out. -/
import proofs.«154790_j27118423507780_2_alg».proof.Proof.RefRun
import Idealize.ShloMosaic.PureOps.Ideal

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The arrays' types -/

/-- An argument array, f32[4,256,64,64]. -/
abbrev Arg (F : FTy → Type) : Type := (⟨S4x256x64x64, .f32⟩ : BufTy).Contents (Elt F)
/-- An argument with its two spatial axes laid end to end, f32[4,256,4096]. -/
abbrev Flat (F : FTy → Type) : Type := (⟨S4x256x4096, .f32⟩ : BufTy).Contents (Elt F)
/-- A stack of four 4096 x 4096 matrices, f32[4,4096,4096]. -/
abbrev Sq (F : FTy → Type) : Type := (⟨S4x4096x4096, .f32⟩ : BufTy).Contents (Elt F)
/-- One number per row of each matrix of the stack, f32[4,4096]. -/
abbrev Rows (F : FTy → Type) : Type := (⟨S4x4096, .f32⟩ : BufTy).Contents (Elt F)
/-- The result array, f32[4,512,64,64]. -/
abbrev Out (F : FTy → Type) : Type := (⟨S4x512x64x64, .f32⟩ : BufTy).Contents (Elt F)

/-! ## The stages, each a function of its operands -/

/-- An argument with its two spatial axes laid end to end: entry (b, c, 64 h + w) is entry (b, c, h, w). -/
def flat (X : Arg F) : Flat F := shapeCast S4x256x4096 X shapeCasts_S4x256x64x64_S4x256x4096

/-- The scores of a pair of flattened arrays: S[b,i,j] = sum over c of L[b,c,i] * R[b,c,j]. -/
def scores (L R : Flat F) : Sq F := Host.dotGeneral dot_S4x256x4096_S4x256x4096_S4x4096x4096_1_1_2_2_0_0 none L R

/-- Every row's maximum, bounded below by minus infinity: the maximum of minus infinity and the row's maximum
    taken from minus infinity. -/
def rowMax (S : Sq F) : Rows F :=
  maximumf (broadcastInDim S4x4096 ![] bcast_S_S4x4096 (constant S_ .f32 0xFF800000#32))
    (Host.reduce FloatOps.maximumf S (constant S_ .f32 0xFF800000#32) reducesTo_S4x4096x4096_S4x4096_d2 h_S_)

/-- A per-row number repeated along its row: entry (b, i, j) is entry (b, i). -/
def spread (r : Rows F) : Sq F :=
  broadcastInDim S4x4096x4096 ![0, 1, 2] bcast_S4x4096x1_S4x4096x4096_0_1_2
    (broadcastInDim S4x4096x1 ![0, 1] bcast_S4x4096_S4x4096x1_0_1 r)

/-- The exponentials of the scores less their row's maximum. -/
def expo (S : Sq F) : Sq F := Host.exp (subf S (spread (rowMax S)))

/-- Every row's sum, from zero. -/
def rowSum (E : Sq F) : Rows F := Host.reduceAdd E (constant S_ .f32 0x00000000#32) reducesTo_S4x4096x4096_S4x4096_d2 h_S_

/-- The softmax of every row of the scores: the exponentials over their row's sum. -/
def probs (S : Sq F) : Sq F := Host.divf (expo S) (spread (rowSum (expo S)))

/-- A flattened array attended by a stack of row-stochastic matrices, at an argument's shape:
    entry (b, c, h, w) is the sum over j of X[b,c,j] * P[b, 64 h + w, j]. -/
def att (X : Flat F) (P : Sq F) : Arg F :=
  shapeCast S4x256x64x64 (Host.dotGeneral dot_S4x256x4096_S4x4096x4096_S4x256x4096_2_2_1_1_0_0 none X P) shapeCasts_S4x256x4096_S4x256x64x64

/-- Two arrays of an argument's shape laid one after the other along the channel axis. -/
def join (A B : Arg F) : Out F :=
  concatenate S4x512x64x64 1 [⟨S4x256x64x64, A⟩, ⟨S4x256x64x64, B⟩] concatenates_S4x256x64x64_S4x256x64x64_S4x512x64x64_d1

/-- THE REFERENCE'S RESULT: V plus T attended by the softmax of the scores of (V, T), then T plus V attended by
    the softmax of the scores of (T, V), along the channel axis. -/
def refOut (V T : Arg F) : Out F :=
  join (addf V (att (flat T) (probs (scores (flat V) (flat T)))))
       (addf T (att (flat V) (probs (scores (flat T) (flat V)))))

/-! ## The program's operations in four stretches -/

/-- The two reshapes. -/
def opsA : List (HloOp τ sig (Elt F)) :=
  [ reshape main_arg0 main_v0 rfl shapeCasts_S4x256x64x64_S4x256x4096,
    reshape main_arg1 main_v1 rfl shapeCasts_S4x256x64x64_S4x256x4096 ]

/-- The softmax of the scores of the first flattened argument against the second. -/
def opsB : List (HloOp τ sig (Elt F)) :=
  [ binary main_v0 main_v1 main_v2 ((fun l r => Host.dotGeneral dot_S4x256x4096_S4x256x4096_S4x4096x4096_1_1_2_2_0_0 none l r) : (⟨S4x256x4096, .f32⟩ : BufTy).Contents (Elt F) → (⟨S4x256x4096, .f32⟩ : BufTy).Contents (Elt F) → (⟨S4x4096x4096, .f32⟩ : BufTy).Contents (Elt F)),
    nullary main_cst (constant S_ .f32 0xFF800000#32),
    binary main_v2 main_cst main_v3 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_0 (constant S_ .f32 0xFF800000#32),
    unary main_cst_0 main_v4 (broadcastInDim S4x4096 ![] bcast_S_S4x4096 : (⟨S_, .f32⟩ : BufTy).Contents (Elt F) → (⟨S4x4096, .f32⟩ : BufTy).Contents (Elt F)),
    binary main_v4 main_v3 main_v5 (maximumf : (⟨S4x4096, .f32⟩ : BufTy).Contents (Elt F) → (⟨S4x4096, .f32⟩ : BufTy).Contents (Elt F) → (⟨S4x4096, .f32⟩ : BufTy).Contents (Elt F)),
    unary main_v5 main_v6 (broadcastInDim S4x4096x1 ![0, 1] bcast_S4x4096_S4x4096x1_0_1 : (⟨S4x4096, .f32⟩ : BufTy).Contents (Elt F) → (⟨S4x4096x1, .f32⟩ : BufTy).Contents (Elt F)),
    unary main_v6 main_v7 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v2 main_v7 main_v8 (subf : (⟨S4x4096x4096, .f32⟩ : BufTy).Contents (Elt F) → (⟨S4x4096x4096, .f32⟩ : BufTy).Contents (Elt F) → (⟨S4x4096x4096, .f32⟩ : BufTy).Contents (Elt F)),
    unary main_v8 main_v9 (Host.exp : (⟨S4x4096x4096, .f32⟩ : BufTy).Contents (Elt F) → (⟨S4x4096x4096, .f32⟩ : BufTy).Contents (Elt F)),
    nullary main_cst_1 (constant S_ .f32 0x00000000#32),
    binary main_v9 main_cst_1 main_v10 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v10 main_v11 (broadcastInDim S4x4096x1 ![0, 1] bcast_S4x4096_S4x4096x1_0_1 : (⟨S4x4096, .f32⟩ : BufTy).Contents (Elt F) → (⟨S4x4096x1, .f32⟩ : BufTy).Contents (Elt F)),
    unary main_v11 main_v12 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v9 main_v12 main_v13 (Host.divf : (⟨S4x4096x4096, .f32⟩ : BufTy).Contents (Elt F) → (⟨S4x4096x4096, .f32⟩ : BufTy).Contents (Elt F) → (⟨S4x4096x4096, .f32⟩ : BufTy).Contents (Elt F)) ]

/-- The softmax of the scores of the second flattened argument against the first. -/
def opsC : List (HloOp τ sig (Elt F)) :=
  [ binary main_v1 main_v0 main_v14 ((fun l r => Host.dotGeneral dot_S4x256x4096_S4x256x4096_S4x4096x4096_1_1_2_2_0_0 none l r) : (⟨S4x256x4096, .f32⟩ : BufTy).Contents (Elt F) → (⟨S4x256x4096, .f32⟩ : BufTy).Contents (Elt F) → (⟨S4x4096x4096, .f32⟩ : BufTy).Contents (Elt F)),
    nullary main_cst_2 (constant S_ .f32 0xFF800000#32),
    binary main_v14 main_cst_2 main_v15 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    nullary main_cst_3 (constant S_ .f32 0xFF800000#32),
    unary main_cst_3 main_v16 (broadcastInDim S4x4096 ![] bcast_S_S4x4096 : (⟨S_, .f32⟩ : BufTy).Contents (Elt F) → (⟨S4x4096, .f32⟩ : BufTy).Contents (Elt F)),
    binary main_v16 main_v15 main_v17 (maximumf : (⟨S4x4096, .f32⟩ : BufTy).Contents (Elt F) → (⟨S4x4096, .f32⟩ : BufTy).Contents (Elt F) → (⟨S4x4096, .f32⟩ : BufTy).Contents (Elt F)),
    unary main_v17 main_v18 (broadcastInDim S4x4096x1 ![0, 1] bcast_S4x4096_S4x4096x1_0_1 : (⟨S4x4096, .f32⟩ : BufTy).Contents (Elt F) → (⟨S4x4096x1, .f32⟩ : BufTy).Contents (Elt F)),
    unary main_v18 main_v19 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v14 main_v19 main_v20 (subf : (⟨S4x4096x4096, .f32⟩ : BufTy).Contents (Elt F) → (⟨S4x4096x4096, .f32⟩ : BufTy).Contents (Elt F) → (⟨S4x4096x4096, .f32⟩ : BufTy).Contents (Elt F)),
    unary main_v20 main_v21 (Host.exp : (⟨S4x4096x4096, .f32⟩ : BufTy).Contents (Elt F) → (⟨S4x4096x4096, .f32⟩ : BufTy).Contents (Elt F)),
    nullary main_cst_4 (constant S_ .f32 0x00000000#32),
    binary main_v21 main_cst_4 main_v22 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    unary main_v22 main_v23 (broadcastInDim S4x4096x1 ![0, 1] bcast_S4x4096_S4x4096x1_0_1 : (⟨S4x4096, .f32⟩ : BufTy).Contents (Elt F) → (⟨S4x4096x1, .f32⟩ : BufTy).Contents (Elt F)),
    unary main_v23 main_v24 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    binary main_v21 main_v24 main_v25 (Host.divf : (⟨S4x4096x4096, .f32⟩ : BufTy).Contents (Elt F) → (⟨S4x4096x4096, .f32⟩ : BufTy).Contents (Elt F) → (⟨S4x4096x4096, .f32⟩ : BufTy).Contents (Elt F)) ]

/-- The two attended arrays, each added to its argument, and the two sums joined. -/
def opsD : List (HloOp τ sig (Elt F)) :=
  [ binary main_v1 main_v13 main_v26 ((fun l r => Host.dotGeneral dot_S4x256x4096_S4x4096x4096_S4x256x4096_2_2_1_1_0_0 none l r) : (⟨S4x256x4096, .f32⟩ : BufTy).Contents (Elt F) → (⟨S4x4096x4096, .f32⟩ : BufTy).Contents (Elt F) → (⟨S4x256x4096, .f32⟩ : BufTy).Contents (Elt F)),
    reshape main_v26 main_v27 rfl shapeCasts_S4x256x4096_S4x256x64x64,
    binary main_v0 main_v25 main_v28 ((fun l r => Host.dotGeneral dot_S4x256x4096_S4x4096x4096_S4x256x4096_2_2_1_1_0_0 none l r) : (⟨S4x256x4096, .f32⟩ : BufTy).Contents (Elt F) → (⟨S4x4096x4096, .f32⟩ : BufTy).Contents (Elt F) → (⟨S4x256x4096, .f32⟩ : BufTy).Contents (Elt F)),
    reshape main_v28 main_v29 rfl shapeCasts_S4x256x4096_S4x256x64x64,
    binary main_arg0 main_v27 main_v30 (addf : (⟨S4x256x64x64, .f32⟩ : BufTy).Contents (Elt F) → (⟨S4x256x64x64, .f32⟩ : BufTy).Contents (Elt F) → (⟨S4x256x64x64, .f32⟩ : BufTy).Contents (Elt F)),
    binary main_arg1 main_v29 main_v31 (addf : (⟨S4x256x64x64, .f32⟩ : BufTy).Contents (Elt F) → (⟨S4x256x64x64, .f32⟩ : BufTy).Contents (Elt F) → (⟨S4x256x64x64, .f32⟩ : BufTy).Contents (Elt F)),
    binary main_v30 main_v31 main_v32 ((fun a b => concatenate S4x512x64x64 1 [⟨S4x256x64x64, a⟩, ⟨S4x256x64x64, b⟩] concatenates_S4x256x64x64_S4x256x64x64_S4x512x64x64_d1) : (⟨S4x256x64x64, .f32⟩ : BufTy).Contents (Elt F) → (⟨S4x256x64x64, .f32⟩ : BufTy).Contents (Elt F) → (⟨S4x512x64x64, .f32⟩ : BufTy).Contents (Elt F)) ]

/-- The 39 operations are the four stretches in order. -/
theorem ops_cut : (ops : List (HloOp τ sig (Elt F))) = opsA ++ (opsB ++ (opsC ++ opsD)) := rfl

/-- Running two lines one after the other is running their concatenation. -/
theorem after_app : ∀ (l₁ l₂ : List (HloOp τ sig (Elt F))) (W : Valuation τ sig (Elt F)),
    after (l₁ ++ l₂) W = after l₂ (after l₁ W)
  | [], _, _ => rfl
  | op :: l₁, l₂, W => by rw [List.cons_append, after_cons, after_cons, after_app l₁ l₂]

/-! ## Each stretch, from any buffer contents `W` -/

section Stretches
variable (W : Valuation τ sig (Elt F))

/-- After the reshapes the first flattened buffer holds the first argument flattened. -/
theorem opsA_v0 : after opsA W (Proc.devRef .tc main_v0) = flat (W (Proc.devRef .tc main_arg0)) := by
  unfold opsA; after_results_simp <;> rfl
/-- After the reshapes the second flattened buffer holds the second argument flattened. -/
theorem opsA_v1 : after opsA W (Proc.devRef .tc main_v1) = flat (W (Proc.devRef .tc main_arg1)) := by
  unfold opsA; after_results_simp <;> rfl
/-- The reshapes leave the first argument as it was. -/
theorem opsA_arg0 : after opsA W (Proc.devRef .tc main_arg0) = W (Proc.devRef .tc main_arg0) := by
  unfold opsA; after_results_simp
/-- The reshapes leave the second argument as it was. -/
theorem opsA_arg1 : after opsA W (Proc.devRef .tc main_arg1) = W (Proc.devRef .tc main_arg1) := by
  unfold opsA; after_results_simp

/-- After the second stretch its last buffer holds the softmax of the scores of the two flattened buffers. -/
theorem opsB_v13 : after opsB W (Proc.devRef .tc main_v13)
    = probs (scores (W (Proc.devRef .tc main_v0)) (W (Proc.devRef .tc main_v1))) := by
  unfold opsB; after_results_simp <;> rfl
theorem opsB_v0 : after opsB W (Proc.devRef .tc main_v0) = W (Proc.devRef .tc main_v0) := by
  unfold opsB; after_results_simp
theorem opsB_v1 : after opsB W (Proc.devRef .tc main_v1) = W (Proc.devRef .tc main_v1) := by
  unfold opsB; after_results_simp
theorem opsB_arg0 : after opsB W (Proc.devRef .tc main_arg0) = W (Proc.devRef .tc main_arg0) := by
  unfold opsB; after_results_simp
theorem opsB_arg1 : after opsB W (Proc.devRef .tc main_arg1) = W (Proc.devRef .tc main_arg1) := by
  unfold opsB; after_results_simp

/-- After the third stretch its last buffer holds the softmax of the scores of the two flattened buffers, exchanged. -/
theorem opsC_v25 : after opsC W (Proc.devRef .tc main_v25)
    = probs (scores (W (Proc.devRef .tc main_v1)) (W (Proc.devRef .tc main_v0))) := by
  unfold opsC; after_results_simp <;> rfl
theorem opsC_v13 : after opsC W (Proc.devRef .tc main_v13) = W (Proc.devRef .tc main_v13) := by
  unfold opsC; after_results_simp
theorem opsC_v0 : after opsC W (Proc.devRef .tc main_v0) = W (Proc.devRef .tc main_v0) := by
  unfold opsC; after_results_simp
theorem opsC_v1 : after opsC W (Proc.devRef .tc main_v1) = W (Proc.devRef .tc main_v1) := by
  unfold opsC; after_results_simp
theorem opsC_arg0 : after opsC W (Proc.devRef .tc main_arg0) = W (Proc.devRef .tc main_arg0) := by
  unfold opsC; after_results_simp
theorem opsC_arg1 : after opsC W (Proc.devRef .tc main_arg1) = W (Proc.devRef .tc main_arg1) := by
  unfold opsC; after_results_simp

/-- After the last stretch the result buffer holds the two sums joined. -/
theorem opsD_v32 : after opsD W (Proc.devRef .tc main_v32)
    = join (addf (W (Proc.devRef .tc main_arg0)) (att (W (Proc.devRef .tc main_v1)) (W (Proc.devRef .tc main_v13))))
           (addf (W (Proc.devRef .tc main_arg1)) (att (W (Proc.devRef .tc main_v0)) (W (Proc.devRef .tc main_v25)))) := by
  unfold opsD; after_results_simp <;> rfl
theorem opsD_arg0 : after opsD W (Proc.devRef .tc main_arg0) = W (Proc.devRef .tc main_arg0) := by
  unfold opsD; after_results_simp
theorem opsD_arg1 : after opsD W (Proc.devRef .tc main_arg1) = W (Proc.devRef .tc main_arg1) := by
  unfold opsD; after_results_simp

end Stretches

/-! ## The whole line -/

/-- After the 39 operations the result buffer holds `refOut` of the two arguments' contents before them. -/
theorem after_out (W : Valuation τ sig (Elt F)) :
    after ops W (Proc.devRef .tc main_v32) = refOut (W (Proc.devRef .tc main_arg0)) (W (Proc.devRef .tc main_arg1)) := by
  rw [ops_cut, after_app, after_app, after_app, opsD_v32, opsC_v25, opsC_v13, opsC_v0, opsC_v1, opsC_arg0, opsC_arg1,
    opsB_v13, opsB_v0, opsB_v1, opsB_arg0, opsB_arg1, opsA_v0, opsA_v1, opsA_arg0, opsA_arg1]
  rfl

/-- The 39 operations leave the first argument as it was. -/
theorem after_arg0 (W : Valuation τ sig (Elt F)) : after ops W (Proc.devRef .tc main_arg0) = W (Proc.devRef .tc main_arg0) := by
  rw [ops_cut, after_app, after_app, after_app, opsD_arg0, opsC_arg0, opsB_arg0, opsA_arg0]
/-- The 39 operations leave the second argument as it was. -/
theorem after_arg1 (W : Valuation τ sig (Elt F)) : after ops W (Proc.devRef .tc main_arg1) = W (Proc.devRef .tc main_arg1) := by
  rw [ops_cut, after_app, after_app, after_app, opsD_arg1, opsC_arg1, opsB_arg1, opsA_arg1]

/-- THE RUN. On every device, from any memory with zero counters, every weakly fair execution of the reference's
    @main terminates with the result buffer at `refOut` of the two arguments' launch contents and the arguments
    unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
        = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (after_out (launchContents m c)),
      (h c main_arg0).trans (after_arg0 (launchContents m c)),
      (h c main_arg1).trans (after_arg1 (launchContents m c))⟩)
    (run_seq scopedRefs_eq scopedSems_eq defs main (fun _ => ops) main_eq (fun _ => ops_sub) m ρ)

end Cert.ReferenceIdeal.RefValue

end
-- ==== Proof.LibBatchRows.lean ====
/-
  Row operations on a stack of matrices (an `n × a × k` array), read at an entry, for any sizes.

  The host sums or maximises along the last axis, giving one number per row of each matrix of the stack; keeps that
  number as an `n × a × 1` column stack; and spreads the column stack back along the lanes. A scalar spread over any
  shape reads the scalar everywhere, and one `1 × a × b` slab spread over the stack repeats the slab in every matrix.
-/
import Idealize.ShloMosaic.Lib.Pipeline.Value
import Idealize.ShloMosaic.Lib.ValueIdx
import Idealize.ShloMosaic.PureOps.Ideal.Laws

noncomputable section

open scoped BigOperators

namespace Cert.Lib.BatchRows

open Idealize.ShloMosaic Idealize.ShloMosaic.ValueIdx

variable {α : Type}

/-- A scalar spread over any shape reads the scalar's one entry everywhere. -/
theorem splat_apply {s : Shape} (h : (⟨0, ![]⟩ : Shape).BroadcastsInDim s (![] : Fin 0 → Fin s.rank))
    (y : (⟨0, ![]⟩ : Shape).Idx → α) (j : s.Idx) : broadcastInDim s ![] h y j = y ix0 :=
  broadcastInDim_apply _ h y j ix0 (fun ax => ax.elim0)

/-- An `n × a` table kept as an `n × a × 1` column stack reads, at `(t, i, u)`, the table at `(t, i)`. -/
theorem keep_apply {n a : ℕ} (h : (⟨2, ![n, a]⟩ : Shape).BroadcastsInDim ⟨3, ![n, a, 1]⟩ ![0, 1])
    (y : (⟨2, ![n, a]⟩ : Shape).Idx → α) (t : Fin n) (i : Fin a) (u : Fin 1) :
    broadcastInDim ⟨3, ![n, a, 1]⟩ ![0, 1] h y (ix3 t i u) = y (ix2 t i) :=
  broadcastInDim_apply _ h y (ix3 t i u) (ix2 t i) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl)

/-- An `n × a × 1` column stack spread along `b` lanes reads, at `(t, i, c)`, the column entry of row `i` of matrix `t`. -/
theorem lanes_apply {n a b : ℕ} (h : (⟨3, ![n, a, 1]⟩ : Shape).BroadcastsInDim ⟨3, ![n, a, b]⟩ ![0, 1, 2])
    (y : (⟨3, ![n, a, 1]⟩ : Shape).Idx → α) (t : Fin n) (i : Fin a) (c : Fin b) :
    broadcastInDim ⟨3, ![n, a, b]⟩ ![0, 1, 2] h y (ix3 t i c) = y (ix3 t i (0 : Fin 1)) :=
  broadcastInDim_apply _ h y (ix3 t i c) (ix3 t i (0 : Fin 1)) (fun ax => match ax with
    | ⟨0, _⟩ => by
      show t.val = if n = 1 then 0 else t.val
      split
      · have := t.isLt; omega
      · rfl
    | ⟨1, _⟩ => by
      show i.val = if a = 1 then 0 else i.val
      split
      · have := i.isLt; omega
      · rfl
    | ⟨2, _⟩ => by
      show (0 : ℕ) = if (1 : ℕ) = 1 then 0 else c.val
      rw [if_pos rfl])

/-- One `1 × a × b` slab spread over a stack of `n` reads, at `(t, i, c)`, the slab at `(0, i, c)`. -/
theorem slab_apply {n a b : ℕ} (h : (⟨3, ![1, a, b]⟩ : Shape).BroadcastsInDim ⟨3, ![n, a, b]⟩ ![0, 1, 2])
    (y : (⟨3, ![1, a, b]⟩ : Shape).Idx → α) (t : Fin n) (i : Fin a) (c : Fin b) :
    broadcastInDim ⟨3, ![n, a, b]⟩ ![0, 1, 2] h y (ix3 t i c) = y (ix3 (0 : Fin 1) i c) :=
  broadcastInDim_apply _ h y (ix3 t i c) (ix3 (0 : Fin 1) i c) (fun ax => match ax with
    | ⟨0, _⟩ => by
      show (0 : ℕ) = if (1 : ℕ) = 1 then 0 else t.val
      rw [if_pos rfl]
    | ⟨1, _⟩ => by
      show i.val = if a = 1 then 0 else i.val
      split
      · have := i.isLt; omega
      · rfl
    | ⟨2, _⟩ => by
      show c.val = if b = 1 then 0 else c.val
      split
      · have := c.isLt; omega
      · rfl)

/-- The index of the stack over the reduced index `(t, i)` with the lane `c` put back is `(t, i, c)`. -/
theorem lift_last {n a k : ℕ} (h : (⟨3, ![n, a, k]⟩ : Shape).Reduces [2] ⟨2, ![n, a]⟩) (t : Fin n) (i : Fin a)
    (c : Fin ((⟨3, ![n, a, k]⟩ : Shape).size 2)) : h.lift (ix2 t i) c = ix3 t i (⟨c.val, c.isLt⟩ : Fin k) := by
  funext ax; apply Fin.ext
  match ax with
  | ⟨0, _⟩ => rfl
  | ⟨1, _⟩ => rfl
  | ⟨2, _⟩ => rfl

/-- The host's sum along the last axis reads, at `(t, i)`, the initial value plus the sum of row `i` of matrix `t`. -/
theorem hostSum_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduceAdd x v h' hu (ix2 t i) = v ix0 + ∑ c : Fin k, x (ix3 t i c) := by
  simp only [Host.reduceAdd, Ideal.hostReduceAdd_def]
  rw [Ideal.hostReduceAdd_single h' h]
  refine congrArg₂ (· + ·) (congrArg v (eq_ix0 _)) ?_
  exact Finset.sum_congr rfl fun c _ => congrArg x (lift_last h t i c)

/-- The host's maximum along the last axis reads, at `(t, i)`, the fold of `max` from the initial value over row `i` of
    matrix `t`. -/
theorem hostMax_apply {n a k : ℕ} (x : FVec Ideal ⟨3, ![n, a, k]⟩ .f32) (v : FVec Ideal ⟨0, ![]⟩ .f32)
    (h' : (⟨3, ![n, a, k]⟩ : Shape).ReducesTo [2] ⟨2, ![n, a]⟩) (h : (⟨3, ![n, a, k]⟩ : Shape).Reduces [2] ⟨2, ![n, a]⟩)
    (hu : 0 < (⟨0, ![]⟩ : Shape).numel) (t : Fin n) (i : Fin a) :
    Host.reduce FloatOps.maximumf x v h' hu (ix2 t i)
      = (Finset.univ : Finset (Fin k)).fold max (v ix0) (fun c => x (ix3 t i c)) := by
  rw [Host.reduce_eq_fold_single FloatOps.maximumf x v h' h hu]
  have hv : v (Shape.Idx.first hu) = v ix0 := congrArg v (eq_ix0 _)
  have hf : (x ∘ h.lift (ix2 t i)) = fun c : Fin k => x (ix3 t i c) := funext fun c => congrArg x (lift_last h t i c)
  rw [hv]
  exact congrArg (fun f => Finset.fold max (v ix0) f (Finset.univ : Finset (Fin k))) hf

end Cert.Lib.BatchRows

end
-- ==== Proof.LibBatchDot.lean ====
/-
  A stack of matrix products read at an entry, for any sizes.

  The host's `dot_general` with one batch axis (the leading axis of both operands and of the result) and one
  contracted axis multiplies the matrices of two stacks member by member. Two layouts are read here, over the extended
  reals:

  * both operands contracted on their MIDDLE axis — stacks `n × k × a` and `n × k × b`, result `n × a × b` —: the entry
    `(t, i, j)` is the sum over `c` of `A (t, c, i) * B (t, c, j)` (member `t`'s product of the transpose of `A t` with `B t`);
  * both operands contracted on their LAST axis — stacks `n × a × k` and `n × b × k`, result `n × a × b` —: the entry
    `(t, i, j)` is the sum over `c` of `A (t, i, c) * B (t, j, c)` (member `t`'s product of `A t` with the transpose of `B t`).

  Each is stated for the dimension numbers as a record of literal lists over a well-formedness fact the caller has
  (`midDims`, `lastDims`), and for any record equal to it.
-/
import Idealize.ShloMosaic.Lib.Pipeline.Value
import Idealize.ShloMosaic.Lib.ValueIdx
import Idealize.ShloMosaic.PureOps.Ideal.Laws

noncomputable section

open scoped BigOperators

namespace Cert.Lib.BatchDot

open Idealize.ShloMosaic Idealize.ShloMosaic.ValueIdx

/-- Batch axis 0 of both operands, both contracted on axis 1, the free axes 2 and 2: `n × k × a` by `n × k × b`. -/
abbrev midDims {n k a b : ℕ}
    (wf : DotDims.WF ⟨3, ![n, k, a]⟩ ⟨3, ![n, k, b]⟩ ⟨3, ![n, a, b]⟩ [1] [1] [2] [2] [0] [0]) :
    DotDims ⟨3, ![n, k, a]⟩ ⟨3, ![n, k, b]⟩ ⟨3, ![n, a, b]⟩ where
  lhsContracting := [1]
  rhsContracting := [1]
  lhsNonContracting := [2]
  rhsNonContracting := [2]
  lhsBatch := [0]
  rhsBatch := [0]
  wf := wf

/-- Batch axis 0 of both operands, both contracted on axis 2, the free axes 1 and 1: `n × a × k` by `n × b × k`. -/
abbrev lastDims {n a b k : ℕ}
    (wf : DotDims.WF ⟨3, ![n, a, k]⟩ ⟨3, ![n, b, k]⟩ ⟨3, ![n, a, b]⟩ [2] [2] [1] [1] [0] [0]) :
    DotDims ⟨3, ![n, a, k]⟩ ⟨3, ![n, b, k]⟩ ⟨3, ![n, a, b]⟩ where
  lhsContracting := [2]
  rhsContracting := [2]
  lhsNonContracting := [1]
  rhsNonContracting := [1]
  lhsBatch := [0]
  rhsBatch := [0]
  wf := wf

/-- Contracted on the middle axis: entry `(t, i, j)` of the stack of products is the sum over `c` of
    `A (t, c, i) * B (t, c, j)`. -/
theorem midDot_apply {n k a b : ℕ} {φ₁ φ₂ : FTy}
    (D : DotDims ⟨3, ![n, k, a]⟩ ⟨3, ![n, k, b]⟩ ⟨3, ![n, a, b]⟩)
    (wf : DotDims.WF ⟨3, ![n, k, a]⟩ ⟨3, ![n, k, b]⟩ ⟨3, ![n, a, b]⟩ [1] [1] [2] [2] [0] [0]) (hD : D = midDims wf)
    (prec : Option ContractPrecision) (A : FVec Ideal ⟨3, ![n, k, a]⟩ φ₁) (B : FVec Ideal ⟨3, ![n, k, b]⟩ φ₂)
    (t : Fin n) (i : Fin a) (j : Fin b) :
    Host.dotGeneral D prec A B (ix3 t i j) = ∑ c : Fin k, A (ix3 t c i) * B (ix3 t c j) := by
  subst hD
  show FloatOps.dotGeneral (midDims wf) prec .single A B (ix3 t i j) = _
  rw [Ideal.dotGeneral_apply, ← Equiv.sum_comp (contrEquiv1 (midDims wf) k rfl rfl).symm]
  refine Finset.sum_congr rfl fun c _ => ?_
  have hk := contrEquiv1_symm_val (midDims wf) k rfl rfl c
  have el : (midDims wf).lhsIdx (ix3 t i j) ((contrEquiv1 (midDims wf) k rfl rfl).symm c) = ix3 t c i :=
    funext fun ax => Fin.ext (by
      match ax with
      | ⟨0, _⟩ => rfl
      | ⟨1, _⟩ => exact ((midDims wf).lhsIdx_val_of_single rfl (ix3 t i j) _).trans hk
      | ⟨2, _⟩ => rfl)
  have er : (midDims wf).rhsIdx (ix3 t i j) ((contrEquiv1 (midDims wf) k rfl rfl).symm c) = ix3 t c j :=
    funext fun ax => Fin.ext (by
      match ax with
      | ⟨0, _⟩ => rfl
      | ⟨1, _⟩ => exact ((midDims wf).rhsIdx_val_of_single rfl (ix3 t i j) _).trans hk
      | ⟨2, _⟩ => rfl)
  rw [el, er]

/-- Contracted on the last axis: entry `(t, i, j)` of the stack of products is the sum over `c` of
    `A (t, i, c) * B (t, j, c)`. -/
theorem lastDot_apply {n a b k : ℕ} {φ₁ φ₂ : FTy}
    (D : DotDims ⟨3, ![n, a, k]⟩ ⟨3, ![n, b, k]⟩ ⟨3, ![n, a, b]⟩)
    (wf : DotDims.WF ⟨3, ![n, a, k]⟩ ⟨3, ![n, b, k]⟩ ⟨3, ![n, a, b]⟩ [2] [2] [1] [1] [0] [0]) (hD : D = lastDims wf)
    (prec : Option ContractPrecision) (A : FVec Ideal ⟨3, ![n, a, k]⟩ φ₁) (B : FVec Ideal ⟨3, ![n, b, k]⟩ φ₂)
    (t : Fin n) (i : Fin a) (j : Fin b) :
    Host.dotGeneral D prec A B (ix3 t i j) = ∑ c : Fin k, A (ix3 t i c) * B (ix3 t j c) := by
  subst hD
  show FloatOps.dotGeneral (lastDims wf) prec .single A B (ix3 t i j) = _
  rw [Ideal.dotGeneral_apply, ← Equiv.sum_comp (contrEquiv1 (lastDims wf) k rfl rfl).symm]
  refine Finset.sum_congr rfl fun c _ => ?_
  have hk := contrEquiv1_symm_val (lastDims wf) k rfl rfl c
  have el : (lastDims wf).lhsIdx (ix3 t i j) ((contrEquiv1 (lastDims wf) k rfl rfl).symm c) = ix3 t i c :=
    funext fun ax => Fin.ext (by
      match ax with
      | ⟨0, _⟩ => rfl
      | ⟨1, _⟩ => rfl
      | ⟨2, _⟩ => exact ((lastDims wf).lhsIdx_val_of_single rfl (ix3 t i j) _).trans hk)
  have er : (lastDims wf).rhsIdx (ix3 t i j) ((contrEquiv1 (lastDims wf) k rfl rfl).symm c) = ix3 t j c :=
    funext fun ax => Fin.ext (by
      match ax with
      | ⟨0, _⟩ => rfl
      | ⟨1, _⟩ => rfl
      | ⟨2, _⟩ => exact ((lastDims wf).rhsIdx_val_of_single rfl (ix3 t i j) _).trans hk)
  rw [el, er]

end Cert.Lib.BatchDot

end
-- ==== Proof.RefRead.lean ====
/- The reference's result READ AT AN INDEX, over coordinates.

   With the two spatial axes of an argument laid end to end (pixel (h, w) at position 64 h + w), write, for a
   batch member b, channels c and positions i, j,

     S b i j  = the sum over the 256 channels c of L b c i * R b c j          (the scores of a pair L, R),
     mx b i   = max (-inf) (the maximum over j of S b i j, taken from -inf)     (row i's maximum),
     Z b i    = the sum over j of exp (S b i j - mx b i)                        (row i's normalizer),
     P b i j  = exp (S b i j - mx b i) / Z b i                                  (row i's softmax).

   Then the result at batch b, pixel (h, w) is, for a channel ch of the first 256,
     V (b, ch, h, w) + the sum over j of Tf b ch j * P b (64 h + w) j   with the scores of (Vf, Tf),
   and for channel 256 + ch the same with V and T exchanged. Each stage of `refOut` is read at an entry by the
   lemma of its operation: the reshapes by equal row-major positions, the products by the batched sum over the
   contracted axis, the row maximum and row sum by the fold and the sum along the last axis, the two spreads by
   the entry they repeat, the join by the piece the channel falls in. -/
import proofs.«154790_j27118423507780_2_alg».proof.Proof.RefValue
import proofs.«154790_j27118423507780_2_alg».proof.Proof.LibBatchRows
import proofs.«154790_j27118423507780_2_alg».proof.Proof.LibBatchDot
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx
open Cert.Lib.BatchRows Cert.Lib.BatchDot

/-! ## The stages over coordinates -/

/-- Pixel `(h, w)`'s position on the flattened spatial axis. -/
def pos (h w : Fin 64) : Fin 4096 := ⟨h.val * 64 + w.val, by have := h.isLt; have := w.isLt; omega⟩

/-- An argument read through its flattening: entry `(b, c, n)` is the argument at pixel `(n / 64, n % 64)`. -/
def flatAt (X : (⟨4, ![4, 256, 64, 64]⟩ : Shape).Idx → EReal) (b : Fin 4) (c : Fin 256) (n : Fin 4096) : EReal :=
  X (ix4 b c (⟨n.val / 64, by have := n.isLt; omega⟩ : Fin 64) (⟨n.val % 64, Nat.mod_lt _ (by decide)⟩ : Fin 64))

/-- The scores of a pair of flattened arrays: `S b i j` is the sum over the channels `c` of `L b c i * R b c j`. -/
def scoreAt (L R : Fin 4 → Fin 256 → Fin 4096 → EReal) (b : Fin 4) (i j : Fin 4096) : EReal :=
  ∑ c : Fin 256, L b c i * R b c j

/-- The word the reference starts its maxima from: minus infinity. -/
def negInf : EReal := Ideal.ofBits .f32 0xFF800000#32

/-- Row `i`'s maximum, bounded below by minus infinity. -/
def rowMaxAt (S : Fin 4 → Fin 4096 → Fin 4096 → EReal) (b : Fin 4) (i : Fin 4096) : EReal :=
  max negInf ((Finset.univ : Finset (Fin 4096)).fold max negInf fun j => S b i j)

/-- Row `i`'s normalizer: the sum of the exponentials of the scores less the row's maximum. -/
def rowSumAt (S : Fin 4 → Fin 4096 → Fin 4096 → EReal) (b : Fin 4) (i : Fin 4096) : EReal :=
  ∑ j : Fin 4096, Ideal.exp (S b i j - rowMaxAt S b i)

/-- Row `i`'s softmax at column `j`. -/
def probAt (S : Fin 4 → Fin 4096 → Fin 4096 → EReal) (b : Fin 4) (i j : Fin 4096) : EReal :=
  Ideal.div (Ideal.exp (S b i j - rowMaxAt S b i)) (rowSumAt S b i)

/-- The word `0xFF800000` is minus infinity. -/
theorem negInf_eq_bot : negInf = ⊥ := by
  unfold negInf; simp [Ideal.ofBits, Ideal.ieee]

/-! ## Each stage at an entry -/

/-- The flattening at `(b, c, n)`: the two positions are the same row-major position. -/
theorem flat_apply (X : Arg Ideal) (b : Fin 4) (c : Fin 256) (n : Fin 4096) :
    flat X (ix3 b c n) = flatAt X b c n := by
  unfold flat flatAt
  refine shapeCast_apply X _ (ix3 b c n) _ ?_
  rw [Shape.rowMajor_val_four, Shape.rowMajor_val_three]
  show ((b.val * 256 + c.val) * 64 + n.val / 64) * 64 + n.val % 64 = (b.val * 256 + c.val) * 4096 + n.val
  omega

/-- The flattening undone at `(b, c, h, w)`: the flat array at pixel `(h, w)`'s position. -/
theorem unflat_apply (Y : Flat Ideal) (b : Fin 4) (c : Fin 256) (h w : Fin 64) :
    shapeCast S4x256x64x64 Y shapeCasts_S4x256x4096_S4x256x64x64 (ix4 b c h w) = Y (ix3 b c (pos h w)) := by
  refine shapeCast_apply Y _ (ix4 b c h w) _ ?_
  rw [Shape.rowMajor_val_four, Shape.rowMajor_val_three]
  show (b.val * 256 + c.val) * 4096 + (h.val * 64 + w.val) = ((b.val * 256 + c.val) * 64 + h.val) * 64 + w.val
  omega

/-- The scores at `(b, i, j)`: the sum over the channels of the two operands' entries at positions `i` and `j`. -/
theorem scores_apply (L R : Flat Ideal) (b : Fin 4) (i j : Fin 4096) :
    scores L R (ix3 b i j) = ∑ c : Fin 256, L (ix3 b c i) * R (ix3 b c j) :=
  midDot_apply (φ₁ := .f32) (φ₂ := .f32) _ dot_S4x256x4096_S4x256x4096_S4x4096x4096_1_1_2_2_0_0_wf rfl none L R b i j

/-- The maximum of two arrays at an entry, from what each holds there. -/
theorem maximumf_at {s : Shape} (x y : FVec Ideal s .f32) (i : s.Idx) (a c : EReal) (hx : x i = a) (hy : y i = c) :
    maximumf x y i = max a c := by
  subst hx hy; rfl

/-- The quotient of two arrays at an entry, from what each holds there. -/
theorem divf_at {s : Shape} (x y : FVec Ideal s .f32) (i : s.Idx) (a c : EReal) (hx : x i = a) (hy : y i = c) :
    Host.divf x y i = Ideal.div a c := by
  subst hx hy; rfl

/-- The sum of two arrays at an entry, from what each holds there. -/
theorem addf_at {s : Shape} (x y : FVec Ideal s .f32) (i : s.Idx) (a c : EReal) (hx : x i = a) (hy : y i = c) :
    addf x y i = a + c := by
  subst hx hy; rfl

/-- Minus infinity spread over the rows' table reads minus infinity. -/
theorem negInf_splat_apply (b : Fin 4) (i : Fin 4096) :
    broadcastInDim S4x4096 ![] bcast_S_S4x4096 (constant (F := Ideal) S_ .f32 0xFF800000#32) (ix2 b i) = negInf :=
  splat_apply bcast_S_S4x4096 _ (ix2 b i)

/-- The maximum along the last axis, from minus infinity, at `(b, i)`: the fold of `max` over row `i` of matrix `b`. -/
theorem hostRowMax_apply (S : Sq Ideal) (b : Fin 4) (i : Fin 4096) :
    Host.reduce FloatOps.maximumf S (constant (F := Ideal) S_ .f32 0xFF800000#32) reducesTo_S4x4096x4096_S4x4096_d2 h_S_ (ix2 b i)
      = (Finset.univ : Finset (Fin 4096)).fold max negInf (fun j => S (ix3 b i j)) :=
  hostMax_apply S _ reducesTo_S4x4096x4096_S4x4096_d2 (by decide) h_S_ b i

/-- The row maximum at `(b, i)`. -/
theorem rowMax_apply (S : Sq Ideal) (b : Fin 4) (i : Fin 4096) :
    rowMax S (ix2 b i) = rowMaxAt (fun b i j => S (ix3 b i j)) b i := by
  unfold rowMax rowMaxAt
  exact maximumf_at _ _ _ _ _ (negInf_splat_apply b i) (hostRowMax_apply S b i)

/-- A per-row number spread along its row reads, at `(b, i, j)`, the number of row `(b, i)`. -/
theorem spread_apply (r : Rows Ideal) (b : Fin 4) (i j : Fin 4096) : spread r (ix3 b i j) = r (ix2 b i) :=
  (lanes_apply bcast_S4x4096x1_S4x4096x4096_0_1_2 _ b i j).trans (keep_apply bcast_S4x4096_S4x4096x1_0_1 r b i 0)

/-- The exponentials at `(b, i, j)`. -/
theorem expo_apply (S : Sq Ideal) (b : Fin 4) (i j : Fin 4096) :
    expo S (ix3 b i j) = Ideal.exp (S (ix3 b i j) - rowMaxAt (fun b i j => S (ix3 b i j)) b i) := by
  show Ideal.exp (S (ix3 b i j) - spread (rowMax S) (ix3 b i j)) = _
  rw [spread_apply, rowMax_apply]

/-- The row sum at `(b, i)`: from the zero word, so the plain sum of the row. -/
theorem rowSum_apply (E : Sq Ideal) (b : Fin 4) (i : Fin 4096) : rowSum E (ix2 b i) = ∑ j : Fin 4096, E (ix3 b i j) := by
  unfold rowSum
  rw [hostSum_apply E _ reducesTo_S4x4096x4096_S4x4096_d2 (by decide) h_S_ b i]
  show Ideal.ofBits .f32 0x00000000#32 + _ = _
  rw [Ideal.ofBits_zero_f32, zero_add]

/-- The softmax at `(b, i, j)`. -/
theorem probs_apply (S : Sq Ideal) (b : Fin 4) (i j : Fin 4096) :
    probs S (ix3 b i j) = probAt (fun b i j => S (ix3 b i j)) b i j := by
  unfold probs probAt rowSumAt
  refine divf_at _ _ _ _ _ (expo_apply S b i j) ?_
  rw [spread_apply, rowSum_apply]
  exact Finset.sum_congr rfl fun j' _ => expo_apply S b i j'

/-- The attended array at `(b, c, h, w)`: the sum over the positions `j` of the flat array at `(b, c, j)` times the
    matrix entry at row `64 h + w`, column `j`. -/
theorem att_apply (X : Flat Ideal) (P : Sq Ideal) (b : Fin 4) (c : Fin 256) (h w : Fin 64) :
    att X P (ix4 b c h w) = ∑ j : Fin 4096, X (ix3 b c j) * P (ix3 b (pos h w) j) := by
  unfold att
  rw [unflat_apply]
  exact lastDot_apply (φ₁ := .f32) (φ₂ := .f32) _ dot_S4x256x4096_S4x4096x4096_S4x256x4096_2_2_1_1_0_0_wf rfl none X P b c (pos h w)

/-- The join at a channel of the first 256: the first piece. -/
theorem join_lo (A B : Arg Ideal) (b : Fin 4) (ch : Fin 256) (h w : Fin 64) :
    join A B (ix4 b (⟨ch.val, by have := ch.isLt; omega⟩ : Fin 512) h w) = A (ix4 b ch h w) := by
  unfold join
  refine concatenate_pair_apply_left (t := S4x512x64x64) (s₁ := S4x256x64x64) (s₂ := S4x256x64x64) (1 : Fin 4) A B
    concatenates_S4x256x64x64_S4x256x64x64_S4x512x64x64_d1 _ rfl (ix4 b ch h w) fun ax => ?_
  match ax with
  | ⟨0, _⟩ => rfl
  | ⟨1, _⟩ => rfl
  | ⟨2, _⟩ => rfl
  | ⟨3, _⟩ => rfl

/-- The join at channel `256 + ch`: the second piece at channel `ch`. -/
theorem join_hi (A B : Arg Ideal) (b : Fin 4) (ch : Fin 256) (h w : Fin 64) :
    join A B (ix4 b (⟨256 + ch.val, by have := ch.isLt; omega⟩ : Fin 512) h w) = B (ix4 b ch h w) := by
  unfold join
  refine concatenate_pair_apply_right (t := S4x512x64x64) (s₁ := S4x256x64x64) (s₂ := S4x256x64x64) (1 : Fin 4) A B
    concatenates_S4x256x64x64_S4x256x64x64_S4x512x64x64_d1 _ rfl rfl (ix4 b ch h w) (fun ax hne => ?_) ?_
  · match ax with
    | ⟨0, _⟩ => rfl
    | ⟨1, _⟩ => exact absurd rfl hne
    | ⟨2, _⟩ => rfl
    | ⟨3, _⟩ => rfl
  · show ch.val + 256 = 256 + ch.val
    omega

/-! ## The result at an index -/

/-- The scores of two flattened arguments, over coordinates. -/
theorem scores_flat (V T : Arg Ideal) :
    (fun b i j => scores (flat V) (flat T) (ix3 b i j)) = scoreAt (flatAt V) (flatAt T) := by
  funext b i j
  rw [scores_apply]
  exact Finset.sum_congr rfl fun c _ => by rw [flat_apply, flat_apply]

/-- One half of the result: an argument plus the other argument attended by the softmax of the pair's scores. -/
theorem half_apply (V T : Arg Ideal) (b : Fin 4) (ch : Fin 256) (h w : Fin 64) :
    addf V (att (flat T) (probs (scores (flat V) (flat T)))) (ix4 b ch h w)
      = (V (ix4 b ch h w) : EReal)
        + ∑ j : Fin 4096, flatAt T b ch j * probAt (scoreAt (flatAt V) (flatAt T)) b (pos h w) j := by
  refine addf_at _ _ _ _ _ rfl ?_
  rw [att_apply]
  exact Finset.sum_congr rfl fun j _ => by rw [flat_apply, probs_apply, scores_flat]

/-- THE RESULT AT A CHANNEL OF THE FIRST 256. -/
theorem refOut_lo (V T : Arg Ideal) (b : Fin 4) (ch : Fin 256) (h w : Fin 64) :
    refOut V T (ix4 b (⟨ch.val, by have := ch.isLt; omega⟩ : Fin 512) h w)
      = (V (ix4 b ch h w) : EReal)
        + ∑ j : Fin 4096, flatAt T b ch j * probAt (scoreAt (flatAt V) (flatAt T)) b (pos h w) j := by
  unfold refOut
  rw [join_lo]
  exact half_apply V T b ch h w

/-- THE RESULT AT CHANNEL `256 + ch`: the same with the two arguments exchanged. -/
theorem refOut_hi (V T : Arg Ideal) (b : Fin 4) (ch : Fin 256) (h w : Fin 64) :
    refOut V T (ix4 b (⟨256 + ch.val, by have := ch.isLt; omega⟩ : Fin 512) h w)
      = (T (ix4 b ch h w) : EReal)
        + ∑ j : Fin 4096, flatAt V b ch j * probAt (scoreAt (flatAt T) (flatAt V)) b (pos h w) j := by
  unfold refOut
  rw [join_hi]
  exact half_apply T V b ch h w

end Cert.ReferenceIdeal.RefValue

end
-- ==== Proof.RefReal.lean ====
/- The reference's result at an index, for REAL arguments, as one real number.

   When the two arguments are arrays of real numbers, every quantity of the reference's entry is real: the flattened
   reads are real, each score is the real sum over the channels of the products, the row maximum taken from minus
   infinity is a real (the row is not empty), and the softmax-weighted sum is the coercion of the real softmax-weighted
   mean `softAt`. So the result at batch b, channel ch, pixel (h, w) is the coercion of
     x (b, ch, h, w) + softAt (the scores of row 64 h + w) (the flattened y at channel ch),
   and at channel 256 + ch the same with x and y exchanged. -/
import proofs.«154790_j27118423507780_2_alg».proof.Proof.RefRead
import proofs.«154790_j27118423507780_2_alg».proof.Proof.LibSoftmaxReal

noncomputable section

open scoped BigOperators

namespace Cert.ReferenceIdeal.RefValue

open Cert.ReferenceIdeal Cert.ReferenceIdeal.Gen Idealize.ShloMosaic Idealize.ShloMosaic.ValueIdx OnlineSoftmax

/-- A real array read through its flattening: entry `(b, c, n)` is the array at pixel `(n / 64, n % 64)`. -/
def flatR (x : S4x256x64x64.Idx → ℝ) (b : Fin 4) (c : Fin 256) (n : Fin 4096) : ℝ :=
  x (ix4 b c (⟨n.val / 64, by have := n.isLt; omega⟩ : Fin 64) (⟨n.val % 64, Nat.mod_lt _ (by decide)⟩ : Fin 64))

/-- The flattened read of a coerced real array is the coercion of the real flattened read. -/
theorem flatAt_coe (x : S4x256x64x64.Idx → ℝ) (b : Fin 4) (c : Fin 256) (n : Fin 4096) :
    flatAt (fun i => ((x i : ℝ) : EReal)) b c n = ((flatR x b c n : ℝ) : EReal) := rfl

/-- The scores of two coerced real arrays are the coercions of the real sums of products. -/
theorem scoreAt_coe (x y : S4x256x64x64.Idx → ℝ) :
    scoreAt (flatAt fun i => ((x i : ℝ) : EReal)) (flatAt fun i => ((y i : ℝ) : EReal))
      = fun b i j => ((∑ c : Fin 256, flatR x b c i * flatR y b c j : ℝ) : EReal) := by
  funext b i j
  unfold scoreAt
  exact coe_sum_mul Finset.univ (fun c => flatR x b c i) (fun c => flatR y b c j)

/-- A row of the softmax of coerced real scores, weighted by coerced real values and summed, is the coercion of the
    softmax-weighted mean of the values under that row's scores. -/
theorem softRow_coe (S : Fin 4 → Fin 4096 → Fin 4096 → ℝ) (t : Fin 4096 → ℝ) (b : Fin 4) (i : Fin 4096) :
    (∑ j : Fin 4096, (t j : EReal) * probAt (fun b i j => ((S b i j : ℝ) : EReal)) b i j)
      = ((softAt (fun j => S b i j) t : ℝ) : EReal) := by
  unfold probAt rowSumAt rowMaxAt
  rw [negInf_eq_bot]
  exact reference_eq_softAt (fun j => S b i j) t

/-- One half of the result over the reals. -/
theorem half_real (x y : S4x256x64x64.Idx → ℝ) (b : Fin 4) (ch : Fin 256) (h w : Fin 64) :
    (((x (ix4 b ch h w) : ℝ) : EReal)
        + ∑ j : Fin 4096, flatAt (fun i => ((y i : ℝ) : EReal)) b ch j
            * probAt (scoreAt (flatAt fun i => ((x i : ℝ) : EReal)) (flatAt fun i => ((y i : ℝ) : EReal))) b (pos h w) j)
      = ((x (ix4 b ch h w)
          + softAt (fun j : Fin 4096 => ∑ c : Fin 256, flatR x b c (pos h w) * flatR y b c j) (fun j => flatR y b ch j) : ℝ) : EReal) := by
  rw [EReal.coe_add, scoreAt_coe]
  exact congrArg (((x (ix4 b ch h w) : ℝ) : EReal) + ·)
    (softRow_coe (fun b i j => ∑ c : Fin 256, flatR x b c i * flatR y b c j) (fun j => flatR y b ch j) b (pos h w))

/-- THE RESULT AT A CHANNEL OF THE FIRST 256, for real arguments. -/
theorem refOut_lo_real (x y : S4x256x64x64.Idx → ℝ) (b : Fin 4) (ch : Fin 256) (h w : Fin 64) :
    refOut (F := Ideal) (fun i => ((x i : ℝ) : EReal)) (fun i => ((y i : ℝ) : EReal))
        (ix4 b (⟨ch.val, by have := ch.isLt; omega⟩ : Fin 512) h w)
      = ((x (ix4 b ch h w)
          + softAt (fun j : Fin 4096 => ∑ c : Fin 256, flatR x b c (pos h w) * flatR y b c j) (fun j => flatR y b ch j) : ℝ) : EReal) :=
  (refOut_lo _ _ b ch h w).trans (half_real x y b ch h w)

/-- THE RESULT AT CHANNEL `256 + ch`, for real arguments: the same with the two arguments exchanged. -/
theorem refOut_hi_real (x y : S4x256x64x64.Idx → ℝ) (b : Fin 4) (ch : Fin 256) (h w : Fin 64) :
    refOut (F := Ideal) (fun i => ((x i : ℝ) : EReal)) (fun i => ((y i : ℝ) : EReal))
        (ix4 b (⟨256 + ch.val, by have := ch.isLt; omega⟩ : Fin 512) h w)
      = ((y (ix4 b ch h w)
          + softAt (fun j : Fin 4096 => ∑ c : Fin 256, flatR y b c (pos h w) * flatR x b c j) (fun j => flatR x b ch j) : ℝ) : EReal) :=
  (refOut_hi _ _ b ch h w).trans (half_real y x b ch h w)

end Cert.ReferenceIdeal.RefValue

end
-- ==== Proof.FiniteInputs.lean ====
/- Finite inputs are real numbers.

   The precondition takes each argument's absolute value, compares it entry by entry with plus infinity (strictly
   below), takes the conjunction of the comparisons over all four axes from "true", and joins the two arguments' flags
   by "and". When the result is "true", every comparison holds, so no entry of either argument is plus or minus
   infinity: an extended real whose absolute value max a (-a) lies strictly below plus infinity is neither, hence a
   real number. Each argument is therefore the entrywise coercion of an array of reals. -/
import proofs.«154790_j27118423507780_2_alg».proof.Pre_finite_inputs
import proofs.«154790_j27118423507780_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The scalar shape has one index. -/
instance : Subsingleton S_.Idx := ⟨fun a b => funext fun d => d.elim0⟩

/-- The word `0x7F800000` is plus infinity. -/
theorem posInf_eq_top : Ideal.ofBits .f32 0x7F800000#32 = (⊤ : EReal) := by
  simp [Ideal.ofBits, Ideal.ieee]

/-- A decided proposition's flag is one exactly when the decision is "true". -/
theorem ofBool_eq_one (b : Bool) : BitVec.ofBool b = 1#1 ↔ b = true := by cases b <;> decide

/-- An extended real whose absolute value lies strictly below plus infinity is a real number. -/
theorem real_of_abs_lt (a : EReal)
    (h : Ideal.cmp .olt (max a (-a)) (Ideal.ofBits .f32 0x7F800000#32) = 1#1) : ∃ r : ℝ, a = (r : EReal) := by
  rw [posInf_eq_top] at h
  have h2 : decide (max a (-a) < (⊤ : EReal)) = true := (ofBool_eq_one _).mp h
  have h' : max a (-a) < ⊤ := of_decide_eq_true h2
  induction a using EReal.rec
  · simp at h'
  · exact ⟨_, rfl⟩
  · simp at h'

/-- A conjunction of two flag arrays that holds at an entry holds for each of them there. -/
theorem andi_at {s : Shape} (p q : IVec s 1) (i : s.Idx) (h : andi p q i = 1#1) : p i = 1#1 ∧ q i = 1#1 :=
  IntOp.andi_eq_one.mp h

/-- The comparison of an array's absolute value with plus infinity spread over its shape, holding at an entry, makes
    that entry a real number. -/
theorem entry_real {s : Shape} (h0 : (⟨0, ![]⟩ : Shape).BroadcastsInDim s (![] : Fin 0 → Fin s.rank)) (X : FVec Ideal s .f32)
    (i : s.Idx)
    (h : cmpf .olt (Host.absf X) (broadcastInDim s ![] h0 (constant (F := Ideal) ⟨0, ![]⟩ .f32 0x7F800000#32)) i = 1#1) :
    ∃ r : ℝ, X i = (r : EReal) :=
  real_of_abs_lt (X i) h

/-- THE PRECONDITION DECODED: when `finite_inputs` holds of two arrays, each is the coercion of an array of reals. -/
theorem real_of_pre (X Y : FVec Ideal Cert.Pre_finite_inputs.S4x256x64x64 .f32)
    (h : Cert.Pre_finite_inputs.fn (F := Ideal) X Y = (fun _ => 1#1)) :
    (∃ x : Cert.Pre_finite_inputs.S4x256x64x64.Idx → ℝ, ∀ i, X i = ((x i : ℝ) : EReal))
      ∧ (∃ y : Cert.Pre_finite_inputs.S4x256x64x64.Idx → ℝ, ∀ i, Y i = ((y i : ℝ) : EReal)) := by
  have e := congrFun h ValueIdx.ix0
  dsimp only [Cert.Pre_finite_inputs.fn] at e
  obtain ⟨e1, e2⟩ := andi_at _ _ _ e
  have hX : ∀ i, ∃ r : ℝ, X i = (r : EReal) := fun i =>
    entry_real _ X i (Host.reduce_andi_all _ _ _ _ _ e1 i)
  have hY : ∀ i, ∃ r : ℝ, Y i = (r : EReal) := fun i =>
    entry_real _ Y i (Host.reduce_andi_all _ _ _ _ _ e2 i)
  choose x hx using hX
  choose y hy using hY
  exact ⟨⟨x, hx⟩, ⟨y, hy⟩⟩

end Cert.FiniteInputs

end
-- ==== Proof.Bridge.lean ====
/-
  The two results are one array. For finite arguments both programs' result at channel ch (or 256 + ch), batch b and
  pixel (h, w) is the argument's entry plus a softmax-weighted mean of the other argument's channel over the 4096 key
  positions, under the scores of the pixel's query row. The kernel sums over eight key blocks of 512, the reference
  over the 4096 positions at once: the same finite sum, the positions renamed (k, q) ↦ 512·k + q. The softmax's
  stabilising maximum — a running one that starts from a finite stand-in in the kernel, the row's true maximum in the
  reference — cancels in the quotient, which is why the law needs every entry finite.
-/
import proofs.«154790_j27118423507780_2_alg».proof.Proof.FlashOnline
import proofs.«154790_j27118423507780_2_alg».proof.Proof.RefReal
import proofs.«154790_j27118423507780_2_alg».proof.Proof.FiniteInputs

set_option maxRecDepth 16384

noncomputable section

namespace Cert.Proof.Attention

open Idealize.ShloMosaic Idealize.ShloMosaic.TcCoe Idealize.ShloMosaic.ValueIdx Idealize.SL.Sem OnlineSoftmax
open Cert.KernelIdeal.Flash Cert.ReferenceIdeal.RefValue

/-- Key position 512·k + q from (key block, column). -/
def keyEquiv : Fin 8 × Fin 512 ≃ Fin 4096 := finProdFinEquiv

theorem qPos_eq (h w : Fin 64) : qPos (qiOf h w) (rOf h w) = pos h w :=
  Fin.ext (by show ((h.val * 64 + w.val) / 1024) * 1024 + (h.val * 64 + w.val) % 1024 = h.val * 64 + w.val; omega)

theorem kPos_eq (p : Fin 8 × Fin 512) : kPos p.1.val p.2 = keyEquiv p :=
  Fin.ext (by show (p.1.val % 8) * 512 + p.2.val = p.2.val + 512 * p.1.val; have := p.1.isLt; omega)

/-- The flattened read at pixel position h·64 + w is the array's entry (h, w). -/
theorem flat_pos (x : Cert.KernelIdeal.S4x256x64x64.Idx → ℝ) (b : Fin 4) (ch : Fin 256) (h w : Fin 64) :
    Cert.KernelIdeal.Flash.flat x b ch (pos h w) = x (ix4 b ch h w) := by
  have hh : (⟨(pos h w).val / 64, by have := (pos h w).isLt; omega⟩ : Fin 64) = h :=
    Fin.ext (by show (h.val * 64 + w.val) / 64 = h.val; have := w.isLt; omega)
  have hw : (⟨(pos h w).val % 64, Nat.mod_lt _ (by decide)⟩ : Fin 64) = w :=
    Fin.ext (by show (h.val * 64 + w.val) % 64 = w.val; have := w.isLt; omega)
  unfold Cert.KernelIdeal.Flash.flat
  rw [hh, hw]

/-- The blockwise softmax-weighted mean is the mean over all key positions. -/
theorem soft_blocks (u v : Cert.KernelIdeal.S4x256x64x64.Idx → ℝ) (b : Fin 4) (ch : Fin 256) (h w : Fin 64) :
    softAt (fun p : Fin 8 × Fin 512 => runS u v b (qiOf h w) (rOf h w) p.1 p.2) (fun p => runT v b ch p.1 p.2)
      = softAt (fun j : Fin 4096 => ∑ c' : Fin 256, flatR u b c' (pos h w) * flatR v b c' j) (fun j => flatR v b ch j) := by
  rw [← softAt_equiv keyEquiv]
  have e1 : (fun p : Fin 8 × Fin 512 => runS u v b (qiOf h w) (rOf h w) p.1 p.2)
      = (fun j : Fin 4096 => ∑ c' : Fin 256, flatR u b c' (pos h w) * flatR v b c' j) ∘ keyEquiv := by
    funext p
    show (∑ c' : Fin 256, Cert.KernelIdeal.Flash.flat u b c' (qPos (qiOf h w) (rOf h w)) * Cert.KernelIdeal.Flash.flat v b c' (kPos p.1.val p.2)) = _
    rw [qPos_eq, kPos_eq]; rfl
  have e2 : (fun p : Fin 8 × Fin 512 => runT v b ch p.1 p.2) = (fun j : Fin 4096 => flatR v b ch j) ∘ keyEquiv := by
    funext p
    show Cert.KernelIdeal.Flash.flat v b ch (kPos p.1.val p.2) = _
    rw [kPos_eq]; rfl
  rw [e1, e2]

/-- THE TWO RESULTS AGREE: under the precondition the reference's result array is the kernel's. -/
theorem result_eq (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = (fun _ => 1#1)) :
    (refOut (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : Cert.KernelIdeal.S4x512x64x64.Idx → EReal)
      = kernelOut m c := by
  obtain ⟨⟨x, hx⟩, ⟨y, hy⟩⟩ := Cert.FiniteInputs.real_of_pre _ _ hpre
  have eX : (m ((c.tc : Thread Cert.KernelIdeal.nD Cert.KernelIdeal.τ).loc Cert.KernelIdeal.main_arg0) : Cert.KernelIdeal.S4x256x64x64.Idx → EReal)
      = fun i => ((x i : ℝ) : EReal) := funext hx
  have eY : (m ((c.tc : Thread Cert.KernelIdeal.nD Cert.KernelIdeal.τ).loc Cert.KernelIdeal.main_arg1) : Cert.KernelIdeal.S4x256x64x64.Idx → EReal)
      = fun i => ((y i : ℝ) : EReal) := funext hy
  have lo : ∀ (b : Fin 4) (ch : Fin 256) (h w : Fin 64),
      (refOut (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) : Cert.KernelIdeal.S4x512x64x64.Idx → EReal)
          (ix4 b (⟨ch.val, by have := ch.isLt; omega⟩ : Fin 512) h w)
        = kernelOut m c (ix4 b (⟨ch.val, by have := ch.isLt; omega⟩ : Fin 512) h w) := by
    intro b ch h w
    rw [eX, eY, refOut_lo_real x y b ch h w, kernelOut_lo_real m c x y hx hy b ch h w, soft_blocks, qPos_eq, add_comm, flat_pos]
  have hi : ∀ (b : Fin 4) (ch : Fin 256) (h w : Fin 64),
      (refOut (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) : Cert.KernelIdeal.S4x512x64x64.Idx → EReal)
          (ix4 b (⟨256 + ch.val, by have := ch.isLt; omega⟩ : Fin 512) h w)
        = kernelOut m c (ix4 b (⟨256 + ch.val, by have := ch.isLt; omega⟩ : Fin 512) h w) := by
    intro b ch h w
    rw [eX, eY, refOut_hi_real x y b ch h w, kernelOut_hi_real m c x y hx hy b ch h w, soft_blocks, qPos_eq, add_comm, flat_pos]
  funext i
  obtain ⟨b, ch', h, w, rfl⟩ : ∃ (b : Fin 4) (ch' : Fin 512) (h w : Fin 64), i = ix4 b ch' h w := ⟨i 0, i 1, i 2, i 3, eq_ix4 i⟩
  by_cases hc : ch'.val < 256
  · exact lo b ⟨ch'.val, hc⟩ h w
  · have hc' : ch'.val - 256 < 256 := by have := ch'.isLt; omega
    have e : ch' = (⟨256 + (⟨ch'.val - 256, hc'⟩ : Fin 256).val, by have := ch'.isLt; omega⟩ : Fin 512) :=
      Fin.ext (by show ch'.val = 256 + (ch'.val - 256); omega)
    rw [e]
    exact hi b ⟨ch'.val - 256, hc'⟩ h w

end Cert.Proof.Attention

end
-- ==== Proof.lean ====
/-
  The certificate of a fused attention kernel against the plain softmax reference.

  The kernel computes, for two feature maps V and T flattened to 4096 pixels of 256 channels, the attention of V's
  pixels over T's (scores Σ_c V[c,i]·T[c,j], softmax over j, values T) and of T's pixels over V's, adds the residual and
  sets the two halves one after the other along the channels. It does so by the online softmax: over eight blocks of
  512 keys it keeps a running maximum (started from a finite stand-in), a running normaliser and a running weighted
  sum, rescaling the latter two by the exponential of the maximum's change, and divides at the last block. The
  reference takes the softmax of each whole row. Over the extended reals with finite inputs every quantity is a real,
  the rescalings telescope, and the stabilising maximum — whichever it is — cancels in the quotient: both programs
  give the argument's entry plus the same softmax-weighted mean (Proof/Bridge.lean, over Proof/LibOnlineSoftmax.lean
  and Proof/LibSoftmaxReal.lean).

  Each kernel program's run — it ends, faults nowhere, leaves its arguments as they were, and ends with the result
  buffer at the later host operations' value of what the region leaves — is proved from the body's three symbolic runs
  (first, middle, last key block), the point-by-point proof data with the six scratch buffers carried between points,
  and the launch theorem for windows that share arrays (the bf16 copies are each read through a query-block window and
  a key-block window): Proof/Flash*.lean for the idealized kernel, Proof/BitsFlash*.lean for the printed one.
  The reference's run is read in four stretches (Proof/RefValue.lean over Proof/RefRun.lean).
-/
import proofs.«154790_j27118423507780_2_alg».proof.Defs
import proofs.«154790_j27118423507780_2_alg».proof.Proof.Gen.Kernel
import proofs.«154790_j27118423507780_2_alg».proof.Proof.Gen.KernelIdeal
import proofs.«154790_j27118423507780_2_alg».proof.Proof.Gen.ReferenceIdeal
import proofs.«154790_j27118423507780_2_alg».proof.Proof.Gen.Pre_finite_inputs
import proofs.«154790_j27118423507780_2_alg».proof.Proof.BitsFlashLaunch
import proofs.«154790_j27118423507780_2_alg».proof.Proof.FlashLaunch
import proofs.«154790_j27118423507780_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_k : Cert.frame_Kernel (hKernel := Cert.Kernel.Gen.facts) (hPre_finite_inputs := Cert.Pre_finite_inputs.Gen.facts) :=
  fun m ρ _ => Cert.Kernel.Flash.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Flash.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_run m ρ)

/-- From memories agreeing on the arguments both idealized programs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Flash.kernelOut m c, Cert.KernelIdeal.Flash.run_main m ρ, ?_⟩
  refine (θ_run Cert.ReferenceIdeal.defs _ _).mono (fun _ h c => ⟨(h c).1.trans ?_, (h c).2⟩) (Cert.ReferenceIdeal.RefValue.ref_run m' ρ')
  rw [(hagree c).1, (hagree c).2]
  exact Cert.Proof.Attention.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
